-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg12 : FVec F S128x3 .f32) (main_arg13 : FVec F S3 .f32) (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  let main_v54 : FVec F S128x3 .f32 := Host.absf main_arg12
  let main_cst_20 : FVec F S_ .f32 := constant S_ .f32 0x7F800000#32
  let main_v55 : FVec F S128x3 .f32 := broadcastInDim S128x3 ![] bcast_S_S128x3 main_cst_20
  let main_v56 : IVec S128x3 1 := cmpf .olt main_v54 main_v55
  let main_c_21 : IVec S_ 1 := constantI S_ 1 1#1
  let main_v57 : IVec S_ 1 := (fun x v => Host.reduce IntOp.andi x v reducesTo_S128x3_S_d0_1 h_S_) main_v56 main_c_21
  let main_v58 : IVec S_ 1 := andi main_v53 main_v57
  let main_v59 : FVec F S3 .f32 := Host.absf main_arg13
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  main_v63

def fn_part2 {F : FTy → Type} [FloatOps F] (main_arg8 : FVec F S128x3 .f32) (main_arg9 : FVec F S3 .f32) (main_arg10 : FVec F S128x3 .f32) (main_arg11 : FVec F S3 .f32) (main_arg12 : FVec F S128x3 .f32) (main_arg13 : FVec F S3 .f32) (main_v33 : IVec S_ 1) : IVec S_ 1 :=
  let main_v34 : FVec F S128x3 .f32 := Host.absf main_arg8
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S128x3 .f32 := Host.absf main_arg10
  let main_cst_16 : FVec F S_ .f32 := constant S_ .f32 0x7F800000#32
  let main_v45 : FVec F S128x3 .f32 := broadcastInDim S128x3 ![] bcast_S_S128x3 main_cst_16
  let main_v46 : IVec S128x3 1 := cmpf .olt main_v44 main_v45
  let main_c_17 : IVec S_ 1 := constantI S_ 1 1#1
  let main_v47 : IVec S_ 1 := (fun x v => Host.reduce IntOp.andi x v reducesTo_S128x3_S_d0_1 h_S_) main_v46 main_c_17
  let main_v48 : IVec S_ 1 := andi main_v43 main_v47
  let main_v49 : FVec F S3 .f32 := Host.absf main_arg11
  let main_cst_18 : FVec F S_ .f32 := constant S_ .f32 0x7F800000#32
  let main_v50 : FVec F S3 .f32 := broadcastInDim S3 ![] bcast_S_S3 main_cst_18
  fn_part3 (F := F) main_arg12 main_arg13 main_v48 main_v49 main_v50

def fn_part1 {F : FTy → Type} [FloatOps F] (main_arg5 : FVec F S256 .f32) (main_arg6 : FVec F S256x128 .f32) (main_arg7 : FVec F S128 .f32) (main_arg8 : FVec F S128x3 .f32) (main_arg9 : FVec F S3 .f32) (main_arg10 : FVec F S128x3 .f32) (main_arg11 : FVec F S3 .f32) (main_arg12 : FVec F S128x3 .f32) (main_arg13 : FVec F S3 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x512 .f32) (main_arg1 : IVec S2x800000 32) (main_arg2 : FVec F S512x256 .f32) (main_arg3 : FVec F S256 .f32) (main_arg4 : FVec F S256x256 .f32) (main_arg5 : FVec F S256 .f32) (main_arg6 : FVec F S256x128 .f32) (main_arg7 : FVec F S128 .f32) (main_arg8 : FVec F S128x3 .f32) (main_arg9 : FVec F S3 .f32) (main_arg10 : FVec F S128x3 .f32) (main_arg11 : FVec F S3 .f32) (main_arg12 : FVec F S128x3 .f32) (main_arg13 : FVec F S3 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x3 : Shape := ⟨2, ![128, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x256 : Shape := ⟨2, ![50000, 256]⟩
abbrev S2000x512 : Shape := ⟨2, ![2000, 512]⟩
abbrev S2000x256 : Shape := ⟨2, ![2000, 256]⟩
abbrev S800000x256 : Shape := ⟨2, ![800000, 256]⟩
abbrev S50000x1 : Shape := ⟨2, ![50000, 1]⟩
abbrev S1x256 : Shape := ⟨2, ![1, 256]⟩
abbrev S2000x1 : Shape := ⟨2, ![2000, 1]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩
abbrev S128x9 : Shape := ⟨2, ![128, 9]⟩
abbrev S9 : Shape := ⟨1, ![9]⟩
abbrev S128x128 : Shape := ⟨2, ![128, 128]⟩
abbrev S50000x9 : Shape := ⟨2, ![50000, 9]⟩

abbrev nBuf : Space → Nat
  | .hbm => 127
  | .vmem => 48
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x3, .f32⟩
  | .hbm, ⟨9, _⟩ => ⟨S3, .f32⟩
  | .hbm, ⟨10, _⟩ => ⟨S128x3, .f32⟩
  | .hbm, ⟨11, _⟩ => ⟨S3, .f32⟩
  | .hbm, ⟨12, _⟩ => ⟨S128x3, .f32⟩
  | .hbm, ⟨13, _⟩ => ⟨S3, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000, .f32⟩
  | .hbm, ⟨46, _⟩ => ⟨S800000, .f32⟩
  | .hbm, ⟨47, _⟩ => ⟨S50000, .f32⟩
  | .hbm, ⟨48, _⟩ => ⟨S50000x512, .bf16⟩
  | .hbm, ⟨49, _⟩ => ⟨S512x256, .bf16⟩
  | .hbm, ⟨50, _⟩ => ⟨S50000x256, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .f32⟩
  | .hbm, ⟨60, _⟩ => ⟨S800000x1, .f32⟩
  | .hbm, ⟨61, _⟩ => ⟨S800000x256, .f32⟩
  | .hbm, ⟨62, _⟩ => ⟨S800000x256, .f32⟩
  | .hbm, ⟨63, _⟩ => ⟨S_, .f32⟩
  | .hbm, ⟨64, _⟩ => ⟨S50000x256, .f32⟩
  | .hbm, ⟨65, _⟩ => ⟨S800000x1, .i32⟩
  | .hbm, ⟨66, _⟩ => ⟨S50000x256, .f32⟩
  | .hbm, ⟨67, _⟩ => ⟨S50000x1, .f32⟩
  | .hbm, ⟨68, _⟩ => ⟨S1x256, .f32⟩
  | .hbm, ⟨69, _⟩ => ⟨S50000x256, .f32⟩
  | .hbm, ⟨70, _⟩ => ⟨S50000x256, .bf16⟩
  | .hbm, ⟨71, _⟩ => ⟨S256x256, .bf16⟩
  | .hbm, ⟨72, _⟩ => ⟨S50000x256, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x256, .f32⟩
  | .hbm, ⟨82, _⟩ => ⟨S800000x1, .f32⟩
  | .hbm, ⟨83, _⟩ => ⟨S800000x256, .f32⟩
  | .hbm, ⟨84, _⟩ => ⟨S800000x256, .f32⟩
  | .hbm, ⟨85, _⟩ => ⟨S_, .f32⟩
  | .hbm, ⟨86, _⟩ => ⟨S50000x256, .f32⟩
  | .hbm, ⟨87, _⟩ => ⟨S800000x1, .i32⟩
  | .hbm, ⟨88, _⟩ => ⟨S50000x256, .f32⟩
  | .hbm, ⟨89, _⟩ => ⟨S50000x1, .f32⟩
  | .hbm, ⟨90, _⟩ => ⟨S1x256, .f32⟩
  | .hbm, ⟨91, _⟩ => ⟨S50000x256, .f32⟩
  | .hbm, ⟨92, _⟩ => ⟨S50000x256, .bf16⟩
  | .hbm, ⟨93, _⟩ => ⟨S256x128, .bf16⟩
  | .hbm, ⟨94, _⟩ => ⟨S50000x128, .f32⟩
  | .hbm, ⟨95, _⟩ => ⟨S_, .i32⟩
  | .hbm, ⟨96, _⟩ => ⟨S800000, .i32⟩
  | .hbm, ⟨97, _⟩ => ⟨S800000, .i1⟩
  | .hbm, ⟨98, _⟩ => ⟨S_, .i32⟩
  | .hbm, ⟨99, _⟩ => ⟨S800000, .i32⟩
  | .hbm, ⟨100, _⟩ => ⟨S800000, .i32⟩
  | .hbm, ⟨101, _⟩ => ⟨S800000, .i32⟩
  | .hbm, ⟨102, _⟩ => ⟨S800000x1, .i32⟩
  | .hbm, ⟨103, _⟩ => ⟨S800000x128, .f32⟩
  | .hbm, ⟨104, _⟩ => ⟨S800000x1, .f32⟩
  | .hbm, ⟨105, _⟩ => ⟨S800000x128, .f32⟩
  | .hbm, ⟨106, _⟩ => ⟨S800000x128, .f32⟩
  | .hbm, ⟨107, _⟩ => ⟨S_, .f32⟩
  | .hbm, ⟨108, _⟩ => ⟨S50000x128, .f32⟩
  | .hbm, ⟨109, _⟩ => ⟨S800000x1, .i32⟩
  | .hbm, ⟨110, _⟩ => ⟨S50000x128, .f32⟩
  | .hbm, ⟨111, _⟩ => ⟨S50000x1, .f32⟩
  | .hbm, ⟨112, _⟩ => ⟨S1x128, .f32⟩
  | .hbm, ⟨113, _⟩ => ⟨S50000x128, .f32⟩
  | .hbm, ⟨114, _⟩ => ⟨S128x9, .f32⟩
  | .hbm, ⟨115, _⟩ => ⟨S9, .f32⟩
  | .hbm, ⟨116, _⟩ => ⟨S_, .i32⟩
  | .hbm, ⟨117, _⟩ => ⟨S_, .f32⟩
  | .hbm, ⟨118, _⟩ => ⟨S128x128, .f32⟩
  | .hbm, ⟨119, _⟩ => ⟨S_, .i32⟩
  | .hbm, ⟨120, _⟩ => ⟨S_, .f32⟩
  | .hbm, ⟨121, _⟩ => ⟨S128, .f32⟩
  | .hbm, ⟨122, _⟩ => ⟨S50000x128, .bf16⟩
  | .hbm, ⟨123, _⟩ => ⟨S128x128, .bf16⟩
  | .hbm, ⟨124, _⟩ => ⟨S1x128, .f32⟩
  | .hbm, ⟨125, _⟩ => ⟨S50000x128, .f32⟩
  | .hbm, ⟨126, _⟩ => ⟨S50000x9, .f32⟩
  | .local _ .vmem, ⟨0, _⟩ => ⟨S2000x512, .bf16⟩
  | .local _ .vmem, ⟨1, _⟩ => ⟨S2000x512, .bf16⟩
  | .local _ .vmem, ⟨2, _⟩ => ⟨S512x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .bf16⟩
  | .local _ .vmem, ⟨15, _⟩ => ⟨S2000x256, .bf16⟩
  | .local _ .vmem, ⟨16, _⟩ => ⟨S256x256, .bf16⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x1, .f32⟩
  | .local _ .vmem, ⟨24, _⟩ => ⟨S2000x1, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .bf16⟩
  | .local _ .vmem, ⟨29, _⟩ => ⟨S2000x256, .bf16⟩
  | .local _ .vmem, ⟨30, _⟩ => ⟨S256x128, .bf16⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .bf16⟩
  | .local _ .vmem, ⟨43, _⟩ => ⟨S2000x128, .bf16⟩
  | .local _ .vmem, ⟨44, _⟩ => ⟨S128x128, .bf16⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_8 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_11 : Ref sig .tc := ⟨.hbm, 95, rfl⟩
abbrev main_v68 : Ref sig .tc := ⟨.hbm, 96, rfl⟩
abbrev main_v69 : Ref sig .tc := ⟨.hbm, 97, rfl⟩
abbrev main_c_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_13 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_14 : Ref sig .tc := ⟨.hbm, 116, rfl⟩
abbrev main_call0_v0 : Ref sig .tc := ⟨.hbm, 117, rfl⟩
abbrev main_v86 : Ref sig .tc := ⟨.hbm, 118, rfl⟩
abbrev main_c_15 : Ref sig .tc := ⟨.hbm, 119, rfl⟩
abbrev main_call1_v0 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000_S50000x1 : S50000.ShapeCasts S50000x1
  shapeCasts_S256_S1x256 : S256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S128x3_S128x3_S128x3_S128x9_d1 : Shape.Concatenates [S128x3, S128x3, S128x3] S128x9 1
  concatenates_S3_S3_S3_S9_d0 : Shape.Concatenates [S3, S3, S3] S9 0
  pads_S128x9_S128x128_000_01190 : S128x9.Pads (![0, 0] : Fin 2 → Nat) ![0, 119] ![0, 0] S128x128
  h_S_ : 0 < S_.numel
  pads_S9_S128_01190 : S9.Pads (![0] : Fin 1 → Nat) ![119] ![0] S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S50000x128_S50000x9_0_0 : S50000x128.Slices ![0, 0] S50000x9
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .bf16 = 32 ∨ (Rect.block (s := S50000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .bf16 = 32 ∨ (Rect.block (s := S50000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .bf16 = 32 ∨ (Rect.block (s := S50000x256) S2000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .bf16 = 32 ∨ (Rect.block (s := S256x128) S256x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .bf16 = 32 ∨ (Rect.block (s := S50000x128) S2000x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v27) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v65) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v80) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v81) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v88) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v89) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x3 : Shape := ⟨2, ![128, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x256 : Shape := ⟨2, ![50000, 256]⟩
abbrev S800000x256 : Shape := ⟨2, ![800000, 256]⟩
abbrev S50000x1 : Shape := ⟨2, ![50000, 1]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩
abbrev S50000x3 : Shape := ⟨2, ![50000, 3]⟩
abbrev S1x3 : Shape := ⟨2, ![1, 3]⟩
abbrev S50000x9 : Shape := ⟨2, ![50000, 9]⟩

abbrev nBuf : Space → Nat
  | .hbm => 142
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x256, .f32⟩
  | 5 => ⟨S256, .f32⟩
  | 6 => ⟨S256x128, .f32⟩
  | 7 => ⟨S128, .f32⟩
  | 8 => ⟨S128x3, .f32⟩
  | 9 => ⟨S3, .f32⟩
  | 10 => ⟨S128x3, .f32⟩
  | 11 => ⟨S3, .f32⟩
  | 12 => ⟨S128x3, .f32⟩
  | 13 => ⟨S3, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S50000, .f32⟩
  | 48 => ⟨S50000x256, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x256, .f32⟩
  | 58 => ⟨S800000x1, .f32⟩
  | 59 => ⟨S800000x256, .f32⟩
  | 60 => ⟨S800000x256, .f32⟩
  | 61 => ⟨S_, .f32⟩
  | 62 => ⟨S50000x256, .f32⟩
  | 63 => ⟨S800000x1, .i32⟩
  | 64 => ⟨S50000x256, .f32⟩
  | 65 => ⟨S50000x1, .f32⟩
  | 66 => ⟨S50000x256, .f32⟩
  | 67 => ⟨S50000x256, .f32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x256, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x256, .f32⟩
  | 85 => ⟨S800000x1, .f32⟩
  | 86 => ⟨S800000x256, .f32⟩
  | 87 => ⟨S800000x256, .f32⟩
  | 88 => ⟨S_, .f32⟩
  | 89 => ⟨S50000x256, .f32⟩
  | 90 => ⟨S800000x1, .i32⟩
  | 91 => ⟨S50000x256, .f32⟩
  | 92 => ⟨S50000x1, .f32⟩
  | 93 => ⟨S50000x256, .f32⟩
  | 94 => ⟨S50000x256, .f32⟩
  | 95 => ⟨S50000x256, .f32⟩
  | 96 => ⟨S1x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S800000x1, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000x1, .f32⟩
  | 120 => ⟨S50000x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x512, .f32⟩

abbrev hbmTy0_1 (i : Nat) : BufTy := match i % 128 with
  | 0 => ⟨S50000x128, .f32⟩
  | 1 => ⟨S50000x3, .f32⟩
  | 2 => ⟨S1x3, .f32⟩
  | 3 => ⟨S50000x3, .f32⟩
  | 4 => ⟨S50000x3, .f32⟩
  | 5 => ⟨S50000x3, .f32⟩
  | 6 => ⟨S1x3, .f32⟩
  | 7 => ⟨S50000x3, .f32⟩
  | 8 => ⟨S50000x3, .f32⟩
  | 9 => ⟨S50000x3, .f32⟩
  | 10 => ⟨S1x3, .f32⟩
  | 11 => ⟨S50000x3, .f32⟩
  | 12 => ⟨S50000x3, .f32⟩
  | 13 => ⟨S50000x9, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call0_cst : Ref sig .tc := ⟨.hbm, 72, rfl⟩
abbrev main_call0_v0 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_10 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call1_cst : Ref sig .tc := ⟨.hbm, 99, rfl⟩
abbrev main_call1_v0 : Ref sig .tc := ⟨.hbm, 100, rfl⟩
abbrev main_v70 : Ref sig .tc := ⟨.hbm, 101, rfl⟩
abbrev main_v71 : Ref sig .tc := ⟨.hbm, 102, rfl⟩
abbrev main_c_11 : Ref sig .tc := ⟨.hbm, 103, rfl⟩
abbrev main_v72 : Ref sig .tc := ⟨.hbm, 104, rfl⟩
abbrev main_v73 : Ref sig .tc := ⟨.hbm, 105, rfl⟩
abbrev main_c_12 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_13 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_call2_cst : Ref sig .tc := ⟨.hbm, 126, rfl⟩
abbrev main_call2_v0 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  concatenates_S50000x3_S50000x3_S50000x3_S50000x9_d1 : Shape.Concatenates [S50000x3, S50000x3, S50000x3] S50000x9 1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x3_S50000x3_1_0_0_1_n_n_wf : DotDims.WF S50000x128 S128x3 S50000x3 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.KI.Region0.lean ====
/-
  Region 0 of the program (`cc0__matmul_kernel`): a block of 2000 rows of the first layer's input times the whole first weight matrix.
  The body reads each input window's staging buffer whole, computes one value, and stores it over the whole of the output
  window's staging buffer. Stated at a parameter `V`, the buffers' contents when the region is entered, and at any
  float instance: what each window's block is at a grid point, what the body leaves in the output buffer as a function
  of the input blocks, the body's triple, the pipeline's proof data, and the body obligation at every grid point.
-/
import proofs.«130624_j18597208392405_1_alg».proof.Proof.Gen.KernelIdeal.Launch
import proofs.«130624_j18597208392405_1_alg».proof.Proof.Gen.KernelIdeal.Skeleton
import proofs.«130624_j18597208392405_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every grid point, whether or not it was fetched there
    (an unfetched window's block index has not moved), for any proof data over the arrays `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every grid point, whether or not it was fetched there
    (an unfetched window's block index has not moved), for any proof data over the arrays `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x512 := Rect.unit (s := S2000x512) ![0, 0] S2000x512.size inb_S2000x512_S2000x512_0_0
abbrev r0_1 : Rect S512x256 := Rect.unit (s := S512x256) ![0, 0] S512x256.size inb_S512x256_S512x256_0_0
abbrev r0_2 : Rect S2000x256 := Rect.unit (s := S2000x256) ![0, 0] S2000x256.size inb_S2000x256_S2000x256_0_0

/-- What the body leaves in the output window's staging buffer, from the input windows' blocks: its one store, of the
    body's value at the loaded blocks, laid over the whole buffer. -/
def out0_2 (x0 : Vec F S2000x512 .bf16) (x1 : Vec F S512x256 .bf16) : Vec F S2000x256 .f32 :=
  View.canon [⟨r0_2, k0_pay1 (View.ld x0 r0_0) (View.ld x1 r0_1)⟩]

/-- The one store's rectangle is the whole buffer, so it covers every index. -/
theorem cover0_2 (p0 : Vec F S2000x256 .f32) (y : S2000x256.Idx) :
    ∃ pc ∈ ([⟨r0_2, p0⟩] : List (View.Piece (Elt F) S2000x256 .f32)), y ∈ pc.1.set :=
  View.cover_of_tiled [⟨r0_2, p0⟩] S2000x256.size (by rfl) y

set_option maxHeartbeats 1000000 in
/-- The body on whole staging buffers, the inputs' reading `x_w` and the output's anything, runs to its return leaving the
    inputs' as they were and the output's at `out0_2` of the inputs'. -/
theorem sound_kernel0 (c : Dev nD) (E : Set ℕ) (i : grid0.Coords) (arg0 : Memref sig .tc .vmem S2000x512 .bf16) (harg0 : arg0.IsWhole) (arg1 : Memref sig .tc .vmem S512x256 .bf16) (harg1 : arg1.IsWhole) (arg2 : Memref sig .tc .vmem S2000x256 .f32) (harg2 : arg2.IsWhole)
    (x0 : Vec F S2000x512 .bf16) (x1 : Vec F S512x256 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region's pipeline on core `c`: the arrays as the region finds them; after the body at grid
    point `t` each input's buffer at its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at grid point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Region1.lean ====
/-
  Region 1 of the program (`cc1__combine_kernel`): on a block of 2000 rows, max(agg + h * norm_self + b, 0) of the first layer.
  The body reads each input window's staging buffer whole, computes one value, and stores it over the whole of the output
  window's staging buffer. Stated at a parameter `V`, the buffers' contents when the region is entered, and at any
  float instance: what each window's block is at a grid point, what the body leaves in the output buffer as a function
  of the input blocks, the body's triple, the pipeline's proof data, and the body obligation at every grid point.
-/
import proofs.«130624_j18597208392405_1_alg».proof.Proof.Gen.KernelIdeal.Launch
import proofs.«130624_j18597208392405_1_alg».proof.Proof.Gen.KernelIdeal.Skeleton
import proofs.«130624_j18597208392405_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every grid point, whether or not it was fetched there
    (an unfetched window's block index has not moved), for any proof data over the arrays `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every grid point, whether or not it was fetched there
    (an unfetched window's block index has not moved), for any proof data over the arrays `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block at every grid point, whether or not it was fetched there
    (an unfetched window's block index has not moved), for any proof data over the arrays `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds the window's block at every grid point, whether or not it was fetched there
    (an unfetched window's block index has not moved), for any proof data over the arrays `V` whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2000x256 := Rect.unit (s := S2000x256) ![0, 0] S2000x256.size inb_S2000x256_S2000x256_0_0
abbrev r1_1 : Rect S2000x256 := Rect.unit (s := S2000x256) ![0, 0] S2000x256.size inb_S2000x256_S2000x256_0_0
abbrev r1_2 : Rect S2000x1 := Rect.unit (s := S2000x1) ![0, 0] S2000x1.size inb_S2000x1_S2000x1_0_0
abbrev r1_3 : Rect S1x256 := Rect.unit (s := S1x256) ![0, 0] S1x256.size inb_S1x256_S1x256_0_0
abbrev r1_4 : Rect S2000x256 := Rect.unit (s := S2000x256) ![0, 0] S2000x256.size inb_S2000x256_S2000x256_0_0

/-- What the body leaves in the output window's staging buffer, from the input windows' blocks: its one store, of the
    body's value at the loaded blocks, laid over the whole buffer. -/
def out1_4 (x0 : Vec F S2000x256 .f32) (x1 : Vec F S2000x256 .f32) (x2 : Vec F S2000x1 .f32) (x3 : Vec F S1x256 .f32) : Vec F S2000x256 .f32 :=
  View.canon [⟨r1_4, k1_pay1 (View.ld x0 r1_0) (View.ld x1 r1_1) (View.ld x2 r1_2) (View.ld x3 r1_3)⟩]

/-- The one store's rectangle is the whole buffer, so it covers every index. -/
theorem cover1_4 (p0 : Vec F S2000x256 .f32) (y : S2000x256.Idx) :
    ∃ pc ∈ ([⟨r1_4, p0⟩] : List (View.Piece (Elt F) S2000x256 .f32)), y ∈ pc.1.set :=
  View.cover_of_tiled [⟨r1_4, p0⟩] S2000x256.size (by rfl) y

set_option maxHeartbeats 1000000 in
/-- The body on whole staging buffers, the inputs' reading `x_w` and the output's anything, runs to its return leaving the
    inputs' as they were and the output's at `out1_4` of the inputs'. -/
theorem sound_kernel1 (c : Dev nD) (E : Set ℕ) (i : grid1.Coords) (arg0 : Memref sig .tc .vmem S2000x256 .f32) (harg0 : arg0.IsWhole) (arg1 : Memref sig .tc .vmem S2000x256 .f32) (harg1 : arg1.IsWhole) (arg2 : Memref sig .tc .vmem S2000x1 .f32) (harg2 : arg2.IsWhole) (arg3 : Memref sig .tc .vmem S1x256 .f32) (harg3 : arg3.IsWhole) (arg4 : Memref sig .tc .vmem S2000x256 .f32) (harg4 : arg4.IsWhole)
    (x0 : Vec F S2000x256 .f32) (x1 : Vec F S2000x256 .f32) (x2 : Vec F S2000x1 .f32) (x3 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__combine_kernel i arg0 harg0 arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the region's pipeline on core `c`: the arrays as the region finds them; after the body at grid
    point `t` each input's buffer at its block and the output's at `out1_4` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at grid point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any grid point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.Region2.lean ====
/-
  Region 2 of the program (`cc2__matmul_kernel`): a block of 2000 rows of the second layer's input times the whole second weight matrix.
  The body reads each input window's staging buffer whole, computes one value, and stores it over the whole of the output
  window's staging buffer. Stated at a parameter `V`, the buffers' contents when the region is entered, and at any
  float instance: what each window's block is at a grid point, what the body leaves in the output buffer as a function
  of the input blocks, the body's triple, the pipeline's proof data, and the body obligation at every grid point.
-/
import proofs.«130624_j18597208392405_1_alg».proof.Proof.Gen.KernelIdeal.Launch
import proofs.«130624_j18597208392405_1_alg».proof.Proof.Gen.KernelIdeal.Skeleton
import proofs.«130624_j18597208392405_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every grid point, whether or not it was fetched there
    (an unfetched window's block index has not moved), for any proof data over the arrays `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the window's block at every grid point, whether or not it was fetched there
    (an unfetched window's block index has not moved), for any proof data over the arrays `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0
abbrev r2_2 : Rect S2000x256 := Rect.unit (s := S2000x256) ![0, 0] S2000x256.size inb_S2000x256_S2000x256_0_0

/-- What the body leaves in the output window's staging buffer, from the input windows' blocks: its one store, of the
    body's value at the loaded blocks, laid over the whole buffer. -/
def out2_2 (x0 : Vec F S2000x256 .bf16) (x1 : Vec F S256x256 .bf16) : Vec F S2000x256 .f32 :=
  View.canon [⟨r2_2, k2_pay1 (View.ld x0 r2_0) (View.ld x1 r2_1)⟩]

/-- The one store's rectangle is the whole buffer, so it covers every index. -/
theorem cover2_2 (p0 : Vec F S2000x256 .f32) (y : S2000x256.Idx) :
    ∃ pc ∈ ([⟨r2_2, p0⟩] : List (View.Piece (Elt F) S2000x256 .f32)), y ∈ pc.1.set :=
  View.cover_of_tiled [⟨r2_2, p0⟩] S2000x256.size (by rfl) y

set_option maxHeartbeats 1000000 in
/-- The body on whole staging buffers, the inputs' reading `x_w` and the output's anything, runs to its return leaving the
    inputs' as they were and the output's at `out2_2` of the inputs'. -/
theorem sound_kernel2 (c : Dev nD) (E : Set ℕ) (i : grid2.Coords) (arg0 : Memref sig .tc .vmem S2000x256 .bf16) (harg0 : arg0.IsWhole) (arg1 : Memref sig .tc .vmem S256x256 .bf16) (harg1 : arg1.IsWhole) (arg2 : Memref sig .tc .vmem S2000x256 .f32) (harg2 : arg2.IsWhole)
    (x0 : Vec F S2000x256 .bf16) (x1 : Vec F S256x256 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region's pipeline on core `c`: the arrays as the region finds them; after the body at grid
    point `t` each input's buffer at its block and the output's at `out2_2` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at grid point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.Region3.lean ====
/-
  Region 3 of the program (`cc3__combine_kernel`): on a block of 2000 rows, max(agg + h * norm_self + b, 0) of the second layer.
  The body reads each input window's staging buffer whole, computes one value, and stores it over the whole of the output
  window's staging buffer. Stated at a parameter `V`, the buffers' contents when the region is entered, and at any
  float instance: what each window's block is at a grid point, what the body leaves in the output buffer as a function
  of the input blocks, the body's triple, the pipeline's proof data, and the body obligation at every grid point.
-/
import proofs.«130624_j18597208392405_1_alg».proof.Proof.Gen.KernelIdeal.Launch
import proofs.«130624_j18597208392405_1_alg».proof.Proof.Gen.KernelIdeal.Skeleton
import proofs.«130624_j18597208392405_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every grid point, whether or not it was fetched there
    (an unfetched window's block index has not moved), for any proof data over the arrays `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds the window's block at every grid point, whether or not it was fetched there
    (an unfetched window's block index has not moved), for any proof data over the arrays `V` whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds the window's block at every grid point, whether or not it was fetched there
    (an unfetched window's block index has not moved), for any proof data over the arrays `V` whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds the window's block at every grid point, whether or not it was fetched there
    (an unfetched window's block index has not moved), for any proof data over the arrays `V` whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2000x256 := Rect.unit (s := S2000x256) ![0, 0] S2000x256.size inb_S2000x256_S2000x256_0_0
abbrev r3_1 : Rect S2000x256 := Rect.unit (s := S2000x256) ![0, 0] S2000x256.size inb_S2000x256_S2000x256_0_0
abbrev r3_2 : Rect S2000x1 := Rect.unit (s := S2000x1) ![0, 0] S2000x1.size inb_S2000x1_S2000x1_0_0
abbrev r3_3 : Rect S1x256 := Rect.unit (s := S1x256) ![0, 0] S1x256.size inb_S1x256_S1x256_0_0
abbrev r3_4 : Rect S2000x256 := Rect.unit (s := S2000x256) ![0, 0] S2000x256.size inb_S2000x256_S2000x256_0_0

/-- What the body leaves in the output window's staging buffer, from the input windows' blocks: its one store, of the
    body's value at the loaded blocks, laid over the whole buffer. -/
def out3_4 (x0 : Vec F S2000x256 .f32) (x1 : Vec F S2000x256 .f32) (x2 : Vec F S2000x1 .f32) (x3 : Vec F S1x256 .f32) : Vec F S2000x256 .f32 :=
  View.canon [⟨r3_4, k3_pay1 (View.ld x0 r3_0) (View.ld x1 r3_1) (View.ld x2 r3_2) (View.ld x3 r3_3)⟩]

/-- The one store's rectangle is the whole buffer, so it covers every index. -/
theorem cover3_4 (p0 : Vec F S2000x256 .f32) (y : S2000x256.Idx) :
    ∃ pc ∈ ([⟨r3_4, p0⟩] : List (View.Piece (Elt F) S2000x256 .f32)), y ∈ pc.1.set :=
  View.cover_of_tiled [⟨r3_4, p0⟩] S2000x256.size (by rfl) y

set_option maxHeartbeats 1000000 in
/-- The body on whole staging buffers, the inputs' reading `x_w` and the output's anything, runs to its return leaving the
    inputs' as they were and the output's at `out3_4` of the inputs'. -/
theorem sound_kernel3 (c : Dev nD) (E : Set ℕ) (i : grid3.Coords) (arg0 : Memref sig .tc .vmem S2000x256 .f32) (harg0 : arg0.IsWhole) (arg1 : Memref sig .tc .vmem S2000x256 .f32) (harg1 : arg1.IsWhole) (arg2 : Memref sig .tc .vmem S2000x1 .f32) (harg2 : arg2.IsWhole) (arg3 : Memref sig .tc .vmem S1x256 .f32) (harg3 : arg3.IsWhole) (arg4 : Memref sig .tc .vmem S2000x256 .f32) (harg4 : arg4.IsWhole)
    (x0 : Vec F S2000x256 .f32) (x1 : Vec F S2000x256 .f32) (x2 : Vec F S2000x1 .f32) (x3 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__combine_kernel i arg0 harg0 arg1 harg1 arg2 harg2 arg3 harg3 arg4 harg4) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of the region's pipeline on core `c`: the arrays as the region finds them; after the body at grid
    point `t` each input's buffer at its block and the output's at `out3_4` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at grid point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any grid point: the inputs' buffers hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KI.Region4.lean ====
/-
  Region 4 of the program (`cc4__matmul_kernel`): a block of 2000 rows of the third layer's input times the whole third weight matrix.
  The body reads each input window's staging buffer whole, computes one value, and stores it over the whole of the output
  window's staging buffer. Stated at a parameter `V`, the buffers' contents when the region is entered, and at any
  float instance: what each window's block is at a grid point, what the body leaves in the output buffer as a function
  of the input blocks, the body's triple, the pipeline's proof data, and the body obligation at every grid point.
-/
import proofs.«130624_j18597208392405_1_alg».proof.Proof.Gen.KernelIdeal.Launch
import proofs.«130624_j18597208392405_1_alg».proof.Proof.Gen.KernelIdeal.Skeleton
import proofs.«130624_j18597208392405_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds the window's block at every grid point, whether or not it was fetched there
    (an unfetched window's block index has not moved), for any proof data over the arrays `V` whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds the window's block at every grid point, whether or not it was fetched there
    (an unfetched window's block index has not moved), for any proof data over the arrays `V` whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x256 := Rect.unit (s := S2000x256) ![0, 0] S2000x256.size inb_S2000x256_S2000x256_0_0
abbrev r4_1 : Rect S256x128 := Rect.unit (s := S256x128) ![0, 0] S256x128.size inb_S256x128_S256x128_0_0
abbrev r4_2 : Rect S2000x128 := Rect.unit (s := S2000x128) ![0, 0] S2000x128.size inb_S2000x128_S2000x128_0_0

/-- What the body leaves in the output window's staging buffer, from the input windows' blocks: its one store, of the
    body's value at the loaded blocks, laid over the whole buffer. -/
def out4_2 (x0 : Vec F S2000x256 .bf16) (x1 : Vec F S256x128 .bf16) : Vec F S2000x128 .f32 :=
  View.canon [⟨r4_2, k4_pay1 (View.ld x0 r4_0) (View.ld x1 r4_1)⟩]

/-- The one store's rectangle is the whole buffer, so it covers every index. -/
theorem cover4_2 (p0 : Vec F S2000x128 .f32) (y : S2000x128.Idx) :
    ∃ pc ∈ ([⟨r4_2, p0⟩] : List (View.Piece (Elt F) S2000x128 .f32)), y ∈ pc.1.set :=
  View.cover_of_tiled [⟨r4_2, p0⟩] S2000x128.size (by rfl) y

set_option maxHeartbeats 1000000 in
/-- The body on whole staging buffers, the inputs' reading `x_w` and the output's anything, runs to its return leaving the
    inputs' as they were and the output's at `out4_2` of the inputs'. -/
theorem sound_kernel4 (c : Dev nD) (E : Set ℕ) (i : grid4.Coords) (arg0 : Memref sig .tc .vmem S2000x256 .bf16) (harg0 : arg0.IsWhole) (arg1 : Memref sig .tc .vmem S256x128 .bf16) (harg1 : arg1.IsWhole) (arg2 : Memref sig .tc .vmem S2000x128 .f32) (harg2 : arg2.IsWhole)
    (x0 : Vec F S2000x256 .bf16) (x1 : Vec F S256x128 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__matmul_kernel i arg0 harg0 arg1 harg1 arg2 harg2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the region's pipeline on core `c`: the arrays as the region finds them; after the body at grid
    point `t` each input's buffer at its block and the output's at `out4_2` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at grid point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any grid point: the inputs' buffers hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.KI.Region5.lean ====
/-
  Region 5 of the program (`cc5__combine_kernel`): on a block of 2000 rows, max(agg + h * norm_self + b, 0) of the third layer.
  The body reads each input window's staging buffer whole, computes one value, and stores it over the whole of the output
  window's staging buffer. Stated at a parameter `V`, the buffers' contents when the region is entered, and at any
  float instance: what each window's block is at a grid point, what the body leaves in the output buffer as a function
  of the input blocks, the body's triple, the pipeline's proof data, and the body obligation at every grid point.
-/
import proofs.«130624_j18597208392405_1_alg».proof.Proof.Gen.KernelIdeal.Launch
import proofs.«130624_j18597208392405_1_alg».proof.Proof.Gen.KernelIdeal.Skeleton
import proofs.«130624_j18597208392405_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds the window's block at every grid point, whether or not it was fetched there
    (an unfetched window's block index has not moved), for any proof data over the arrays `V` whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds the window's block at every grid point, whether or not it was fetched there
    (an unfetched window's block index has not moved), for any proof data over the arrays `V` whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds the window's block at every grid point, whether or not it was fetched there
    (an unfetched window's block index has not moved), for any proof data over the arrays `V` whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds the window's block at every grid point, whether or not it was fetched there
    (an unfetched window's block index has not moved), for any proof data over the arrays `V` whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S2000x128 := Rect.unit (s := S2000x128) ![0, 0] S2000x128.size inb_S2000x128_S2000x128_0_0
abbrev r5_1 : Rect S2000x128 := Rect.unit (s := S2000x128) ![0, 0] S2000x128.size inb_S2000x128_S2000x128_0_0
abbrev r5_2 : Rect S2000x1 := Rect.unit (s := S2000x1) ![0, 0] S2000x1.size inb_S2000x1_S2000x1_0_0
abbrev r5_3 : Rect S1x128 := Rect.unit (s := S1x128) ![0, 0] S1x128.size inb_S1x128_S1x128_0_0
abbrev r5_4 : Rect S2000x128 := Rect.unit (s := S2000x128) ![0, 0] S2000x128.size inb_S2000x128_S2000x128_0_0

/-- What the body leaves in the output window's staging buffer, from the input windows' blocks: its one store, of the
    body's value at the loaded blocks, laid over the whole buffer. -/
def out5_4 (x0 : Vec F S2000x128 .f32) (x1 : Vec F S2000x128 .f32) (x2 : Vec F S2000x1 .f32) (x3 : Vec F S1x128 .f32) : Vec F S2000x128 .f32 :=
  View.canon [⟨r5_4, k5_pay1 (View.ld x0 r5_0) (View.ld x1 r5_1) (View.ld x2 r5_2) (View.ld x3 r5_3)⟩]

/-- The one store's rectangle is the whole buffer, so it covers every index. -/
theorem cover5_4 (p0 : Vec F S2000x128 .f32) (y : S2000x128.Idx) :
    ∃ pc ∈ ([⟨r5_4, p0⟩] : List (View.Piece (Elt F) S2000x128 .f32)), y ∈ pc.1.set :=
  View.cover_of_tiled [⟨r5_4, p0⟩] S2000x128.size (by rfl) y

set_option maxHeartbeats 1000000 in
/-- The body on whole staging buffers, the inputs' reading `x_w` and the output's anything, runs to its return leaving the
    inputs' as they were and the output's at `out5_4` of the inputs'. -/
theorem sound_kernel5 (c : Dev nD) (E : Set ℕ) (i : grid5.Coords) (arg0 : Memref sig .tc .vmem S2000x128 .f32) (harg0 : arg0.IsWhole) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S2000x128 .f32) (x2 : Vec F S2000x1 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out5_4 x0 x1 x2 x3)) -∗ K ⟨⟩))
      ⊢ wp frame (wpE (defs₀ (F := F)) Variants.none c none) E (cc5__combine_kernel i arg0 harg0 arg1 harg1 arg2 harg2 arg3 harg3 arg4 harg4) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The proof data of the region's pipeline on core `c`: the arrays as the region finds them; after the body at grid
    point `t` each input's buffer at its block and the output's at `out5_4` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at grid point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any grid point: the inputs' buffers hold their blocks, so the body's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every grid point. -/
theorem body_obligation5 (c : Dev nD) : BodyObligation (dat5 (F := F) V c) (defs₀ (F := F)) Variants.none () Set.univ := fun t => by
  rw [bigSep_W5, bigSep_W5]
  exact sound_body5 V c t

end Cert.KernelIdeal.Frm

end
-- ==== Proof.KI.Region6.lean ====
/-
  Region 6 of the program (`cc6__matmul_bias_kernel`): a block of 2000 rows of the third layer's output times the padded head matrix, plus the padded head bias.
  The body reads each input window's staging buffer whole, computes one value, and stores it over the whole of the output
  window's staging buffer. Stated at a parameter `V`, the buffers' contents when the region is entered, and at any
  float instance: what each window's block is at a grid point, what the body leaves in the output buffer as a function
  of the input blocks, the body's triple, the pipeline's proof data, and the body obligation at every grid point.
-/
import proofs.«130624_j18597208392405_1_alg».proof.Proof.Gen.KernelIdeal.Launch
import proofs.«130624_j18597208392405_1_alg».proof.Proof.Gen.KernelIdeal.Skeleton
import proofs.«130624_j18597208392405_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds the window's block at every grid point, whether or not it was fetched there
    (an unfetched window's block index has not moved), for any proof data over the arrays `V` whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds the window's block at every grid point, whether or not it was fetched there
    (an unfetched window's block index has not moved), for any proof data over the arrays `V` whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds the window's block at every grid point, whether or not it was fetched there
    (an unfetched window's block index has not moved), for any proof data over the arrays `V` whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S2000x128 := Rect.unit (s := S2000x128) ![0, 0] S2000x128.size inb_S2000x128_S2000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0
abbrev r6_3 : Rect S2000x128 := Rect.unit (s := S2000x128) ![0, 0] S2000x128.size inb_S2000x128_S2000x128_0_0

/-- What the body leaves in the output window's staging buffer, from the input windows' blocks: its one store, of the
    body's value at the loaded blocks, laid over the whole buffer. -/
def out6_3 (x0 : Vec F S2000x128 .bf16) (x1 : Vec F S128x128 .bf16) (x2 : Vec F S1x128 .f32) : Vec F S2000x128 .f32 :=
  View.canon [⟨r6_3, k6_pay1 (View.ld x0 r6_0) (View.ld x1 r6_1) (View.ld x2 r6_2)⟩]

/-- The one store's rectangle is the whole buffer, so it covers every index. -/
theorem cover6_3 (p0 : Vec F S2000x128 .f32) (y : S2000x128.Idx) :
    ∃ pc ∈ ([⟨r6_3, p0⟩] : List (View.Piece (Elt F) S2000x128 .f32)), y ∈ pc.1.set :=
  View.cover_of_tiled [⟨r6_3, p0⟩] S2000x128.size (by rfl) y

set_option maxHeartbeats 1000000 in
/-- The body on whole staging buffers, the inputs' reading `x_w` and the output's anything, runs to its return leaving the
    inputs' as they were and the output's at `out6_3` of the inputs'. -/
theorem sound_kernel6 (c : Dev nD) (E : Set ℕ) (i : grid6.Coords) (arg0 : Memref sig .tc .vmem S2000x128 .bf16) (harg0 : arg0.IsWhole) (arg1 : Memref sig .tc .vmem S128x128 .bf16) (harg1 : arg1.IsWhole) (arg2 : Memref sig .tc .vmem S1x128 .f32) (harg2 : arg2.IsWhole) (arg3 : Memref sig .tc .vmem S2000x128 .f32) (harg3 : arg3.IsWhole)
    (x0 : Vec F S2000x128 .bf16) (x1 : Vec F S128x128 .bf16) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out6_3 x0 x1 x2)) -∗ K ⟨⟩))
      ⊢ wp frame (wpE (defs₀ (F := F)) Variants.none c none) E (cc6__matmul_bias_kernel i arg0 harg0 arg1 harg1 arg2 harg2 arg3 harg3) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of the region's pipeline on core `c`: the arrays as the region finds them; after the body at grid
    point `t` each input's buffer at its block and the output's at `out6_3` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at grid point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any grid point: the inputs' buffers hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation6 (c : Dev nD) : BodyObligation (dat6 (F := F) V c) (defs₀ (F := F)) Variants.none () Set.univ := fun t => by
  rw [bigSep_W6, bigSep_W6]
  exact sound_body6 V c t

end Cert.KernelIdeal.Frm

end
-- ==== Proof.KI.Run.lean ====
/-
  The whole run of the program at any float instance: the buffers' contents at each boundary between two items of
  @main — a stretch of host operations applies them in order; a kernel region leaves each of its arrays at what its
  write-backs fold to and every other buffer as it was —, each region as a segment of the run over the thread state
  "every unscoped buffer at the boundary's contents", and the theorem: every weakly fair execution terminates, nothing
  faults, and the final memory holds every unscoped buffer at the last boundary's contents. The frame claim and the
  value of the result are both read off that one post.
-/
import proofs.«130624_j18597208392405_1_alg».proof.Proof.KI.Region0
import proofs.«130624_j18597208392405_1_alg».proof.Proof.KI.Region1
import proofs.«130624_j18597208392405_1_alg».proof.Proof.KI.Region2
import proofs.«130624_j18597208392405_1_alg».proof.Proof.KI.Region3
import proofs.«130624_j18597208392405_1_alg».proof.Proof.KI.Region4
import proofs.«130624_j18597208392405_1_alg».proof.Proof.KI.Region5
import proofs.«130624_j18597208392405_1_alg».proof.Proof.KI.Region6
import proofs.«130624_j18597208392405_1_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same, read at the TensorCore's references. -/
abbrev B1 : (c : Dev nD) → (b : Ref sig .tc) → Buf (Elt F) ((c : Thread nD τ).loc b) := fun c b => W1 m ρ c b
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
/-- At region 0's exit: its arrays at what the pipeline leaves (an input as entered, the output at its write-backs
    folded), every other buffer as entered. -/
def W2 (c : Dev nD) : Valuation τ sig (Elt F) :=
  Pipeline.withArrays spec0 c (W1 m ρ c) fun w => (dat0 (B1 m ρ) c).arrAt w cfg0.N
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- The same, read at the TensorCore's references. -/
abbrev B3 : (c : Dev nD) → (b : Ref sig .tc) → Buf (Elt F) ((c : Thread nD τ).loc b) := fun c b => W3 m ρ c b
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
/-- At region 1's exit: its arrays at what the pipeline leaves (an input as entered, the output at its write-backs
    folded), every other buffer as entered. -/
def W4 (c : Dev nD) : Valuation τ sig (Elt F) :=
  Pipeline.withArrays spec1 c (W3 m ρ c) fun w => (dat1 (B3 m ρ) c).arrAt w cfg1.N
theorem W4_arr (c : Dev nD) (w : Fin cfg1.W) :
    W4 m ρ c (Proc.devRef .tc (Pipeline.arrRef spec1 w)) = (dat1 (B3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev B4 : (c : Dev nD) → (b : Ref sig .tc) → Buf (Elt F) ((c : Thread nD τ).loc b) := fun c b => W4 m ρ c b
theorem hF1 (c : Dev nD) (w : Fin cfg1.W) : (dat1 (B3 m ρ) c).arrAt w cfg1.N = B4 m ρ c (Pipeline.arrRef spec1 w) :=
  (W4_arr m ρ c w).symm
theorem hrest1 (c : Dev nD) : ∀ b, b ∉ Finset.univ.image (Pipeline.arrRef spec1) → B4 m ρ c b = B3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)
/-- The same, read at the TensorCore's references. -/
abbrev B5 : (c : Dev nD) → (b : Ref sig .tc) → Buf (Elt F) ((c : Thread nD τ).loc b) := fun c b => W5 m ρ c b
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h
/-- At region 2's exit: its arrays at what the pipeline leaves (an input as entered, the output at its write-backs
    folded), every other buffer as entered. -/
def W6 (c : Dev nD) : Valuation τ sig (Elt F) :=
  Pipeline.withArrays spec2 c (W5 m ρ c) fun w => (dat2 (B5 m ρ) c).arrAt w cfg2.N
theorem W6_arr (c : Dev nD) (w : Fin cfg2.W) :
    W6 m ρ c (Proc.devRef .tc (Pipeline.arrRef spec2 w)) = (dat2 (B5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev B6 : (c : Dev nD) → (b : Ref sig .tc) → Buf (Elt F) ((c : Thread nD τ).loc b) := fun c b => W6 m ρ c b
theorem hF2 (c : Dev nD) (w : Fin cfg2.W) : (dat2 (B5 m ρ) c).arrAt w cfg2.N = B6 m ρ c (Pipeline.arrRef spec2 w) :=
  (W6_arr m ρ c w).symm
theorem hrest2 (c : Dev nD) : ∀ b, b ∉ Finset.univ.image (Pipeline.arrRef spec2) → B6 m ρ c b = B5 m ρ c b :=
  fun b hb => W6_of_ne m ρ c b fun w e => hb (Finset.mem_image.mpr ⟨w, Finset.mem_univ _, e⟩)
/-- After the host stretch `hostOps3`. -/
abbrev W7 : Dev nD → Valuation τ sig (Elt F) := fun c => StableHlo.after hostOps3 (W6 m ρ c)
/-- The same, read at the TensorCore's references. -/
abbrev B7 : (c : Dev nD) → (b : Ref sig .tc) → Buf (Elt F) ((c : Thread nD τ).loc b) := fun c b => W7 m ρ c b
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h
/-- At region 3's exit: its arrays at what the pipeline leaves (an input as entered, the output at its write-backs
    folded), every other buffer as entered. -/
def W8 (c : Dev nD) : Valuation τ sig (Elt F) :=
  Pipeline.withArrays spec3 c (W7 m ρ c) fun w => (dat3 (B7 m ρ) c).arrAt w cfg3.N
theorem W8_arr (c : Dev nD) (w : Fin cfg3.W) :
    W8 m ρ c (Proc.devRef .tc (Pipeline.arrRef spec3 w)) = (dat3 (B7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references. -/
abbrev B8 : (c : Dev nD) → (b : Ref sig .tc) → Buf (Elt F) ((c : Thread nD τ).loc b) := fun c b => W8 m ρ c b
theorem hF3 (c : Dev nD) (w : Fin cfg3.W) : (dat3 (B7 m ρ) c).arrAt w cfg3.N = B8 m ρ c (Pipeline.arrRef spec3 w) :=
  (W8_arr m ρ c w).symm
theorem hrest3 (c : Dev nD) : ∀ b, b ∉ Finset.univ.image (Pipeline.arrRef spec3) → B8 m ρ c b = B7 m ρ c b :=
  fun b hb => W8_of_ne m ρ c b fun w e => hb (Finset.mem_image.mpr ⟨w, Finset.mem_univ _, e⟩)
/-- After the host stretch `hostOps4`. -/
abbrev W9 : Dev nD → Valuation τ sig (Elt F) := fun c => StableHlo.after hostOps4 (W8 m ρ c)
/-- The same, read at the TensorCore's references. -/
abbrev B9 : (c : Dev nD) → (b : Ref sig .tc) → Buf (Elt F) ((c : Thread nD τ).loc b) := fun c b => W9 m ρ c b
theorem W9_keep (c : Dev nD) (r : Ref sig .tc) (h : r ∉ hostOps4_W) : W9 m ρ c (Proc.devRef .tc r) = W8 m ρ c (Proc.devRef .tc r) :=
  StableHlo.after_of_writes_sub hostOps4 _ hostOps4_writes h
/-- At region 4's exit: its arrays at what the pipeline leaves (an input as entered, the output at its write-backs
    folded), every other buffer as entered. -/
def W10 (c : Dev nD) : Valuation τ sig (Elt F) :=
  Pipeline.withArrays spec4 c (W9 m ρ c) fun w => (dat4 (B9 m ρ) c).arrAt w cfg4.N
theorem W10_arr (c : Dev nD) (w : Fin cfg4.W) :
    W10 m ρ c (Proc.devRef .tc (Pipeline.arrRef spec4 w)) = (dat4 (B9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same, read at the TensorCore's references. -/
abbrev B10 : (c : Dev nD) → (b : Ref sig .tc) → Buf (Elt F) ((c : Thread nD τ).loc b) := fun c b => W10 m ρ c b
theorem hF4 (c : Dev nD) (w : Fin cfg4.W) : (dat4 (B9 m ρ) c).arrAt w cfg4.N = B10 m ρ c (Pipeline.arrRef spec4 w) :=
  (W10_arr m ρ c w).symm
theorem hrest4 (c : Dev nD) : ∀ b, b ∉ Finset.univ.image (Pipeline.arrRef spec4) → B10 m ρ c b = B9 m ρ c b :=
  fun b hb => W10_of_ne m ρ c b fun w e => hb (Finset.mem_image.mpr ⟨w, Finset.mem_univ _, e⟩)
/-- After the host stretch `hostOps5`. -/
abbrev W11 : Dev nD → Valuation τ sig (Elt F) := fun c => StableHlo.after hostOps5 (W10 m ρ c)
/-- The same, read at the TensorCore's references. -/
abbrev B11 : (c : Dev nD) → (b : Ref sig .tc) → Buf (Elt F) ((c : Thread nD τ).loc b) := fun c b => W11 m ρ c b
theorem W11_keep (c : Dev nD) (r : Ref sig .tc) (h : r ∉ hostOps5_W) : W11 m ρ c (Proc.devRef .tc r) = W10 m ρ c (Proc.devRef .tc r) :=
  StableHlo.after_of_writes_sub hostOps5 _ hostOps5_writes h
/-- At region 5's exit: its arrays at what the pipeline leaves (an input as entered, the output at its write-backs
    folded), every other buffer as entered. -/
def W12 (c : Dev nD) : Valuation τ sig (Elt F) :=
  Pipeline.withArrays spec5 c (W11 m ρ c) fun w => (dat5 (B11 m ρ) c).arrAt w cfg5.N
theorem W12_arr (c : Dev nD) (w : Fin cfg5.W) :
    W12 m ρ c (Proc.devRef .tc (Pipeline.arrRef spec5 w)) = (dat5 (B11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same, read at the TensorCore's references. -/
abbrev B12 : (c : Dev nD) → (b : Ref sig .tc) → Buf (Elt F) ((c : Thread nD τ).loc b) := fun c b => W12 m ρ c b
theorem hF5 (c : Dev nD) (w : Fin cfg5.W) : (dat5 (B11 m ρ) c).arrAt w cfg5.N = B12 m ρ c (Pipeline.arrRef spec5 w) :=
  (W12_arr m ρ c w).symm
theorem hrest5 (c : Dev nD) : ∀ b, b ∉ Finset.univ.image (Pipeline.arrRef spec5) → B12 m ρ c b = B11 m ρ c b :=
  fun b hb => W12_of_ne m ρ c b fun w e => hb (Finset.mem_image.mpr ⟨w, Finset.mem_univ _, e⟩)
/-- After the host stretch `hostOps6`. -/
abbrev W13 : Dev nD → Valuation τ sig (Elt F) := fun c => StableHlo.after hostOps6 (W12 m ρ c)
/-- The same, read at the TensorCore's references. -/
abbrev B13 : (c : Dev nD) → (b : Ref sig .tc) → Buf (Elt F) ((c : Thread nD τ).loc b) := fun c b => W13 m ρ c b
theorem W13_keep (c : Dev nD) (r : Ref sig .tc) (h : r ∉ hostOps6_W) : W13 m ρ c (Proc.devRef .tc r) = W12 m ρ c (Proc.devRef .tc r) :=
  StableHlo.after_of_writes_sub hostOps6 _ hostOps6_writes h
/-- After the host stretch `hostOps6_1`. -/
abbrev W14 : Dev nD → Valuation τ sig (Elt F) := fun c => StableHlo.after hostOps6_1 (W13 m ρ c)
/-- The same, read at the TensorCore's references. -/
abbrev B14 : (c : Dev nD) → (b : Ref sig .tc) → Buf (Elt F) ((c : Thread nD τ).loc b) := fun c b => W14 m ρ c b
theorem W14_keep (c : Dev nD) (r : Ref sig .tc) (h : r ∉ hostOps6_1_W) : W14 m ρ c (Proc.devRef .tc r) = W13 m ρ c (Proc.devRef .tc r) :=
  StableHlo.after_of_writes_sub hostOps6_1 _ hostOps6_1_writes h
/-- After the host stretch `hostOps6_2`. -/
abbrev W15 : Dev nD → Valuation τ sig (Elt F) := fun c => StableHlo.after hostOps6_2 (W14 m ρ c)
/-- The same, read at the TensorCore's references. -/
abbrev B15 : (c : Dev nD) → (b : Ref sig .tc) → Buf (Elt F) ((c : Thread nD τ).loc b) := fun c b => W15 m ρ c b
theorem W15_keep (c : Dev nD) (r : Ref sig .tc) (h : r ∉ hostOps6_2_W) : W15 m ρ c (Proc.devRef .tc r) = W14 m ρ c (Proc.devRef .tc r) :=
  StableHlo.after_of_writes_sub hostOps6_2 _ hostOps6_2_writes h
/-- After the host stretch `hostOps6_3`. -/
abbrev W16 : Dev nD → Valuation τ sig (Elt F) := fun c => StableHlo.after hostOps6_3 (W15 m ρ c)
/-- The same, read at the TensorCore's references. -/
abbrev B16 : (c : Dev nD) → (b : Ref sig .tc) → Buf (Elt F) ((c : Thread nD τ).loc b) := fun c b => W16 m ρ c b
theorem W16_keep (c : Dev nD) (r : Ref sig .tc) (h : r ∉ hostOps6_3_W) : W16 m ρ c (Proc.devRef .tc r) = W15 m ρ c (Proc.devRef .tc r) :=
  StableHlo.after_of_writes_sub hostOps6_3 _ hostOps6_3_writes h
/-- After the host stretch `hostOps6_4`. -/
abbrev W17 : Dev nD → Valuation τ sig (Elt F) := fun c => StableHlo.after hostOps6_4 (W16 m ρ c)
/-- The same, read at the TensorCore's references. -/
abbrev B17 : (c : Dev nD) → (b : Ref sig .tc) → Buf (Elt F) ((c : Thread nD τ).loc b) := fun c b => W17 m ρ c b
theorem W17_keep (c : Dev nD) (r : Ref sig .tc) (h : r ∉ hostOps6_4_W) : W17 m ρ c (Proc.devRef .tc r) = W16 m ρ c (Proc.devRef .tc r) :=
  StableHlo.after_of_writes_sub hostOps6_4 _ hostOps6_4_writes h
/-- At region 6's exit: its arrays at what the pipeline leaves (an input as entered, the output at its write-backs
    folded), every other buffer as entered. -/
def W18 (c : Dev nD) : Valuation τ sig (Elt F) :=
  Pipeline.withArrays spec6 c (W17 m ρ c) fun w => (dat6 (B17 m ρ) c).arrAt w cfg6.N
theorem W18_arr (c : Dev nD) (w : Fin cfg6.W) :
    W18 m ρ c (Proc.devRef .tc (Pipeline.arrRef spec6 w)) = (dat6 (B17 m ρ) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m ρ c (Proc.devRef .tc b) = W17 m ρ c (Proc.devRef .tc b) := by
  unfold W18; exact Pipeline.withArrays_of_ne spec6 c _ _ b hb
/-- The same, read at the TensorCore's references. -/
abbrev B18 : (c : Dev nD) → (b : Ref sig .tc) → Buf (Elt F) ((c : Thread nD τ).loc b) := fun c b => W18 m ρ c b
theorem hF6 (c : Dev nD) (w : Fin cfg6.W) : (dat6 (B17 m ρ) c).arrAt w cfg6.N = B18 m ρ c (Pipeline.arrRef spec6 w) :=
  (W18_arr m ρ c w).symm
theorem hrest6 (c : Dev nD) : ∀ b, b ∉ Finset.univ.image (Pipeline.arrRef spec6) → B18 m ρ c b = B17 m ρ c b :=
  fun b hb => W18_of_ne m ρ c b fun w e => hb (Finset.mem_image.mpr ⟨w, Finset.mem_univ _, e⟩)
/-- After the host stretch `hostOps7`. -/
abbrev W19 : Dev nD → Valuation τ sig (Elt F) := fun c => StableHlo.after hostOps7 (W18 m ρ c)
/-- The same, read at the TensorCore's references. -/
abbrev B19 : (c : Dev nD) → (b : Ref sig .tc) → Buf (Elt F) ((c : Thread nD τ).loc b) := fun c b => W19 m ρ c b
theorem W19_keep (c : Dev nD) (r : Ref sig .tc) (h : r ∉ hostOps7_W) : W19 m ρ c (Proc.devRef .tc r) = W18 m ρ c (Proc.devRef .tc r) :=
  StableHlo.after_of_writes_sub hostOps7 _ hostOps7_writes h

/-- A reference that no host stretch writes and that is no region's array reaches the end as launched. -/
theorem W19_launch (c : Dev nD) (r : Ref sig .tc) (h0 : r ∉ hostOps0_W) (h1 : ∀ w, Pipeline.arrRef spec0 w ≠ r) (h2 : r ∉ hostOps1_W) (h3 : ∀ w, Pipeline.arrRef spec1 w ≠ r) (h4 : r ∉ hostOps2_W) (h5 : ∀ w, Pipeline.arrRef spec2 w ≠ r) (h6 : r ∉ hostOps3_W) (h7 : ∀ w, Pipeline.arrRef spec3 w ≠ r) (h8 : r ∉ hostOps4_W) (h9 : ∀ w, Pipeline.arrRef spec4 w ≠ r) (h10 : r ∉ hostOps5_W) (h11 : ∀ w, Pipeline.arrRef spec5 w ≠ r) (h12 : r ∉ hostOps6_W) (h13 : r ∉ hostOps6_1_W) (h14 : r ∉ hostOps6_2_W) (h15 : r ∉ hostOps6_3_W) (h16 : r ∉ hostOps6_4_W) (h17 : ∀ w, Pipeline.arrRef spec6 w ≠ r) (h18 : r ∉ hostOps7_W) :
    W19 m ρ c (Proc.devRef .tc r) = m ((c : Thread nD τ).loc r) :=
  (W19_keep m ρ c r h18).trans <| (W18_of_ne m ρ c r h17).trans <| (W17_keep m ρ c r h16).trans <| (W16_keep m ρ c r h15).trans <| (W15_keep m ρ c r h14).trans <| (W14_keep m ρ c r h13).trans <| (W13_keep m ρ c r h12).trans <| (W12_of_ne m ρ c r h11).trans <| (W11_keep m ρ c r h10).trans <| (W10_of_ne m ρ c r h9).trans <| (W9_keep m ρ c r h8).trans <| (W8_of_ne m ρ c r h7).trans <| (W7_keep m ρ c r h6).trans <| (W6_of_ne m ρ c r h5).trans <| (W5_keep m ρ c r h4).trans <| (W4_of_ne m ρ c r h3).trans <| (W3_keep m ρ c r h2).trans <| (W2_of_ne m ρ c r h1).trans <| (W1_keep m ρ c r h0).trans <| rfl

/-! ## The proof data family and the thread state -/

/-- No pipeline has a prefetched table. -/
abbrev padm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) padm p) c
  | ⟨0, _⟩ => fun c => dat0 (B1 m ρ) c
  | ⟨1, _⟩ => fun c => dat1 (B3 m ρ) c
  | ⟨2, _⟩ => fun c => dat2 (B5 m ρ) c
  | ⟨3, _⟩ => fun c => dat3 (B7 m ρ) c
  | ⟨4, _⟩ => fun c => dat4 (B9 m ρ) c
  | ⟨5, _⟩ => fun c => dat5 (B11 m ρ) c
  | ⟨6, _⟩ => fun c => dat6 (B17 m ρ) c
abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the core's generator register at some state and its dues, at nothing. -/
abbrev Rr (c : Dev nD) : sProp 𝕄 := iprop((∃ r, prngReg c r) ∗ ∃ W, owes (c : Thread nD τ) (0 : CellTallies nD τ sig Unit) W)
/-- A host stretch as a segment over the unscoped references from the contents `W`, `Rr` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tn (c : Dev nD) : sProp 𝕄 := iprop(StableHlo.held (c : Thread nD τ) (Pipeline.ucRefs τ sig) (W19 m ρ c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the pipeline's invariant
    and comes back; nothing is owed; the kernel has no semaphore of its own. -/
def reg0 : Pipeline.RegionSeg (pcfgs (F := F)) padm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ Lz lvz 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the pipeline's invariant
    and comes back; nothing is owed; the kernel has no semaphore of its own. -/
def reg1 : Pipeline.RegionSeg (pcfgs (F := F)) padm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (B3 m ρ) c).loose
  hwaits := Pipeline.hwaits_of_owed_zero _ _ _ _ Lz lvz 1 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (B3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (B3 m ρ c) (B4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the pipeline's invariant
    and comes back; nothing is owed; the kernel has no semaphore of its own. -/
def reg2 : Pipeline.RegionSeg (pcfgs (F := F)) padm (pdats m ρ) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (B5 m ρ) c).loose
  hwaits := Pipeline.hwaits_of_owed_zero _ _ _ _ Lz lvz 2 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec2 c (B5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (B5 m ρ c) (B6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out
    of the unscoped buffers and put back at the exit contents; the generator register goes into the pipeline's invariant
    and comes back; nothing is owed; the kernel has no semaphore of its own. -/
def reg3 : Pipeline.RegionSeg (pcfgs (F := F)) padm (pdats m ρ) () defs₀ 𝒱₀ Lz lvz 3 where
  win := launch3.win.to₀
  block_pos := launch3.block_pos
  stage_whole := launch3.stage_whole
  K := PEmpty
  osem k := k.elim
  ho := Pipeline.OwnSemFacts.none _
  hbody c := (body_obligation3 (B7 m ρ) c).loose
  hwaits := Pipeline.hwaits_of_owed_zero _ _ _ _ Lz lvz 3 fun _ _ => rfl
  pre c := iprop(StableHlo.held (c : Thread nD τ) (Pipeline.ucRefs τ sig) (W7 m ρ c) ∗ Rr c)
  post c := iprop(StableHlo.held (c : Thread nD τ) (Pipeline.ucRefs τ sig) (W8 m ρ c) ∗ Rr c)
  X c := iprop(∃ r, prngReg c r)
  Y c := iprop(∃ r, prngReg c r)
  Z c := Pipeline.unscopedRest (Ix := Unit) (Name := ℕ) (U := UR sig nD τ) (Lvl := ℕ) spec3 c (B7 m ρ c)
  hentry c := by
    rw [Pipeline.ownSems0_none]
    have hsplit := Pipeline.arrays_of_unscopedBufs (p := 3) (pcfgs (F := F)) padm (pdats m ρ) launch3.win launch3.arr_whole c
      ((pdats m ρ 3 c).share_full fun _ => rfl) (B7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) padm (Ix := Unit) (Name := ℕ) (U := UR sig nD τ) (Lvl := ℕ)
      launch3.win launch3.arr_whole c (pdats m ρ) ((pdats m ρ 3 c).share_full fun _ => rfl)
      (B7 m ρ c) (B8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split out
    of the unscoped buffers and put back at the exit contents; the generator register goes into the pipeline's invariant
    and comes back; nothing is owed; the kernel has no semaphore of its own. -/
def reg4 : Pipeline.RegionSeg (pcfgs (F := F)) padm (pdats m ρ) () defs₀ 𝒱₀ Lz lvz 4 where
  win := launch4.win.to₀
  block_pos := launch4.block_pos
  stage_whole := launch4.stage_whole
  K := PEmpty
  osem k := k.elim
  ho := Pipeline.OwnSemFacts.none _
  hbody c := (body_obligation4 (B9 m ρ) c).loose
  hwaits := Pipeline.hwaits_of_owed_zero _ _ _ _ Lz lvz 4 fun _ _ => rfl
  pre c := iprop(StableHlo.held (c : Thread nD τ) (Pipeline.ucRefs τ sig) (W9 m ρ c) ∗ Rr c)
  post c := iprop(StableHlo.held (c : Thread nD τ) (Pipeline.ucRefs τ sig) (W10 m ρ c) ∗ Rr c)
  X c := iprop(∃ r, prngReg c r)
  Y c := iprop(∃ r, prngReg c r)
  Z c := Pipeline.unscopedRest (Ix := Unit) (Name := ℕ) (U := UR sig nD τ) (Lvl := ℕ) spec4 c (B9 m ρ c)
  hentry c := by
    rw [Pipeline.ownSems0_none]
    have hsplit := Pipeline.arrays_of_unscopedBufs (p := 4) (pcfgs (F := F)) padm (pdats m ρ) launch4.win launch4.arr_whole c
      ((pdats m ρ 4 c).share_full fun _ => rfl) (B9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) padm (Ix := Unit) (Name := ℕ) (U := UR sig nD τ) (Lvl := ℕ)
      launch4.win launch4.arr_whole c (pdats m ρ) ((pdats m ρ 4 c).share_full fun _ => rfl)
      (B9 m ρ c) (B10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split out
    of the unscoped buffers and put back at the exit contents; the generator register goes into the pipeline's invariant
    and comes back; nothing is owed; the kernel has no semaphore of its own. -/
def reg5 : Pipeline.RegionSeg (pcfgs (F := F)) padm (pdats m ρ) () defs₀ 𝒱₀ Lz lvz 5 where
  win := launch5.win.to₀
  block_pos := launch5.block_pos
  stage_whole := launch5.stage_whole
  K := PEmpty
  osem k := k.elim
  ho := Pipeline.OwnSemFacts.none _
  hbody c := (body_obligation5 (B11 m ρ) c).loose
  hwaits := Pipeline.hwaits_of_owed_zero _ _ _ _ Lz lvz 5 fun _ _ => rfl
  pre c := iprop(StableHlo.held (c : Thread nD τ) (Pipeline.ucRefs τ sig) (W11 m ρ c) ∗ Rr c)
  post c := iprop(StableHlo.held (c : Thread nD τ) (Pipeline.ucRefs τ sig) (W12 m ρ c) ∗ Rr c)
  X c := iprop(∃ r, prngReg c r)
  Y c := iprop(∃ r, prngReg c r)
  Z c := Pipeline.unscopedRest (Ix := Unit) (Name := ℕ) (U := UR sig nD τ) (Lvl := ℕ) spec5 c (B11 m ρ c)
  hentry c := by
    rw [Pipeline.ownSems0_none]
    have hsplit := Pipeline.arrays_of_unscopedBufs (p := 5) (pcfgs (F := F)) padm (pdats m ρ) launch5.win launch5.arr_whole c
      ((pdats m ρ 5 c).share_full fun _ => rfl) (B11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) padm (Ix := Unit) (Name := ℕ) (U := UR sig nD τ) (Lvl := ℕ)
      launch5.win launch5.arr_whole c (pdats m ρ) ((pdats m ρ 5 c).share_full fun _ => rfl)
      (B11 m ρ c) (B12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W17`, left at `W18`. Its arrays are split out
    of the unscoped buffers and put back at the exit contents; the generator register goes into the pipeline's invariant
    and comes back; nothing is owed; the kernel has no semaphore of its own. -/
def reg6 : Pipeline.RegionSeg (pcfgs (F := F)) padm (pdats m ρ) () defs₀ 𝒱₀ Lz lvz 6 where
  win := launch6.win.to₀
  block_pos := launch6.block_pos
  stage_whole := launch6.stage_whole
  K := PEmpty
  osem k := k.elim
  ho := Pipeline.OwnSemFacts.none _
  hbody c := (body_obligation6 (B17 m ρ) c).loose
  hwaits := Pipeline.hwaits_of_owed_zero _ _ _ _ Lz lvz 6 fun _ _ => rfl
  pre c := iprop(StableHlo.held (c : Thread nD τ) (Pipeline.ucRefs τ sig) (W17 m ρ c) ∗ Rr c)
  post c := iprop(StableHlo.held (c : Thread nD τ) (Pipeline.ucRefs τ sig) (W18 m ρ c) ∗ Rr c)
  X c := iprop(∃ r, prngReg c r)
  Y c := iprop(∃ r, prngReg c r)
  Z c := Pipeline.unscopedRest (Ix := Unit) (Name := ℕ) (U := UR sig nD τ) (Lvl := ℕ) spec6 c (B17 m ρ c)
  hentry c := by
    rw [Pipeline.ownSems0_none]
    have hsplit := Pipeline.arrays_of_unscopedBufs (p := 6) (pcfgs (F := F)) padm (pdats m ρ) launch6.win launch6.arr_whole c
      ((pdats m ρ 6 c).share_full fun _ => rfl) (B17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) padm (Ix := Unit) (Name := ℕ) (U := UR sig nD τ) (Lvl := ℕ)
      launch6.win launch6.arr_whole c (pdats m ρ) ((pdats m ρ 6 c).share_full fun _ => rfl)
      (B17 m ρ c) (B18 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 19 segments in order: a host segment per stretch from its boundary's contents, a region per kernel call. -/
abbrev rsegs : List (Pipeline.Seg (pcfgs (F := F)) padm (pdats m ρ) () defs₀ 𝒱₀ Lz lvz) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .host (hseg hostOps6_1 hostOps6_1_sub hostOps6_1_fresh (W13 m ρ)),
    .host (hseg hostOps6_2 hostOps6_2_sub hostOps6_2_fresh (W14 m ρ)),
    .host (hseg hostOps6_3 hostOps6_3_sub hostOps6_3_fresh (W15 m ρ)),
    .host (hseg hostOps6_4 hostOps6_4_sub hostOps6_4_fresh (W16 m ρ)),
    .region (reg6 m ρ),
    .host (hseg hostOps7 hostOps7_sub hostOps7_fresh (W18 m ρ)) ]

/-- @main is the run of the segments. -/
theorem main_run (c : Dev nD) : main (F := F) c = Pipeline.Seg.run (rsegs m ρ) := (main_chain c).trans (by chain_rfl)

set_option backward.isDefEq.respectTransparency.types false in
/-- THE RUN. From any memory with zero counters, every weakly fair execution of @main on the TensorCores terminates,
    nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) padm (pdats m ρ) () cellOf_inj emb₁ defs₀ 𝒱₀ Lz lvz m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tn m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W19 m ρ c) ∗ Rr c)
        ⊢ iprop(Tn m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c => h c)

end Cert.KernelIdeal.Frm

end
-- ==== Proof.KB.Region0.lean ====
/-
  Region 0 of the program (`cc0__matmul_kernel`): a block of 2000 rows of the first layer's input times the whole first weight matrix.
  The body reads each input window's staging buffer whole, computes one value, and stores it over the whole of the output
  window's staging buffer. Stated at a parameter `V`, the buffers' contents when the region is entered, and at any
  float instance: what each window's block is at a grid point, what the body leaves in the output buffer as a function
  of the input blocks, the body's triple, the pipeline's proof data, and the body obligation at every grid point.
-/
import proofs.«130624_j18597208392405_1_alg».proof.Proof.Gen.Kernel.Launch
import proofs.«130624_j18597208392405_1_alg».proof.Proof.Gen.Kernel.Skeleton
import proofs.«130624_j18597208392405_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every grid point, whether or not it was fetched there
    (an unfetched window's block index has not moved), for any proof data over the arrays `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every grid point, whether or not it was fetched there
    (an unfetched window's block index has not moved), for any proof data over the arrays `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x512 := Rect.unit (s := S2000x512) ![0, 0] S2000x512.size inb_S2000x512_S2000x512_0_0
abbrev r0_1 : Rect S512x256 := Rect.unit (s := S512x256) ![0, 0] S512x256.size inb_S512x256_S512x256_0_0
abbrev r0_2 : Rect S2000x256 := Rect.unit (s := S2000x256) ![0, 0] S2000x256.size inb_S2000x256_S2000x256_0_0

/-- What the body leaves in the output window's staging buffer, from the input windows' blocks: its one store, of the
    body's value at the loaded blocks, laid over the whole buffer. -/
def out0_2 (x0 : Vec F S2000x512 .bf16) (x1 : Vec F S512x256 .bf16) : Vec F S2000x256 .f32 :=
  View.canon [⟨r0_2, k0_pay1 (View.ld x0 r0_0) (View.ld x1 r0_1)⟩]

/-- The one store's rectangle is the whole buffer, so it covers every index. -/
theorem cover0_2 (p0 : Vec F S2000x256 .f32) (y : S2000x256.Idx) :
    ∃ pc ∈ ([⟨r0_2, p0⟩] : List (View.Piece (Elt F) S2000x256 .f32)), y ∈ pc.1.set :=
  View.cover_of_tiled [⟨r0_2, p0⟩] S2000x256.size (by rfl) y

set_option maxHeartbeats 1000000 in
/-- The body on whole staging buffers, the inputs' reading `x_w` and the output's anything, runs to its return leaving the
    inputs' as they were and the output's at `out0_2` of the inputs'. -/
theorem sound_kernel0 (c : Dev nD) (E : Set ℕ) (i : grid0.Coords) (arg0 : Memref sig .tc .vmem S2000x512 .bf16) (harg0 : arg0.IsWhole) (arg1 : Memref sig .tc .vmem S512x256 .bf16) (harg1 : arg1.IsWhole) (arg2 : Memref sig .tc .vmem S2000x256 .f32) (harg2 : arg2.IsWhole)
    (x0 : Vec F S2000x512 .bf16) (x1 : Vec F S512x256 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region's pipeline on core `c`: the arrays as the region finds them; after the body at grid
    point `t` each input's buffer at its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at grid point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KB.Region1.lean ====
/-
  Region 1 of the program (`cc1__combine_kernel`): on a block of 2000 rows, max(agg + h * norm_self + b, 0) of the first layer.
  The body reads each input window's staging buffer whole, computes one value, and stores it over the whole of the output
  window's staging buffer. Stated at a parameter `V`, the buffers' contents when the region is entered, and at any
  float instance: what each window's block is at a grid point, what the body leaves in the output buffer as a function
  of the input blocks, the body's triple, the pipeline's proof data, and the body obligation at every grid point.
-/
import proofs.«130624_j18597208392405_1_alg».proof.Proof.Gen.Kernel.Launch
import proofs.«130624_j18597208392405_1_alg».proof.Proof.Gen.Kernel.Skeleton
import proofs.«130624_j18597208392405_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every grid point, whether or not it was fetched there
    (an unfetched window's block index has not moved), for any proof data over the arrays `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every grid point, whether or not it was fetched there
    (an unfetched window's block index has not moved), for any proof data over the arrays `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block at every grid point, whether or not it was fetched there
    (an unfetched window's block index has not moved), for any proof data over the arrays `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds the window's block at every grid point, whether or not it was fetched there
    (an unfetched window's block index has not moved), for any proof data over the arrays `V` whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2000x256 := Rect.unit (s := S2000x256) ![0, 0] S2000x256.size inb_S2000x256_S2000x256_0_0
abbrev r1_1 : Rect S2000x256 := Rect.unit (s := S2000x256) ![0, 0] S2000x256.size inb_S2000x256_S2000x256_0_0
abbrev r1_2 : Rect S2000x1 := Rect.unit (s := S2000x1) ![0, 0] S2000x1.size inb_S2000x1_S2000x1_0_0
abbrev r1_3 : Rect S1x256 := Rect.unit (s := S1x256) ![0, 0] S1x256.size inb_S1x256_S1x256_0_0
abbrev r1_4 : Rect S2000x256 := Rect.unit (s := S2000x256) ![0, 0] S2000x256.size inb_S2000x256_S2000x256_0_0

/-- What the body leaves in the output window's staging buffer, from the input windows' blocks: its one store, of the
    body's value at the loaded blocks, laid over the whole buffer. -/
def out1_4 (x0 : Vec F S2000x256 .f32) (x1 : Vec F S2000x256 .f32) (x2 : Vec F S2000x1 .f32) (x3 : Vec F S1x256 .f32) : Vec F S2000x256 .f32 :=
  View.canon [⟨r1_4, k1_pay1 (View.ld x0 r1_0) (View.ld x1 r1_1) (View.ld x2 r1_2) (View.ld x3 r1_3)⟩]

/-- The one store's rectangle is the whole buffer, so it covers every index. -/
theorem cover1_4 (p0 : Vec F S2000x256 .f32) (y : S2000x256.Idx) :
    ∃ pc ∈ ([⟨r1_4, p0⟩] : List (View.Piece (Elt F) S2000x256 .f32)), y ∈ pc.1.set :=
  View.cover_of_tiled [⟨r1_4, p0⟩] S2000x256.size (by rfl) y

set_option maxHeartbeats 1000000 in
/-- The body on whole staging buffers, the inputs' reading `x_w` and the output's anything, runs to its return leaving the
    inputs' as they were and the output's at `out1_4` of the inputs'. -/
theorem sound_kernel1 (c : Dev nD) (E : Set ℕ) (i : grid1.Coords) (arg0 : Memref sig .tc .vmem S2000x256 .f32) (harg0 : arg0.IsWhole) (arg1 : Memref sig .tc .vmem S2000x256 .f32) (harg1 : arg1.IsWhole) (arg2 : Memref sig .tc .vmem S2000x1 .f32) (harg2 : arg2.IsWhole) (arg3 : Memref sig .tc .vmem S1x256 .f32) (harg3 : arg3.IsWhole) (arg4 : Memref sig .tc .vmem S2000x256 .f32) (harg4 : arg4.IsWhole)
    (x0 : Vec F S2000x256 .f32) (x1 : Vec F S2000x256 .f32) (x2 : Vec F S2000x1 .f32) (x3 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__combine_kernel i arg0 harg0 arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the region's pipeline on core `c`: the arrays as the region finds them; after the body at grid
    point `t` each input's buffer at its block and the output's at `out1_4` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at grid point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any grid point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KB.Region2.lean ====
/-
  Region 2 of the program (`cc2__matmul_kernel`): a block of 2000 rows of the second layer's input times the whole second weight matrix.
  The body reads each input window's staging buffer whole, computes one value, and stores it over the whole of the output
  window's staging buffer. Stated at a parameter `V`, the buffers' contents when the region is entered, and at any
  float instance: what each window's block is at a grid point, what the body leaves in the output buffer as a function
  of the input blocks, the body's triple, the pipeline's proof data, and the body obligation at every grid point.
-/
import proofs.«130624_j18597208392405_1_alg».proof.Proof.Gen.Kernel.Launch
import proofs.«130624_j18597208392405_1_alg».proof.Proof.Gen.Kernel.Skeleton
import proofs.«130624_j18597208392405_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every grid point, whether or not it was fetched there
    (an unfetched window's block index has not moved), for any proof data over the arrays `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the window's block at every grid point, whether or not it was fetched there
    (an unfetched window's block index has not moved), for any proof data over the arrays `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0
abbrev r2_2 : Rect S2000x256 := Rect.unit (s := S2000x256) ![0, 0] S2000x256.size inb_S2000x256_S2000x256_0_0

/-- What the body leaves in the output window's staging buffer, from the input windows' blocks: its one store, of the
    body's value at the loaded blocks, laid over the whole buffer. -/
def out2_2 (x0 : Vec F S2000x256 .bf16) (x1 : Vec F S256x256 .bf16) : Vec F S2000x256 .f32 :=
  View.canon [⟨r2_2, k2_pay1 (View.ld x0 r2_0) (View.ld x1 r2_1)⟩]

/-- The one store's rectangle is the whole buffer, so it covers every index. -/
theorem cover2_2 (p0 : Vec F S2000x256 .f32) (y : S2000x256.Idx) :
    ∃ pc ∈ ([⟨r2_2, p0⟩] : List (View.Piece (Elt F) S2000x256 .f32)), y ∈ pc.1.set :=
  View.cover_of_tiled [⟨r2_2, p0⟩] S2000x256.size (by rfl) y

set_option maxHeartbeats 1000000 in
/-- The body on whole staging buffers, the inputs' reading `x_w` and the output's anything, runs to its return leaving the
    inputs' as they were and the output's at `out2_2` of the inputs'. -/
theorem sound_kernel2 (c : Dev nD) (E : Set ℕ) (i : grid2.Coords) (arg0 : Memref sig .tc .vmem S2000x256 .bf16) (harg0 : arg0.IsWhole) (arg1 : Memref sig .tc .vmem S256x256 .bf16) (harg1 : arg1.IsWhole) (arg2 : Memref sig .tc .vmem S2000x256 .f32) (harg2 : arg2.IsWhole)
    (x0 : Vec F S2000x256 .bf16) (x1 : Vec F S256x256 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region's pipeline on core `c`: the arrays as the region finds them; after the body at grid
    point `t` each input's buffer at its block and the output's at `out2_2` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at grid point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every grid point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.KB.Region3.lean ====
/-
  Region 3 of the program (`cc3__combine_kernel`): on a block of 2000 rows, max(agg + h * norm_self + b, 0) of the second layer.
  The body reads each input window's staging buffer whole, computes one value, and stores it over the whole of the output
  window's staging buffer. Stated at a parameter `V`, the buffers' contents when the region is entered, and at any
  float instance: what each window's block is at a grid point, what the body leaves in the output buffer as a function
  of the input blocks, the body's triple, the pipeline's proof data, and the body obligation at every grid point.
-/
import proofs.«130624_j18597208392405_1_alg».proof.Proof.Gen.Kernel.Launch
import proofs.«130624_j18597208392405_1_alg».proof.Proof.Gen.Kernel.Skeleton
import proofs.«130624_j18597208392405_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every grid point, whether or not it was fetched there
    (an unfetched window's block index has not moved), for any proof data over the arrays `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds the window's block at every grid point, whether or not it was fetched there
    (an unfetched window's block index has not moved), for any proof data over the arrays `V` whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds the window's block at every grid point, whether or not it was fetched there
    (an unfetched window's block index has not moved), for any proof data over the arrays `V` whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds the window's block at every grid point, whether or not it was fetched there
    (an unfetched window's block index has not moved), for any proof data over the arrays `V` whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2000x256 := Rect.unit (s := S2000x256) ![0, 0] S2000x256.size inb_S2000x256_S2000x256_0_0
abbrev r3_1 : Rect S2000x256 := Rect.unit (s := S2000x256) ![0, 0] S2000x256.size inb_S2000x256_S2000x256_0_0
abbrev r3_2 : Rect S2000x1 := Rect.unit (s := S2000x1) ![0, 0] S2000x1.size inb_S2000x1_S2000x1_0_0
abbrev r3_3 : Rect S1x256 := Rect.unit (s := S1x256) ![0, 0] S1x256.size inb_S1x256_S1x256_0_0
abbrev r3_4 : Rect S2000x256 := Rect.unit (s := S2000x256) ![0, 0] S2000x256.size inb_S2000x256_S2000x256_0_0

/-- What the body leaves in the output window's staging buffer, from the input windows' blocks: its one store, of the
    body's value at the loaded blocks, laid over the whole buffer. -/
def out3_4 (x0 : Vec F S2000x256 .f32) (x1 : Vec F S2000x256 .f32) (x2 : Vec F S2000x1 .f32) (x3 : Vec F S1x256 .f32) : Vec F S2000x256 .f32 :=
  View.canon [⟨r3_4, k3_pay1 (View.ld x0 r3_0) (View.ld x1 r3_1) (View.ld x2 r3_2) (View.ld x3 r3_3)⟩]

/-- The one store's rectangle is the whole buffer, so it covers every index. -/
theorem cover3_4 (p0 : Vec F S2000x256 .f32) (y : S2000x256.Idx) :
    ∃ pc ∈ ([⟨r3_4, p0⟩] : List (View.Piece (Elt F) S2000x256 .f32)), y ∈ pc.1.set :=
  View.cover_of_tiled [⟨r3_4, p0⟩] S2000x256.size (by rfl) y

set_option maxHeartbeats 1000000 in
/-- The body on whole staging buffers, the inputs' reading `x_w` and the output's anything, runs to its return leaving the
    inputs' as they were and the output's at `out3_4` of the inputs'. -/
theorem sound_kernel3 (c : Dev nD) (E : Set ℕ) (i : grid3.Coords) (arg0 : Memref sig .tc .vmem S2000x256 .f32) (harg0 : arg0.IsWhole) (arg1 : Memref sig .tc .vmem S2000x256 .f32) (harg1 : arg1.IsWhole) (arg2 : Memref sig .tc .vmem S2000x1 .f32) (harg2 : arg2.IsWhole) (arg3 : Memref sig .tc .vmem S1x256 .f32) (harg3 : arg3.IsWhole) (arg4 : Memref sig .tc .vmem S2000x256 .f32) (harg4 : arg4.IsWhole)
    (x0 : Vec F S2000x256 .f32) (x1 : Vec F S2000x256 .f32) (x2 : Vec F S2000x1 .f32) (x3 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__combine_kernel i arg0 harg0 arg1 harg1 arg2 harg2 arg3 harg3 arg4 harg4) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of the region's pipeline on core `c`: the arrays as the region finds them; after the body at grid
    point `t` each input's buffer at its block and the output's at `out3_4` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at grid point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any grid point: the inputs' buffers hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every grid point. -/
theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.KB.Region4.lean ====
/-
  Region 4 of the program (`cc4__matmul_kernel`): a block of 2000 rows of the third layer's input times the whole third weight matrix.
  The body reads each input window's staging buffer whole, computes one value, and stores it over the whole of the output
  window's staging buffer. Stated at a parameter `V`, the buffers' contents when the region is entered, and at any
  float instance: what each window's block is at a grid point, what the body leaves in the output buffer as a function
  of the input blocks, the body's triple, the pipeline's proof data, and the body obligation at every grid point.
-/
import proofs.«130624_j18597208392405_1_alg».proof.Proof.Gen.Kernel.Launch
import proofs.«130624_j18597208392405_1_alg».proof.Proof.Gen.Kernel.Skeleton
import proofs.«130624_j18597208392405_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds the window's block at every grid point, whether or not it was fetched there
    (an unfetched window's block index has not moved), for any proof data over the arrays `V` whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds the window's block at every grid point, whether or not it was fetched there
    (an unfetched window's block index has not moved), for any proof data over the arrays `V` whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x256 := Rect.unit (s := S2000x256) ![0, 0] S2000x256.size inb_S2000x256_S2000x256_0_0
abbrev r4_1 : Rect S256x128 := Rect.unit (s := S256x128) ![0, 0] S256x128.size inb_S256x128_S256x128_0_0
abbrev r4_2 : Rect S2000x128 := Rect.unit (s := S2000x128) ![0, 0] S2000x128.size inb_S2000x128_S2000x128_0_0

/-- What the body leaves in the output window's staging buffer, from the input windows' blocks: its one store, of the
    body's value at the loaded blocks, laid over the whole buffer. -/
def out4_2 (x0 : Vec F S2000x256 .bf16) (x1 : Vec F S256x128 .bf16) : Vec F S2000x128 .f32 :=
  View.canon [⟨r4_2, k4_pay1 (View.ld x0 r4_0) (View.ld x1 r4_1)⟩]

/-- The one store's rectangle is the whole buffer, so it covers every index. -/
theorem cover4_2 (p0 : Vec F S2000x128 .f32) (y : S2000x128.Idx) :
    ∃ pc ∈ ([⟨r4_2, p0⟩] : List (View.Piece (Elt F) S2000x128 .f32)), y ∈ pc.1.set :=
  View.cover_of_tiled [⟨r4_2, p0⟩] S2000x128.size (by rfl) y

set_option maxHeartbeats 1000000 in
/-- The body on whole staging buffers, the inputs' reading `x_w` and the output's anything, runs to its return leaving the
    inputs' as they were and the output's at `out4_2` of the inputs'. -/
theorem sound_kernel4 (c : Dev nD) (E : Set ℕ) (i : grid4.Coords) (arg0 : Memref sig .tc .vmem S2000x256 .bf16) (harg0 : arg0.IsWhole) (arg1 : Memref sig .tc .vmem S256x128 .bf16) (harg1 : arg1.IsWhole) (arg2 : Memref sig .tc .vmem S2000x128 .f32) (harg2 : arg2.IsWhole)
    (x0 : Vec F S2000x256 .bf16) (x1 : Vec F S256x128 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__matmul_kernel i arg0 harg0 arg1 harg1 arg2 harg2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the region's pipeline on core `c`: the arrays as the region finds them; after the body at grid
    point `t` each input's buffer at its block and the output's at `out4_2` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at grid point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any grid point: the inputs' buffers hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every grid point. -/
theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.KB.Region5.lean ====
/-
  Region 5 of the program (`cc5__combine_kernel`): on a block of 2000 rows, max(agg + h * norm_self + b, 0) of the third layer.
  The body reads each input window's staging buffer whole, computes one value, and stores it over the whole of the output
  window's staging buffer. Stated at a parameter `V`, the buffers' contents when the region is entered, and at any
  float instance: what each window's block is at a grid point, what the body leaves in the output buffer as a function
  of the input blocks, the body's triple, the pipeline's proof data, and the body obligation at every grid point.
-/
import proofs.«130624_j18597208392405_1_alg».proof.Proof.Gen.Kernel.Launch
import proofs.«130624_j18597208392405_1_alg».proof.Proof.Gen.Kernel.Skeleton
import proofs.«130624_j18597208392405_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds the window's block at every grid point, whether or not it was fetched there
    (an unfetched window's block index has not moved), for any proof data over the arrays `V` whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds the window's block at every grid point, whether or not it was fetched there
    (an unfetched window's block index has not moved), for any proof data over the arrays `V` whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds the window's block at every grid point, whether or not it was fetched there
    (an unfetched window's block index has not moved), for any proof data over the arrays `V` whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds the window's block at every grid point, whether or not it was fetched there
    (an unfetched window's block index has not moved), for any proof data over the arrays `V` whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S2000x128 := Rect.unit (s := S2000x128) ![0, 0] S2000x128.size inb_S2000x128_S2000x128_0_0
abbrev r5_1 : Rect S2000x128 := Rect.unit (s := S2000x128) ![0, 0] S2000x128.size inb_S2000x128_S2000x128_0_0
abbrev r5_2 : Rect S2000x1 := Rect.unit (s := S2000x1) ![0, 0] S2000x1.size inb_S2000x1_S2000x1_0_0
abbrev r5_3 : Rect S1x128 := Rect.unit (s := S1x128) ![0, 0] S1x128.size inb_S1x128_S1x128_0_0
abbrev r5_4 : Rect S2000x128 := Rect.unit (s := S2000x128) ![0, 0] S2000x128.size inb_S2000x128_S2000x128_0_0

/-- What the body leaves in the output window's staging buffer, from the input windows' blocks: its one store, of the
    body's value at the loaded blocks, laid over the whole buffer. -/
def out5_4 (x0 : Vec F S2000x128 .f32) (x1 : Vec F S2000x128 .f32) (x2 : Vec F S2000x1 .f32) (x3 : Vec F S1x128 .f32) : Vec F S2000x128 .f32 :=
  View.canon [⟨r5_4, k5_pay1 (View.ld x0 r5_0) (View.ld x1 r5_1) (View.ld x2 r5_2) (View.ld x3 r5_3)⟩]

/-- The one store's rectangle is the whole buffer, so it covers every index. -/
theorem cover5_4 (p0 : Vec F S2000x128 .f32) (y : S2000x128.Idx) :
    ∃ pc ∈ ([⟨r5_4, p0⟩] : List (View.Piece (Elt F) S2000x128 .f32)), y ∈ pc.1.set :=
  View.cover_of_tiled [⟨r5_4, p0⟩] S2000x128.size (by rfl) y

set_option maxHeartbeats 1000000 in
/-- The body on whole staging buffers, the inputs' reading `x_w` and the output's anything, runs to its return leaving the
    inputs' as they were and the output's at `out5_4` of the inputs'. -/
theorem sound_kernel5 (c : Dev nD) (E : Set ℕ) (i : grid5.Coords) (arg0 : Memref sig .tc .vmem S2000x128 .f32) (harg0 : arg0.IsWhole) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S2000x128 .f32) (x2 : Vec F S2000x1 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out5_4 x0 x1 x2 x3)) -∗ K ⟨⟩))
      ⊢ wp frame (wpE (defs₀ (F := F)) Variants.none c none) E (cc5__combine_kernel i arg0 harg0 arg1 harg1 arg2 harg2 arg3 harg3 arg4 harg4) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The proof data of the region's pipeline on core `c`: the arrays as the region finds them; after the body at grid
    point `t` each input's buffer at its block and the output's at `out5_4` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at grid point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any grid point: the inputs' buffers hold their blocks, so the body's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every grid point. -/
theorem body_obligation5 (c : Dev nD) : BodyObligation (dat5 (F := F) V c) (defs₀ (F := F)) Variants.none () Set.univ := fun t => by
  rw [bigSep_W5, bigSep_W5]
  exact sound_body5 V c t

end Cert.Kernel.Frm

end
-- ==== Proof.KB.Region6.lean ====
/-
  Region 6 of the program (`cc6__matmul_bias_kernel`): a block of 2000 rows of the third layer's output times the padded head matrix, plus the padded head bias.
  The body reads each input window's staging buffer whole, computes one value, and stores it over the whole of the output
  window's staging buffer. Stated at a parameter `V`, the buffers' contents when the region is entered, and at any
  float instance: what each window's block is at a grid point, what the body leaves in the output buffer as a function
  of the input blocks, the body's triple, the pipeline's proof data, and the body obligation at every grid point.
-/
import proofs.«130624_j18597208392405_1_alg».proof.Proof.Gen.Kernel.Launch
import proofs.«130624_j18597208392405_1_alg».proof.Proof.Gen.Kernel.Skeleton
import proofs.«130624_j18597208392405_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds the window's block at every grid point, whether or not it was fetched there
    (an unfetched window's block index has not moved), for any proof data over the arrays `V` whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds the window's block at every grid point, whether or not it was fetched there
    (an unfetched window's block index has not moved), for any proof data over the arrays `V` whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds the window's block at every grid point, whether or not it was fetched there
    (an unfetched window's block index has not moved), for any proof data over the arrays `V` whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S2000x128 := Rect.unit (s := S2000x128) ![0, 0] S2000x128.size inb_S2000x128_S2000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0
abbrev r6_3 : Rect S2000x128 := Rect.unit (s := S2000x128) ![0, 0] S2000x128.size inb_S2000x128_S2000x128_0_0

/-- What the body leaves in the output window's staging buffer, from the input windows' blocks: its one store, of the
    body's value at the loaded blocks, laid over the whole buffer. -/
def out6_3 (x0 : Vec F S2000x128 .bf16) (x1 : Vec F S128x128 .bf16) (x2 : Vec F S1x128 .f32) : Vec F S2000x128 .f32 :=
  View.canon [⟨r6_3, k6_pay1 (View.ld x0 r6_0) (View.ld x1 r6_1) (View.ld x2 r6_2)⟩]

/-- The one store's rectangle is the whole buffer, so it covers every index. -/
theorem cover6_3 (p0 : Vec F S2000x128 .f32) (y : S2000x128.Idx) :
    ∃ pc ∈ ([⟨r6_3, p0⟩] : List (View.Piece (Elt F) S2000x128 .f32)), y ∈ pc.1.set :=
  View.cover_of_tiled [⟨r6_3, p0⟩] S2000x128.size (by rfl) y

set_option maxHeartbeats 1000000 in
/-- The body on whole staging buffers, the inputs' reading `x_w` and the output's anything, runs to its return leaving the
    inputs' as they were and the output's at `out6_3` of the inputs'. -/
theorem sound_kernel6 (c : Dev nD) (E : Set ℕ) (i : grid6.Coords) (arg0 : Memref sig .tc .vmem S2000x128 .bf16) (harg0 : arg0.IsWhole) (arg1 : Memref sig .tc .vmem S128x128 .bf16) (harg1 : arg1.IsWhole) (arg2 : Memref sig .tc .vmem S1x128 .f32) (harg2 : arg2.IsWhole) (arg3 : Memref sig .tc .vmem S2000x128 .f32) (harg3 : arg3.IsWhole)
    (x0 : Vec F S2000x128 .bf16) (x1 : Vec F S128x128 .bf16) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out6_3 x0 x1 x2)) -∗ K ⟨⟩))
      ⊢ wp frame (wpE (defs₀ (F := F)) Variants.none c none) E (cc6__matmul_bias_kernel i arg0 harg0 arg1 harg1 arg2 harg2 arg3 harg3) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of the region's pipeline on core `c`: the arrays as the region finds them; after the body at grid
    point `t` each input's buffer at its block and the output's at `out6_3` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at grid point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any grid point: the inputs' buffers hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation6 (c : Dev nD) : BodyObligation (dat6 (F := F) V c) (defs₀ (F := F)) Variants.none () Set.univ := fun t => by
  rw [bigSep_W6, bigSep_W6]
  exact sound_body6 V c t

end Cert.Kernel.Frm

end
-- ==== Proof.KB.Run.lean ====
/-
  The whole run of the program at any float instance: the buffers' contents at each boundary between two items of
  @main — a stretch of host operations applies them in order; a kernel region leaves each of its arrays at what its
  write-backs fold to and every other buffer as it was —, each region as a segment of the run over the thread state
  "every unscoped buffer at the boundary's contents", and the theorem: every weakly fair execution terminates, nothing
  faults, and the final memory holds every unscoped buffer at the last boundary's contents. The frame claim and the
  value of the result are both read off that one post.
-/
import proofs.«130624_j18597208392405_1_alg».proof.Proof.KB.Region0
import proofs.«130624_j18597208392405_1_alg».proof.Proof.KB.Region1
import proofs.«130624_j18597208392405_1_alg».proof.Proof.KB.Region2
import proofs.«130624_j18597208392405_1_alg».proof.Proof.KB.Region3
import proofs.«130624_j18597208392405_1_alg».proof.Proof.KB.Region4
import proofs.«130624_j18597208392405_1_alg».proof.Proof.KB.Region5
import proofs.«130624_j18597208392405_1_alg».proof.Proof.KB.Region6
import proofs.«130624_j18597208392405_1_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same, read at the TensorCore's references. -/
abbrev B1 : (c : Dev nD) → (b : Ref sig .tc) → Buf (Elt F) ((c : Thread nD τ).loc b) := fun c b => W1 m ρ c b
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
/-- At region 0's exit: its arrays at what the pipeline leaves (an input as entered, the output at its write-backs
    folded), every other buffer as entered. -/
def W2 (c : Dev nD) : Valuation τ sig (Elt F) :=
  Pipeline.withArrays spec0 c (W1 m ρ c) fun w => (dat0 (B1 m ρ) c).arrAt w cfg0.N
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- The same, read at the TensorCore's references. -/
abbrev B3 : (c : Dev nD) → (b : Ref sig .tc) → Buf (Elt F) ((c : Thread nD τ).loc b) := fun c b => W3 m ρ c b
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
/-- At region 1's exit: its arrays at what the pipeline leaves (an input as entered, the output at its write-backs
    folded), every other buffer as entered. -/
def W4 (c : Dev nD) : Valuation τ sig (Elt F) :=
  Pipeline.withArrays spec1 c (W3 m ρ c) fun w => (dat1 (B3 m ρ) c).arrAt w cfg1.N
theorem W4_arr (c : Dev nD) (w : Fin cfg1.W) :
    W4 m ρ c (Proc.devRef .tc (Pipeline.arrRef spec1 w)) = (dat1 (B3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev B4 : (c : Dev nD) → (b : Ref sig .tc) → Buf (Elt F) ((c : Thread nD τ).loc b) := fun c b => W4 m ρ c b
theorem hF1 (c : Dev nD) (w : Fin cfg1.W) : (dat1 (B3 m ρ) c).arrAt w cfg1.N = B4 m ρ c (Pipeline.arrRef spec1 w) :=
  (W4_arr m ρ c w).symm
theorem hrest1 (c : Dev nD) : ∀ b, b ∉ Finset.univ.image (Pipeline.arrRef spec1) → B4 m ρ c b = B3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)
/-- The same, read at the TensorCore's references. -/
abbrev B5 : (c : Dev nD) → (b : Ref sig .tc) → Buf (Elt F) ((c : Thread nD τ).loc b) := fun c b => W5 m ρ c b
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h
/-- At region 2's exit: its arrays at what the pipeline leaves (an input as entered, the output at its write-backs
    folded), every other buffer as entered. -/
def W6 (c : Dev nD) : Valuation τ sig (Elt F) :=
  Pipeline.withArrays spec2 c (W5 m ρ c) fun w => (dat2 (B5 m ρ) c).arrAt w cfg2.N
theorem W6_arr (c : Dev nD) (w : Fin cfg2.W) :
    W6 m ρ c (Proc.devRef .tc (Pipeline.arrRef spec2 w)) = (dat2 (B5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev B6 : (c : Dev nD) → (b : Ref sig .tc) → Buf (Elt F) ((c : Thread nD τ).loc b) := fun c b => W6 m ρ c b
theorem hF2 (c : Dev nD) (w : Fin cfg2.W) : (dat2 (B5 m ρ) c).arrAt w cfg2.N = B6 m ρ c (Pipeline.arrRef spec2 w) :=
  (W6_arr m ρ c w).symm
theorem hrest2 (c : Dev nD) : ∀ b, b ∉ Finset.univ.image (Pipeline.arrRef spec2) → B6 m ρ c b = B5 m ρ c b :=
  fun b hb => W6_of_ne m ρ c b fun w e => hb (Finset.mem_image.mpr ⟨w, Finset.mem_univ _, e⟩)
/-- After the host stretch `hostOps3`. -/
abbrev W7 : Dev nD → Valuation τ sig (Elt F) := fun c => StableHlo.after hostOps3 (W6 m ρ c)
/-- The same, read at the TensorCore's references. -/
abbrev B7 : (c : Dev nD) → (b : Ref sig .tc) → Buf (Elt F) ((c : Thread nD τ).loc b) := fun c b => W7 m ρ c b
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h
/-- At region 3's exit: its arrays at what the pipeline leaves (an input as entered, the output at its write-backs
    folded), every other buffer as entered. -/
def W8 (c : Dev nD) : Valuation τ sig (Elt F) :=
  Pipeline.withArrays spec3 c (W7 m ρ c) fun w => (dat3 (B7 m ρ) c).arrAt w cfg3.N
theorem W8_arr (c : Dev nD) (w : Fin cfg3.W) :
    W8 m ρ c (Proc.devRef .tc (Pipeline.arrRef spec3 w)) = (dat3 (B7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references. -/
abbrev B8 : (c : Dev nD) → (b : Ref sig .tc) → Buf (Elt F) ((c : Thread nD τ).loc b) := fun c b => W8 m ρ c b
theorem hF3 (c : Dev nD) (w : Fin cfg3.W) : (dat3 (B7 m ρ) c).arrAt w cfg3.N = B8 m ρ c (Pipeline.arrRef spec3 w) :=
  (W8_arr m ρ c w).symm
theorem hrest3 (c : Dev nD) : ∀ b, b ∉ Finset.univ.image (Pipeline.arrRef spec3) → B8 m ρ c b = B7 m ρ c b :=
  fun b hb => W8_of_ne m ρ c b fun w e => hb (Finset.mem_image.mpr ⟨w, Finset.mem_univ _, e⟩)
/-- After the host stretch `hostOps4`. -/
abbrev W9 : Dev nD → Valuation τ sig (Elt F) := fun c => StableHlo.after hostOps4 (W8 m ρ c)
/-- The same, read at the TensorCore's references. -/
abbrev B9 : (c : Dev nD) → (b : Ref sig .tc) → Buf (Elt F) ((c : Thread nD τ).loc b) := fun c b => W9 m ρ c b
theorem W9_keep (c : Dev nD) (r : Ref sig .tc) (h : r ∉ hostOps4_W) : W9 m ρ c (Proc.devRef .tc r) = W8 m ρ c (Proc.devRef .tc r) :=
  StableHlo.after_of_writes_sub hostOps4 _ hostOps4_writes h
/-- At region 4's exit: its arrays at what the pipeline leaves (an input as entered, the output at its write-backs
    folded), every other buffer as entered. -/
def W10 (c : Dev nD) : Valuation τ sig (Elt F) :=
  Pipeline.withArrays spec4 c (W9 m ρ c) fun w => (dat4 (B9 m ρ) c).arrAt w cfg4.N
theorem W10_arr (c : Dev nD) (w : Fin cfg4.W) :
    W10 m ρ c (Proc.devRef .tc (Pipeline.arrRef spec4 w)) = (dat4 (B9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same, read at the TensorCore's references. -/
abbrev B10 : (c : Dev nD) → (b : Ref sig .tc) → Buf (Elt F) ((c : Thread nD τ).loc b) := fun c b => W10 m ρ c b
theorem hF4 (c : Dev nD) (w : Fin cfg4.W) : (dat4 (B9 m ρ) c).arrAt w cfg4.N = B10 m ρ c (Pipeline.arrRef spec4 w) :=
  (W10_arr m ρ c w).symm
theorem hrest4 (c : Dev nD) : ∀ b, b ∉ Finset.univ.image (Pipeline.arrRef spec4) → B10 m ρ c b = B9 m ρ c b :=
  fun b hb => W10_of_ne m ρ c b fun w e => hb (Finset.mem_image.mpr ⟨w, Finset.mem_univ _, e⟩)
/-- After the host stretch `hostOps5`. -/
abbrev W11 : Dev nD → Valuation τ sig (Elt F) := fun c => StableHlo.after hostOps5 (W10 m ρ c)
/-- The same, read at the TensorCore's references. -/
abbrev B11 : (c : Dev nD) → (b : Ref sig .tc) → Buf (Elt F) ((c : Thread nD τ).loc b) := fun c b => W11 m ρ c b
theorem W11_keep (c : Dev nD) (r : Ref sig .tc) (h : r ∉ hostOps5_W) : W11 m ρ c (Proc.devRef .tc r) = W10 m ρ c (Proc.devRef .tc r) :=
  StableHlo.after_of_writes_sub hostOps5 _ hostOps5_writes h
/-- At region 5's exit: its arrays at what the pipeline leaves (an input as entered, the output at its write-backs
    folded), every other buffer as entered. -/
def W12 (c : Dev nD) : Valuation τ sig (Elt F) :=
  Pipeline.withArrays spec5 c (W11 m ρ c) fun w => (dat5 (B11 m ρ) c).arrAt w cfg5.N
theorem W12_arr (c : Dev nD) (w : Fin cfg5.W) :
    W12 m ρ c (Proc.devRef .tc (Pipeline.arrRef spec5 w)) = (dat5 (B11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same, read at the TensorCore's references. -/
abbrev B12 : (c : Dev nD) → (b : Ref sig .tc) → Buf (Elt F) ((c : Thread nD τ).loc b) := fun c b => W12 m ρ c b
theorem hF5 (c : Dev nD) (w : Fin cfg5.W) : (dat5 (B11 m ρ) c).arrAt w cfg5.N = B12 m ρ c (Pipeline.arrRef spec5 w) :=
  (W12_arr m ρ c w).symm
theorem hrest5 (c : Dev nD) : ∀ b, b ∉ Finset.univ.image (Pipeline.arrRef spec5) → B12 m ρ c b = B11 m ρ c b :=
  fun b hb => W12_of_ne m ρ c b fun w e => hb (Finset.mem_image.mpr ⟨w, Finset.mem_univ _, e⟩)
/-- After the host stretch `hostOps6`. -/
abbrev W13 : Dev nD → Valuation τ sig (Elt F) := fun c => StableHlo.after hostOps6 (W12 m ρ c)
/-- The same, read at the TensorCore's references. -/
abbrev B13 : (c : Dev nD) → (b : Ref sig .tc) → Buf (Elt F) ((c : Thread nD τ).loc b) := fun c b => W13 m ρ c b
theorem W13_keep (c : Dev nD) (r : Ref sig .tc) (h : r ∉ hostOps6_W) : W13 m ρ c (Proc.devRef .tc r) = W12 m ρ c (Proc.devRef .tc r) :=
  StableHlo.after_of_writes_sub hostOps6 _ hostOps6_writes h
/-- After the host stretch `hostOps6_1`. -/
abbrev W14 : Dev nD → Valuation τ sig (Elt F) := fun c => StableHlo.after hostOps6_1 (W13 m ρ c)
/-- The same, read at the TensorCore's references. -/
abbrev B14 : (c : Dev nD) → (b : Ref sig .tc) → Buf (Elt F) ((c : Thread nD τ).loc b) := fun c b => W14 m ρ c b
theorem W14_keep (c : Dev nD) (r : Ref sig .tc) (h : r ∉ hostOps6_1_W) : W14 m ρ c (Proc.devRef .tc r) = W13 m ρ c (Proc.devRef .tc r) :=
  StableHlo.after_of_writes_sub hostOps6_1 _ hostOps6_1_writes h
/-- After the host stretch `hostOps6_2`. -/
abbrev W15 : Dev nD → Valuation τ sig (Elt F) := fun c => StableHlo.after hostOps6_2 (W14 m ρ c)
/-- The same, read at the TensorCore's references. -/
abbrev B15 : (c : Dev nD) → (b : Ref sig .tc) → Buf (Elt F) ((c : Thread nD τ).loc b) := fun c b => W15 m ρ c b
theorem W15_keep (c : Dev nD) (r : Ref sig .tc) (h : r ∉ hostOps6_2_W) : W15 m ρ c (Proc.devRef .tc r) = W14 m ρ c (Proc.devRef .tc r) :=
  StableHlo.after_of_writes_sub hostOps6_2 _ hostOps6_2_writes h
/-- After the host stretch `hostOps6_3`. -/
abbrev W16 : Dev nD → Valuation τ sig (Elt F) := fun c => StableHlo.after hostOps6_3 (W15 m ρ c)
/-- The same, read at the TensorCore's references. -/
abbrev B16 : (c : Dev nD) → (b : Ref sig .tc) → Buf (Elt F) ((c : Thread nD τ).loc b) := fun c b => W16 m ρ c b
theorem W16_keep (c : Dev nD) (r : Ref sig .tc) (h : r ∉ hostOps6_3_W) : W16 m ρ c (Proc.devRef .tc r) = W15 m ρ c (Proc.devRef .tc r) :=
  StableHlo.after_of_writes_sub hostOps6_3 _ hostOps6_3_writes h
/-- After the host stretch `hostOps6_4`. -/
abbrev W17 : Dev nD → Valuation τ sig (Elt F) := fun c => StableHlo.after hostOps6_4 (W16 m ρ c)
/-- The same, read at the TensorCore's references. -/
abbrev B17 : (c : Dev nD) → (b : Ref sig .tc) → Buf (Elt F) ((c : Thread nD τ).loc b) := fun c b => W17 m ρ c b
theorem W17_keep (c : Dev nD) (r : Ref sig .tc) (h : r ∉ hostOps6_4_W) : W17 m ρ c (Proc.devRef .tc r) = W16 m ρ c (Proc.devRef .tc r) :=
  StableHlo.after_of_writes_sub hostOps6_4 _ hostOps6_4_writes h
/-- At region 6's exit: its arrays at what the pipeline leaves (an input as entered, the output at its write-backs
    folded), every other buffer as entered. -/
def W18 (c : Dev nD) : Valuation τ sig (Elt F) :=
  Pipeline.withArrays spec6 c (W17 m ρ c) fun w => (dat6 (B17 m ρ) c).arrAt w cfg6.N
theorem W18_arr (c : Dev nD) (w : Fin cfg6.W) :
    W18 m ρ c (Proc.devRef .tc (Pipeline.arrRef spec6 w)) = (dat6 (B17 m ρ) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m ρ c (Proc.devRef .tc b) = W17 m ρ c (Proc.devRef .tc b) := by
  unfold W18; exact Pipeline.withArrays_of_ne spec6 c _ _ b hb
/-- The same, read at the TensorCore's references. -/
abbrev B18 : (c : Dev nD) → (b : Ref sig .tc) → Buf (Elt F) ((c : Thread nD τ).loc b) := fun c b => W18 m ρ c b
theorem hF6 (c : Dev nD) (w : Fin cfg6.W) : (dat6 (B17 m ρ) c).arrAt w cfg6.N = B18 m ρ c (Pipeline.arrRef spec6 w) :=
  (W18_arr m ρ c w).symm
theorem hrest6 (c : Dev nD) : ∀ b, b ∉ Finset.univ.image (Pipeline.arrRef spec6) → B18 m ρ c b = B17 m ρ c b :=
  fun b hb => W18_of_ne m ρ c b fun w e => hb (Finset.mem_image.mpr ⟨w, Finset.mem_univ _, e⟩)
/-- After the host stretch `hostOps7`. -/
abbrev W19 : Dev nD → Valuation τ sig (Elt F) := fun c => StableHlo.after hostOps7 (W18 m ρ c)
/-- The same, read at the TensorCore's references. -/
abbrev B19 : (c : Dev nD) → (b : Ref sig .tc) → Buf (Elt F) ((c : Thread nD τ).loc b) := fun c b => W19 m ρ c b
theorem W19_keep (c : Dev nD) (r : Ref sig .tc) (h : r ∉ hostOps7_W) : W19 m ρ c (Proc.devRef .tc r) = W18 m ρ c (Proc.devRef .tc r) :=
  StableHlo.after_of_writes_sub hostOps7 _ hostOps7_writes h

/-- A reference that no host stretch writes and that is no region's array reaches the end as launched. -/
theorem W19_launch (c : Dev nD) (r : Ref sig .tc) (h0 : r ∉ hostOps0_W) (h1 : ∀ w, Pipeline.arrRef spec0 w ≠ r) (h2 : r ∉ hostOps1_W) (h3 : ∀ w, Pipeline.arrRef spec1 w ≠ r) (h4 : r ∉ hostOps2_W) (h5 : ∀ w, Pipeline.arrRef spec2 w ≠ r) (h6 : r ∉ hostOps3_W) (h7 : ∀ w, Pipeline.arrRef spec3 w ≠ r) (h8 : r ∉ hostOps4_W) (h9 : ∀ w, Pipeline.arrRef spec4 w ≠ r) (h10 : r ∉ hostOps5_W) (h11 : ∀ w, Pipeline.arrRef spec5 w ≠ r) (h12 : r ∉ hostOps6_W) (h13 : r ∉ hostOps6_1_W) (h14 : r ∉ hostOps6_2_W) (h15 : r ∉ hostOps6_3_W) (h16 : r ∉ hostOps6_4_W) (h17 : ∀ w, Pipeline.arrRef spec6 w ≠ r) (h18 : r ∉ hostOps7_W) :
    W19 m ρ c (Proc.devRef .tc r) = m ((c : Thread nD τ).loc r) :=
  (W19_keep m ρ c r h18).trans <| (W18_of_ne m ρ c r h17).trans <| (W17_keep m ρ c r h16).trans <| (W16_keep m ρ c r h15).trans <| (W15_keep m ρ c r h14).trans <| (W14_keep m ρ c r h13).trans <| (W13_keep m ρ c r h12).trans <| (W12_of_ne m ρ c r h11).trans <| (W11_keep m ρ c r h10).trans <| (W10_of_ne m ρ c r h9).trans <| (W9_keep m ρ c r h8).trans <| (W8_of_ne m ρ c r h7).trans <| (W7_keep m ρ c r h6).trans <| (W6_of_ne m ρ c r h5).trans <| (W5_keep m ρ c r h4).trans <| (W4_of_ne m ρ c r h3).trans <| (W3_keep m ρ c r h2).trans <| (W2_of_ne m ρ c r h1).trans <| (W1_keep m ρ c r h0).trans <| rfl

/-! ## The proof data family and the thread state -/

/-- No pipeline has a prefetched table. -/
abbrev padm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) padm p) c
  | ⟨0, _⟩ => fun c => dat0 (B1 m ρ) c
  | ⟨1, _⟩ => fun c => dat1 (B3 m ρ) c
  | ⟨2, _⟩ => fun c => dat2 (B5 m ρ) c
  | ⟨3, _⟩ => fun c => dat3 (B7 m ρ) c
  | ⟨4, _⟩ => fun c => dat4 (B9 m ρ) c
  | ⟨5, _⟩ => fun c => dat5 (B11 m ρ) c
  | ⟨6, _⟩ => fun c => dat6 (B17 m ρ) c
abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the core's generator register at some state and its dues, at nothing. -/
abbrev Rr (c : Dev nD) : sProp 𝕄 := iprop((∃ r, prngReg c r) ∗ ∃ W, owes (c : Thread nD τ) (0 : CellTallies nD τ sig Unit) W)
/-- A host stretch as a segment over the unscoped references from the contents `W`, `Rr` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tn (c : Dev nD) : sProp 𝕄 := iprop(StableHlo.held (c : Thread nD τ) (Pipeline.ucRefs τ sig) (W19 m ρ c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the pipeline's invariant
    and comes back; nothing is owed; the kernel has no semaphore of its own. -/
def reg0 : Pipeline.RegionSeg (pcfgs (F := F)) padm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ Lz lvz 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the pipeline's invariant
    and comes back; nothing is owed; the kernel has no semaphore of its own. -/
def reg1 : Pipeline.RegionSeg (pcfgs (F := F)) padm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (B3 m ρ) c).loose
  hwaits := Pipeline.hwaits_of_owed_zero _ _ _ _ Lz lvz 1 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (B3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (B3 m ρ c) (B4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the pipeline's invariant
    and comes back; nothing is owed; the kernel has no semaphore of its own. -/
def reg2 : Pipeline.RegionSeg (pcfgs (F := F)) padm (pdats m ρ) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (B5 m ρ) c).loose
  hwaits := Pipeline.hwaits_of_owed_zero _ _ _ _ Lz lvz 2 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec2 c (B5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (B5 m ρ c) (B6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out
    of the unscoped buffers and put back at the exit contents; the generator register goes into the pipeline's invariant
    and comes back; nothing is owed; the kernel has no semaphore of its own. -/
def reg3 : Pipeline.RegionSeg (pcfgs (F := F)) padm (pdats m ρ) () defs₀ 𝒱₀ Lz lvz 3 where
  win := launch3.win.to₀
  block_pos := launch3.block_pos
  stage_whole := launch3.stage_whole
  K := PEmpty
  osem k := k.elim
  ho := Pipeline.OwnSemFacts.none _
  hbody c := (body_obligation3 (B7 m ρ) c).loose
  hwaits := Pipeline.hwaits_of_owed_zero _ _ _ _ Lz lvz 3 fun _ _ => rfl
  pre c := iprop(StableHlo.held (c : Thread nD τ) (Pipeline.ucRefs τ sig) (W7 m ρ c) ∗ Rr c)
  post c := iprop(StableHlo.held (c : Thread nD τ) (Pipeline.ucRefs τ sig) (W8 m ρ c) ∗ Rr c)
  X c := iprop(∃ r, prngReg c r)
  Y c := iprop(∃ r, prngReg c r)
  Z c := Pipeline.unscopedRest (Ix := Unit) (Name := ℕ) (U := UR sig nD τ) (Lvl := ℕ) spec3 c (B7 m ρ c)
  hentry c := by
    rw [Pipeline.ownSems0_none]
    have hsplit := Pipeline.arrays_of_unscopedBufs (p := 3) (pcfgs (F := F)) padm (pdats m ρ) launch3.win launch3.arr_whole c
      ((pdats m ρ 3 c).share_full fun _ => rfl) (B7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) padm (Ix := Unit) (Name := ℕ) (U := UR sig nD τ) (Lvl := ℕ)
      launch3.win launch3.arr_whole c (pdats m ρ) ((pdats m ρ 3 c).share_full fun _ => rfl)
      (B7 m ρ c) (B8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split out
    of the unscoped buffers and put back at the exit contents; the generator register goes into the pipeline's invariant
    and comes back; nothing is owed; the kernel has no semaphore of its own. -/
def reg4 : Pipeline.RegionSeg (pcfgs (F := F)) padm (pdats m ρ) () defs₀ 𝒱₀ Lz lvz 4 where
  win := launch4.win.to₀
  block_pos := launch4.block_pos
  stage_whole := launch4.stage_whole
  K := PEmpty
  osem k := k.elim
  ho := Pipeline.OwnSemFacts.none _
  hbody c := (body_obligation4 (B9 m ρ) c).loose
  hwaits := Pipeline.hwaits_of_owed_zero _ _ _ _ Lz lvz 4 fun _ _ => rfl
  pre c := iprop(StableHlo.held (c : Thread nD τ) (Pipeline.ucRefs τ sig) (W9 m ρ c) ∗ Rr c)
  post c := iprop(StableHlo.held (c : Thread nD τ) (Pipeline.ucRefs τ sig) (W10 m ρ c) ∗ Rr c)
  X c := iprop(∃ r, prngReg c r)
  Y c := iprop(∃ r, prngReg c r)
  Z c := Pipeline.unscopedRest (Ix := Unit) (Name := ℕ) (U := UR sig nD τ) (Lvl := ℕ) spec4 c (B9 m ρ c)
  hentry c := by
    rw [Pipeline.ownSems0_none]
    have hsplit := Pipeline.arrays_of_unscopedBufs (p := 4) (pcfgs (F := F)) padm (pdats m ρ) launch4.win launch4.arr_whole c
      ((pdats m ρ 4 c).share_full fun _ => rfl) (B9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) padm (Ix := Unit) (Name := ℕ) (U := UR sig nD τ) (Lvl := ℕ)
      launch4.win launch4.arr_whole c (pdats m ρ) ((pdats m ρ 4 c).share_full fun _ => rfl)
      (B9 m ρ c) (B10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split out
    of the unscoped buffers and put back at the exit contents; the generator register goes into the pipeline's invariant
    and comes back; nothing is owed; the kernel has no semaphore of its own. -/
def reg5 : Pipeline.RegionSeg (pcfgs (F := F)) padm (pdats m ρ) () defs₀ 𝒱₀ Lz lvz 5 where
  win := launch5.win.to₀
  block_pos := launch5.block_pos
  stage_whole := launch5.stage_whole
  K := PEmpty
  osem k := k.elim
  ho := Pipeline.OwnSemFacts.none _
  hbody c := (body_obligation5 (B11 m ρ) c).loose
  hwaits := Pipeline.hwaits_of_owed_zero _ _ _ _ Lz lvz 5 fun _ _ => rfl
  pre c := iprop(StableHlo.held (c : Thread nD τ) (Pipeline.ucRefs τ sig) (W11 m ρ c) ∗ Rr c)
  post c := iprop(StableHlo.held (c : Thread nD τ) (Pipeline.ucRefs τ sig) (W12 m ρ c) ∗ Rr c)
  X c := iprop(∃ r, prngReg c r)
  Y c := iprop(∃ r, prngReg c r)
  Z c := Pipeline.unscopedRest (Ix := Unit) (Name := ℕ) (U := UR sig nD τ) (Lvl := ℕ) spec5 c (B11 m ρ c)
  hentry c := by
    rw [Pipeline.ownSems0_none]
    have hsplit := Pipeline.arrays_of_unscopedBufs (p := 5) (pcfgs (F := F)) padm (pdats m ρ) launch5.win launch5.arr_whole c
      ((pdats m ρ 5 c).share_full fun _ => rfl) (B11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) padm (Ix := Unit) (Name := ℕ) (U := UR sig nD τ) (Lvl := ℕ)
      launch5.win launch5.arr_whole c (pdats m ρ) ((pdats m ρ 5 c).share_full fun _ => rfl)
      (B11 m ρ c) (B12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W17`, left at `W18`. Its arrays are split out
    of the unscoped buffers and put back at the exit contents; the generator register goes into the pipeline's invariant
    and comes back; nothing is owed; the kernel has no semaphore of its own. -/
def reg6 : Pipeline.RegionSeg (pcfgs (F := F)) padm (pdats m ρ) () defs₀ 𝒱₀ Lz lvz 6 where
  win := launch6.win.to₀
  block_pos := launch6.block_pos
  stage_whole := launch6.stage_whole
  K := PEmpty
  osem k := k.elim
  ho := Pipeline.OwnSemFacts.none _
  hbody c := (body_obligation6 (B17 m ρ) c).loose
  hwaits := Pipeline.hwaits_of_owed_zero _ _ _ _ Lz lvz 6 fun _ _ => rfl
  pre c := iprop(StableHlo.held (c : Thread nD τ) (Pipeline.ucRefs τ sig) (W17 m ρ c) ∗ Rr c)
  post c := iprop(StableHlo.held (c : Thread nD τ) (Pipeline.ucRefs τ sig) (W18 m ρ c) ∗ Rr c)
  X c := iprop(∃ r, prngReg c r)
  Y c := iprop(∃ r, prngReg c r)
  Z c := Pipeline.unscopedRest (Ix := Unit) (Name := ℕ) (U := UR sig nD τ) (Lvl := ℕ) spec6 c (B17 m ρ c)
  hentry c := by
    rw [Pipeline.ownSems0_none]
    have hsplit := Pipeline.arrays_of_unscopedBufs (p := 6) (pcfgs (F := F)) padm (pdats m ρ) launch6.win launch6.arr_whole c
      ((pdats m ρ 6 c).share_full fun _ => rfl) (B17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) padm (Ix := Unit) (Name := ℕ) (U := UR sig nD τ) (Lvl := ℕ)
      launch6.win launch6.arr_whole c (pdats m ρ) ((pdats m ρ 6 c).share_full fun _ => rfl)
      (B17 m ρ c) (B18 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 19 segments in order: a host segment per stretch from its boundary's contents, a region per kernel call. -/
abbrev rsegs : List (Pipeline.Seg (pcfgs (F := F)) padm (pdats m ρ) () defs₀ 𝒱₀ Lz lvz) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .host (hseg hostOps6_1 hostOps6_1_sub hostOps6_1_fresh (W13 m ρ)),
    .host (hseg hostOps6_2 hostOps6_2_sub hostOps6_2_fresh (W14 m ρ)),
    .host (hseg hostOps6_3 hostOps6_3_sub hostOps6_3_fresh (W15 m ρ)),
    .host (hseg hostOps6_4 hostOps6_4_sub hostOps6_4_fresh (W16 m ρ)),
    .region (reg6 m ρ),
    .host (hseg hostOps7 hostOps7_sub hostOps7_fresh (W18 m ρ)) ]

/-- @main is the run of the segments. -/
theorem main_run (c : Dev nD) : main (F := F) c = Pipeline.Seg.run (rsegs m ρ) := (main_chain c).trans (by chain_rfl)

set_option backward.isDefEq.respectTransparency.types false in
/-- THE RUN. From any memory with zero counters, every weakly fair execution of @main on the TensorCores terminates,
    nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) padm (pdats m ρ) () cellOf_inj emb₁ defs₀ 𝒱₀ Lz lvz m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tn m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W19 m ρ c) ∗ Rr c)
        ⊢ iprop(Tn m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c => h c)

end Cert.Kernel.Frm

end
-- ==== Proof.Frames.lean ====
/-
  The three frame claims. Each kernel program's run ends with every unscoped buffer at the last boundary's contents;
  an argument array is written by no host operation and is no region's array, so it ends as launched. The reference is a
  line of host operations: its run is the generated one with the result dropped.
-/
import proofs.«130624_j18597208392405_1_alg».proof.Defs
import proofs.«130624_j18597208392405_1_alg».proof.Proof.KI.Run
import proofs.«130624_j18597208392405_1_alg».proof.Proof.KB.Run
import proofs.«130624_j18597208392405_1_alg».proof.Proof.Gen.ReferenceIdeal.Run
import proofs.«130624_j18597208392405_1_alg».proof.Proof.Gen.Pre_finite_inputs

set_option maxRecDepth 16384

noncomputable section

namespace Cert.Proof.Frames

open Idealize.ShloMosaic Idealize.ShloMosaic.TcCoe Idealize.SL.Sem

/-- Every argument array of `Kernel` ends as launched: it is an unscoped buffer that no host stretch writes and that is
    no region's array, so the last boundary's contents at it are the launch memory's. -/
theorem args_Kernel {F : FTy → Type} [FloatOps F] (m : (ℓ : Loc Cert.Kernel.nD Cert.Kernel.τ Cert.Kernel.sig) → Buf (Elt F) ℓ) (ρ : Dev Cert.Kernel.nD → PrngReg)
    (r : PUnit × MemSt Cert.Kernel.nD Cert.Kernel.τ Cert.Kernel.sig (Elt F))
    (h : ∀ c : Dev Cert.Kernel.nD, ∀ b ∈ Pipeline.ucRefs Cert.Kernel.τ Cert.Kernel.sig, r.2.mem (((c : Thread Cert.Kernel.nD Cert.Kernel.τ)).1, b) = Cert.Kernel.Frm.W19 m ρ c b) (c : Dev Cert.Kernel.nD) :
    r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13) :=
  ⟨(h c _ (Cert.Kernel.Frm.mem_uc Cert.Kernel.main_arg0 (by decide))).trans (Cert.Kernel.Frm.W19_launch m ρ c Cert.Kernel.main_arg0 (by decide) (by decide) (by decide) (by decide) (by decide) (by decide) (by decide) (by decide) (by decide) (by decide) (by decide) (by decide) (by decide) (by decide) (by decide) (by decide) (by decide) (by decide) (by decide)),
   (h c _ (Cert.Kernel.Frm.mem_uc Cert.Kernel.main_arg1 (by decide))).trans (Cert.Kernel.Frm.W19_launch m ρ c Cert.Kernel.main_arg1 (by decide) (by decide) (by decide) (by decide) (by decide) (by decide) (by decide) (by decide) (by decide) (by decide) (by decide) (by decide) (by decide) (by decide) (by decide) (by decide) (by decide) (by decide) (by decide)),
   (h c _ (Cert.Kernel.Frm.mem_uc Cert.Kernel.main_arg2 (by decide))).trans (Cert.Kernel.Frm.W19_launch m ρ c Cert.Kernel.main_arg2 (by decide) (by decide) (by decide) (by decide) (by decide) (by decide) (by decide) (by decide) (by decide) (by decide) (by decide) (by decide) (by decide) (by decide) (by decide) (by decide) (by decide) (by decide) (by decide)),
   (h c _ (Cert.Kernel.Frm.mem_uc Cert.Kernel.main_arg3 (by decide))).trans (Cert.Kernel.Frm.W19_launch m ρ c Cert.Kernel.main_arg3 (by decide) (by decide) (by decide) (by decide) (by decide) (by decide) (by decide) (by decide) (by decide) (by decide) (by decide) (by decide) (by decide) (by decide) (by decide) (by decide) (by decide) (by decide) (by decide)),
   (h c _ (Cert.Kernel.Frm.mem_uc Cert.Kernel.main_arg4 (by decide))).trans (Cert.Kernel.Frm.W19_launch m ρ c Cert.Kernel.main_arg4 (by decide) (by decide) (by decide) (by decide) (by decide) (by decide) (by decide) (by decide) (by decide) (by decide) (by decide) (by decide) (by decide) (by decide) (by decide) (by decide) (by decide) (by decide) (by decide)),
   (h c _ (Cert.Kernel.Frm.mem_uc Cert.Kernel.main_arg5 (by decide))).trans (Cert.Kernel.Frm.W19_launch m ρ c Cert.Kernel.main_arg5 (by decide) (by decide) (by decide) (by decide) (by decide) (by decide) (by decide) (by decide) (by decide) (by decide) (by decide) (by decide) (by decide) (by decide) (by decide) (by decide) (by decide) (by decide) (by decide)),
   (h c _ (Cert.Kernel.Frm.mem_uc Cert.Kernel.main_arg6 (by decide))).trans (Cert.Kernel.Frm.W19_launch m ρ c Cert.Kernel.main_arg6 (by decide) (by decide) (by decide) (by decide) (by decide) (by decide) (by decide) (by decide) (by decide) (by decide) (by decide) (by decide) (by decide) (by decide) (by decide) (by decide) (by decide) (by decide) (by decide)),
   (h c _ (Cert.Kernel.Frm.mem_uc Cert.Kernel.main_arg7 (by decide))).trans (Cert.Kernel.Frm.W19_launch m ρ c Cert.Kernel.main_arg7 (by decide) (by decide) (by decide) (by decide) (by decide) (by decide) (by decide) (by decide) (by decide) (by decide) (by decide) (by decide) (by decide) (by decide) (by decide) (by decide) (by decide) (by decide) (by decide)),
   (h c _ (Cert.Kernel.Frm.mem_uc Cert.Kernel.main_arg8 (by decide))).trans (Cert.Kernel.Frm.W19_launch m ρ c Cert.Kernel.main_arg8 (by decide) (by decide) (by decide) (by decide) (by decide) (by decide) (by decide) (by decide) (by decide) (by decide) (by decide) (by decide) (by decide) (by decide) (by decide) (by decide) (by decide) (by decide) (by decide)),
   (h c _ (Cert.Kernel.Frm.mem_uc Cert.Kernel.main_arg9 (by decide))).trans (Cert.Kernel.Frm.W19_launch m ρ c Cert.Kernel.main_arg9 (by decide) (by decide) (by decide) (by decide) (by decide) (by decide) (by decide) (by decide) (by decide) (by decide) (by decide) (by decide) (by decide) (by decide) (by decide) (by decide) (by decide) (by decide) (by decide)),
   (h c _ (Cert.Kernel.Frm.mem_uc Cert.Kernel.main_arg10 (by decide))).trans (Cert.Kernel.Frm.W19_launch m ρ c Cert.Kernel.main_arg10 (by decide) (by decide) (by decide) (by decide) (by decide) (by decide) (by decide) (by decide) (by decide) (by decide) (by decide) (by decide) (by decide) (by decide) (by decide) (by decide) (by decide) (by decide) (by decide)),
   (h c _ (Cert.Kernel.Frm.mem_uc Cert.Kernel.main_arg11 (by decide))).trans (Cert.Kernel.Frm.W19_launch m ρ c Cert.Kernel.main_arg11 (by decide) (by decide) (by decide) (by decide) (by decide) (by decide) (by decide) (by decide) (by decide) (by decide) (by decide) (by decide) (by decide) (by decide) (by decide) (by decide) (by decide) (by decide) (by decide)),
   (h c _ (Cert.Kernel.Frm.mem_uc Cert.Kernel.main_arg12 (by decide))).trans (Cert.Kernel.Frm.W19_launch m ρ c Cert.Kernel.main_arg12 (by decide) (by decide) (by decide) (by decide) (by decide) (by decide) (by decide) (by decide) (by decide) (by decide) (by decide) (by decide) (by decide) (by decide) (by decide) (by decide) (by decide) (by decide) (by decide)),
   (h c _ (Cert.Kernel.Frm.mem_uc Cert.Kernel.main_arg13 (by decide))).trans (Cert.Kernel.Frm.W19_launch m ρ c Cert.Kernel.main_arg13 (by decide) (by decide) (by decide) (by decide) (by decide) (by decide) (by decide) (by decide) (by decide) (by decide) (by decide) (by decide) (by decide) (by decide) (by decide) (by decide) (by decide) (by decide) (by decide))⟩

/-- Every argument array of `KernelIdeal` ends as launched: it is an unscoped buffer that no host stretch writes and that is
    no region's array, so the last boundary's contents at it are the launch memory's. -/
theorem args_KernelIdeal {F : FTy → Type} [FloatOps F] (m : (ℓ : Loc Cert.KernelIdeal.nD Cert.KernelIdeal.τ Cert.KernelIdeal.sig) → Buf (Elt F) ℓ) (ρ : Dev Cert.KernelIdeal.nD → PrngReg)
    (r : PUnit × MemSt Cert.KernelIdeal.nD Cert.KernelIdeal.τ Cert.KernelIdeal.sig (Elt F))
    (h : ∀ c : Dev Cert.KernelIdeal.nD, ∀ b ∈ Pipeline.ucRefs Cert.KernelIdeal.τ Cert.KernelIdeal.sig, r.2.mem (((c : Thread Cert.KernelIdeal.nD Cert.KernelIdeal.τ)).1, b) = Cert.KernelIdeal.Frm.W19 m ρ c b) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13) :=
  ⟨(h c _ (Cert.KernelIdeal.Frm.mem_uc Cert.KernelIdeal.main_arg0 (by decide))).trans (Cert.KernelIdeal.Frm.W19_launch m ρ c Cert.KernelIdeal.main_arg0 (by decide) (by decide) (by decide) (by decide) (by decide) (by decide) (by decide) (by decide) (by decide) (by decide) (by decide) (by decide) (by decide) (by decide) (by decide) (by decide) (by decide) (by decide) (by decide)),
   (h c _ (Cert.KernelIdeal.Frm.mem_uc Cert.KernelIdeal.main_arg1 (by decide))).trans (Cert.KernelIdeal.Frm.W19_launch m ρ c Cert.KernelIdeal.main_arg1 (by decide) (by decide) (by decide) (by decide) (by decide) (by decide) (by decide) (by decide) (by decide) (by decide) (by decide) (by decide) (by decide) (by decide) (by decide) (by decide) (by decide) (by decide) (by decide)),
   (h c _ (Cert.KernelIdeal.Frm.mem_uc Cert.KernelIdeal.main_arg2 (by decide))).trans (Cert.KernelIdeal.Frm.W19_launch m ρ c Cert.KernelIdeal.main_arg2 (by decide) (by decide) (by decide) (by decide) (by decide) (by decide) (by decide) (by decide) (by decide) (by decide) (by decide) (by decide) (by decide) (by decide) (by decide) (by decide) (by decide) (by decide) (by decide)),
   (h c _ (Cert.KernelIdeal.Frm.mem_uc Cert.KernelIdeal.main_arg3 (by decide))).trans (Cert.KernelIdeal.Frm.W19_launch m ρ c Cert.KernelIdeal.main_arg3 (by decide) (by decide) (by decide) (by decide) (by decide) (by decide) (by decide) (by decide) (by decide) (by decide) (by decide) (by decide) (by decide) (by decide) (by decide) (by decide) (by decide) (by decide) (by decide)),
   (h c _ (Cert.KernelIdeal.Frm.mem_uc Cert.KernelIdeal.main_arg4 (by decide))).trans (Cert.KernelIdeal.Frm.W19_launch m ρ c Cert.KernelIdeal.main_arg4 (by decide) (by decide) (by decide) (by decide) (by decide) (by decide) (by decide) (by decide) (by decide) (by decide) (by decide) (by decide) (by decide) (by decide) (by decide) (by decide) (by decide) (by decide) (by decide)),
   (h c _ (Cert.KernelIdeal.Frm.mem_uc Cert.KernelIdeal.main_arg5 (by decide))).trans (Cert.KernelIdeal.Frm.W19_launch m ρ c Cert.KernelIdeal.main_arg5 (by decide) (by decide) (by decide) (by decide) (by decide) (by decide) (by decide) (by decide) (by decide) (by decide) (by decide) (by decide) (by decide) (by decide) (by decide) (by decide) (by decide) (by decide) (by decide)),
   (h c _ (Cert.KernelIdeal.Frm.mem_uc Cert.KernelIdeal.main_arg6 (by decide))).trans (Cert.KernelIdeal.Frm.W19_launch m ρ c Cert.KernelIdeal.main_arg6 (by decide) (by decide) (by decide) (by decide) (by decide) (by decide) (by decide) (by decide) (by decide) (by decide) (by decide) (by decide) (by decide) (by decide) (by decide) (by decide) (by decide) (by decide) (by decide)),
   (h c _ (Cert.KernelIdeal.Frm.mem_uc Cert.KernelIdeal.main_arg7 (by decide))).trans (Cert.KernelIdeal.Frm.W19_launch m ρ c Cert.KernelIdeal.main_arg7 (by decide) (by decide) (by decide) (by decide) (by decide) (by decide) (by decide) (by decide) (by decide) (by decide) (by decide) (by decide) (by decide) (by decide) (by decide) (by decide) (by decide) (by decide) (by decide)),
   (h c _ (Cert.KernelIdeal.Frm.mem_uc Cert.KernelIdeal.main_arg8 (by decide))).trans (Cert.KernelIdeal.Frm.W19_launch m ρ c Cert.KernelIdeal.main_arg8 (by decide) (by decide) (by decide) (by decide) (by decide) (by decide) (by decide) (by decide) (by decide) (by decide) (by decide) (by decide) (by decide) (by decide) (by decide) (by decide) (by decide) (by decide) (by decide)),
   (h c _ (Cert.KernelIdeal.Frm.mem_uc Cert.KernelIdeal.main_arg9 (by decide))).trans (Cert.KernelIdeal.Frm.W19_launch m ρ c Cert.KernelIdeal.main_arg9 (by decide) (by decide) (by decide) (by decide) (by decide) (by decide) (by decide) (by decide) (by decide) (by decide) (by decide) (by decide) (by decide) (by decide) (by decide) (by decide) (by decide) (by decide) (by decide)),
   (h c _ (Cert.KernelIdeal.Frm.mem_uc Cert.KernelIdeal.main_arg10 (by decide))).trans (Cert.KernelIdeal.Frm.W19_launch m ρ c Cert.KernelIdeal.main_arg10 (by decide) (by decide) (by decide) (by decide) (by decide) (by decide) (by decide) (by decide) (by decide) (by decide) (by decide) (by decide) (by decide) (by decide) (by decide) (by decide) (by decide) (by decide) (by decide)),
   (h c _ (Cert.KernelIdeal.Frm.mem_uc Cert.KernelIdeal.main_arg11 (by decide))).trans (Cert.KernelIdeal.Frm.W19_launch m ρ c Cert.KernelIdeal.main_arg11 (by decide) (by decide) (by decide) (by decide) (by decide) (by decide) (by decide) (by decide) (by decide) (by decide) (by decide) (by decide) (by decide) (by decide) (by decide) (by decide) (by decide) (by decide) (by decide)),
   (h c _ (Cert.KernelIdeal.Frm.mem_uc Cert.KernelIdeal.main_arg12 (by decide))).trans (Cert.KernelIdeal.Frm.W19_launch m ρ c Cert.KernelIdeal.main_arg12 (by decide) (by decide) (by decide) (by decide) (by decide) (by decide) (by decide) (by decide) (by decide) (by decide) (by decide) (by decide) (by decide) (by decide) (by decide) (by decide) (by decide) (by decide) (by decide)),
   (h c _ (Cert.KernelIdeal.Frm.mem_uc Cert.KernelIdeal.main_arg13 (by decide))).trans (Cert.KernelIdeal.Frm.W19_launch m ρ c Cert.KernelIdeal.main_arg13 (by decide) (by decide) (by decide) (by decide) (by decide) (by decide) (by decide) (by decide) (by decide) (by decide) (by decide) (by decide) (by decide) (by decide) (by decide) (by decide) (by decide) (by decide) (by decide))⟩

theorem frame_k : Cert.frame_Kernel := fun m ρ _ =>
  (θ_run Cert.Kernel.defs _ _).mono (fun r h c => args_Kernel m ρ r h c) (Cert.Kernel.Frm.run_all (F := Bits) m ρ)

theorem frame_ki : Cert.frame_KernelIdeal := fun m ρ _ =>
  (θ_run Cert.KernelIdeal.defs _ _).mono (fun r h c => args_KernelIdeal m ρ r h c) (Cert.KernelIdeal.Frm.run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.KI.Host0.lean ====
/-
  After the first stretch of host operations, which both programs share operation for operation: the source and
  destination index vectors, the per-edge and per-node normalisation factors are the reference's own stages of the edge
  list; the two casts to the narrower float format are the identity on extended reals, so the first layer's input and
  weight arrays are the arguments themselves.
-/
import proofs.«130624_j18597208392405_1_alg».proof.Proof.KI.Run
import proofs.«130624_j18597208392405_1_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The edge list, the one integer argument. -/
abbrev eidx := m ((c.tc : Thread nD τ).loc main_arg1)

set_option maxHeartbeats 8000000 in
set_option maxRecDepth 100000 in
/-- The source indices. -/
theorem src_eq : W1 m ρ c (Proc.devRef .tc main_v1) = Cert.ReferenceIdeal.Read.val_main_v1 (F := Ideal) (eidx m c) := by
  show StableHlo.after hostOps0 (W0 m ρ c) (Proc.devRef .tc main_v1) = _
  after_results_simp
  rfl

set_option maxHeartbeats 8000000 in
set_option maxRecDepth 100000 in
/-- The destination indices. -/
theorem dst_eq : W1 m ρ c (Proc.devRef .tc main_v3) = Cert.ReferenceIdeal.Read.val_main_v3 (F := Ideal) (eidx m c) := by
  show StableHlo.after hostOps0 (W0 m ρ c) (Proc.devRef .tc main_v3) = _
  after_results_simp
  rfl

set_option maxHeartbeats 8000000 in
set_option maxRecDepth 100000 in
/-- The per-edge factor, the product of the two endpoints' inverse square-root degrees. -/
theorem nedge_eq : W1 m ρ c (Proc.devRef .tc main_v25) = Cert.ReferenceIdeal.Read.val_main_v25 (F := Ideal) (eidx m c) := by
  show StableHlo.after hostOps0 (W0 m ρ c) (Proc.devRef .tc main_v25) = _
  after_results_simp
  rfl

set_option maxHeartbeats 8000000 in
set_option maxRecDepth 100000 in
/-- The per-node factor, the inverse degree. -/
theorem nself_eq : W1 m ρ c (Proc.devRef .tc main_v26) = Cert.ReferenceIdeal.Read.val_main_v26 (F := Ideal) (eidx m c) := by
  show StableHlo.after hostOps0 (W0 m ρ c) (Proc.devRef .tc main_v26) = _
  after_results_simp
  rfl

set_option maxHeartbeats 8000000 in
set_option maxRecDepth 100000 in
/-- The first layer's input, cast: unchanged on extended reals. -/
theorem x0_eq : W1 m ρ c (Proc.devRef .tc main_v27) = m ((c.tc : Thread nD τ).loc main_arg0) := by
  show StableHlo.after hostOps0 (W0 m ρ c) (Proc.devRef .tc main_v27) = _
  after_results_simp
  rfl

set_option maxHeartbeats 8000000 in
set_option maxRecDepth 100000 in
/-- The first layer's weights, cast: unchanged on extended reals. -/
theorem w1_eq : W1 m ρ c (Proc.devRef .tc main_v28) = m ((c.tc : Thread nD τ).loc main_arg2) := by
  show StableHlo.after hostOps0 (W0 m ρ c) (Proc.devRef .tc main_v28) = _
  after_results_simp
  rfl

end Cert.KernelIdeal.Val

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.KI.Val0.lean ====
/-
  Region 0: the array its output window leaves, index by index, over the extended reals.
-/
import proofs.«130624_j18597208392405_1_alg».proof.Proof.KI.Region0
import proofs.«130624_j18597208392405_1_alg».proof.Proof.LibPlainDot
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The matrix product's dimension numbers are the plain ones. -/
theorem dot0_eq : dot_S2000x512_S512x256_S2000x256_1_0_0_1_n_n
    = Cert.Lib.plainDot 2000 512 256 dot_S2000x512_S512x256_S2000x256_1_0_0_1_n_n_wf := rfl

/-- The body's value at (p, q): row p of the left block times column q of the right block. -/
theorem pay0_apply (x0 : Vec Ideal S2000x512 .bf16) (x1 : Vec Ideal S512x256 .bf16) (p : Fin 2000) (q : Fin 256) :
    k0_pay1 x0 x1 (ix2 p q) = ∑ k : Fin 512, (x0 : S2000x512.Idx → EReal) (ix2 p k) * (x1 : S512x256.Idx → EReal) (ix2 k q) := by
  unfold k0_pay1
  simp only [shapeCast_self]
  rw [dot0_eq]
  exact Cert.Lib.matmul_zero_apply _ none x0 x1 p q

/-- The product of the two arrays, index by index. -/
def G0 (a0 : S50000x512.Idx → EReal) (a1 : S512x256.Idx → EReal) : S50000x256.Idx → EReal :=
  fun i => ∑ k : Fin 512, a0 (ix2 (⟨(i 0).val, (i 0).isLt⟩ : Fin 50000) k) * a1 (ix2 k (⟨(i 1).val, (i 1).isLt⟩ : Fin 256))

theorem G0_apply (a0 : S50000x512.Idx → EReal) (a1 : S512x256.Idx → EReal) (P : Fin 50000) (q : Fin 256) :
    G0 a0 a1 (ix2 P q) = ∑ k : Fin 512, a0 (ix2 P k) * a1 (ix2 k q) := rfl

/-- The index maps over the grid: the output's and the left operand's blocks are the point's row block, the right operand's is the whole matrix. -/
theorem idx0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- A point's stored value at an index of its block is the product at the array index the block's index sits at, when the
    left block holds the point's rows of the left array and the right block the right array. -/
theorem point0 (a0 : S50000x512.Idx → EReal) (a1 : S512x256.Idx → EReal)
    (x0 : Vec Ideal S2000x512 .bf16) (x1 : Vec Ideal S512x256 .bf16) (n : Nat)
    (h0 : ∀ (y : S2000x512.Idx) (i : S50000x512.Idx), (i 0).val = n * 2000 + (y 0).val → (i 1).val = (y 1).val → x0 y = a0 i)
    (h1 : ∀ y : S512x256.Idx, x1 y = a1 y)
    (y : S2000x256.Idx) (i : S50000x256.Idx) (hi0 : (i 0).val = n * 2000 + (y 0).val) (hi1 : (i 1).val = (y 1).val) :
    k0_pay1 x0 x1 y = G0 a0 a1 i := by
  obtain ⟨p, q, rfl⟩ : ∃ (p : Fin 2000) (q : Fin 256), y = ix2 p q := ⟨y 0, y 1, eq_ix2 y⟩
  obtain ⟨P, Q, rfl⟩ : ∃ (P : Fin 50000) (Q : Fin 256), i = ix2 P Q := ⟨i 0, i 1, eq_ix2 i⟩
  obtain rfl : Q = q := Fin.ext hi1
  rw [pay0_apply, G0_apply]
  refine Finset.sum_congr rfl fun k _ => ?_
  rw [h0 (ix2 p k) (ix2 P k) hi0 rfl, h1]

/-- The left operand's block at a point is the point's 2000 rows of the left array. -/
theorem blk0_0 (c : Dev nD) (t : Fin cfg0.N) (y : S2000x512.Idx) (i : S50000x512.Idx)
    (hi0 : (i 0).val = t.val * 2000 + (y 0).val) (hi1 : (i 1).val = (y 1).val) :
    (iblk0 V c 0 t : S2000x512.Idx → EReal) y = (V c main_v27 : S50000x512.Idx → EReal) i := by
  obtain ⟨e0, e1, e2, e3, e4, e5⟩ := idx0 t
  unfold iblk0
  rw [View.read_apply]
  show V c main_v27 _ = V c main_v27 _
  refine congrArg _ (funext fun a => Fin.ext ?_)
  match a with
  | ⟨0, _⟩ => show win0_0.index t (0 : Fin 2) * 2000 + 1 * (y 0).val = (i 0).val; rw [e2, hi0]; omega
  | ⟨1, _⟩ => show win0_0.index t (1 : Fin 2) * 512 + 1 * (y 1).val = (i 1).val; rw [e3, hi1]; omega

/-- The right operand's block at every point is the whole right array. -/
theorem blk0_1 (c : Dev nD) (t : Fin cfg0.N) (y : S512x256.Idx) :
    (iblk0 V c 1 t : S512x256.Idx → EReal) y = (V c main_v28 : S512x256.Idx → EReal) y := by
  obtain ⟨e0, e1, e2, e3, e4, e5⟩ := idx0 t
  unfold iblk0
  rw [View.read_apply]
  show V c main_v28 _ = V c main_v28 _
  refine congrArg _ (funext fun a => Fin.ext ?_)
  match a with
  | ⟨0, _⟩ => show win0_1.index t (0 : Fin 2) * 512 + 1 * (y 0).val = (y 0).val; rw [e4]; omega
  | ⟨1, _⟩ => show win0_1.index t (1 : Fin 2) * 256 + 1 * (y 1).val = (y 1).val; rw [e5]; omega

/-- What a point writes back is its block of the product of the two arrays as the region finds them. -/
theorem flushed0_eq (c : Dev nD) (t : Fin cfg0.N) :
    (dat0 V c).flushed 2 t = ((cfg0.win 2).blk t).view.read (Elt Ideal) (G0 (V c main_v27) (V c main_v28)) := by
  show (cfg0.win 2).cut (grid0.coords t) ((dat0 V c).after 2 t) = _
  rw [after0_2]
  unfold out0_2
  rw [View.canon_unit_zero hz0]
  simp only [View.ld_unit_zero (S := S2000x512) hz0, View.ld_unit_zero (S := S512x256) hz0]
  obtain ⟨e0, e1, e2, e3, e4, e5⟩ := idx0 t
  funext j
  show k0_pay1 (iblk0 V c 0 t) (iblk0 V c 1 t) ((cfg0.win 2).xinj (grid0.coords t) j)
    = G0 (V c main_v27) (V c main_v28) (((cfg0.win 2).blk t).view.emb j)
  refine point0 (V c main_v27) (V c main_v28) (iblk0 V c 0 t) (iblk0 V c 1 t) t.val (blk0_0 V c t) (blk0_1 V c t) _ _ ?_ ?_
  · show win0_2.index t (0 : Fin 2) * 2000 + 1 * (j 0).val = t.val * 2000 + (j 0).val; rw [e0]; omega
  · show win0_2.index t (1 : Fin 2) * 256 + 1 * (j 1).val = (j 1).val; rw [e1]; omega

/-- An index of the array is in a point's block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v29).slice (win0_2.rect t)).set ↔ _
  rw [View.set_slice_whole, Rect.mem_set_unit]
  exact Iff.rfl

/-- Every index of the array is in the block of the point numbered by its row divided by 2000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have ht : (i 0).val / 2000 < cfg0.N := by show _ < grid0.N; rw [N_0]; omega
  obtain ⟨e0, e1, -⟩ := idx0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ (1 : Fin 2) * 256 ≤ (i 1).val ∧ (i 1).val < win0_2.index ⟨(i 0).val / 2000, ht⟩ (1 : Fin 2) * 256 + 256
    rw [e1]; omega

/-- The output array after the region is the product of the two input arrays as the region finds them. -/
theorem arr0 (c : Dev nD) : (dat0 V c).arrAt 2 cfg0.N = G0 (V c main_v27) (V c main_v28) :=
  (dat0 V c).arrAt_eq_of_cover 2 (G0 (V c main_v27) (V c main_v28)) (fun t _ => flushed0_eq V c t) cover0

/-- The output array after the region, at (p, q): row p of the first array times column q of the second, the two arrays
    named as functions of their indices. -/
theorem final0 (c : Dev nD) (a0 : S50000x512.Idx → EReal) (a1 : S512x256.Idx → EReal)
    (h0 : V c main_v27 = a0) (h1 : V c main_v28 = a1) (p : Fin 50000) (q : Fin 256) :
    @Eq EReal ((dat0 (F := Ideal) V c).arrAt 2 cfg0.N (ix2 p q)) (∑ k : Fin 512, a0 (ix2 p k) * a1 (ix2 k q)) := by
  subst h0; subst h1
  exact (congrFun (arr0 V c) (ix2 p q)).trans (G0_apply _ _ p q)

end Cert.KernelIdeal.Val

end
-- ==== Proof.KI.Val1.lean ====
/-
  Region 1 of the program, read index by index at the ideal float instance: the combine step's output array after the
  region's run is, at every row p and column q, max(agg[p,q] + h[p,q] * norm[p,0] + bias[0,q], 0) of the arrays the
  region finds. First a column broadcast read at an index, then the body's value at an index of its block, the printed
  index maps over the grid, what each grid point writes back as a block of one whole-array function, the cover of the
  output array by the row blocks, and the array after the run.
-/
import proofs.«130624_j18597208392405_1_alg».proof.Proof.KI.Region1
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz1 : (![0, 0] : Fin 2 → Nat) = fun _ => 0 := funext fun a => by fin_cases a <;> rfl

/-- A column `[a, 1]` broadcast to `[a, b]` reads, at `(p, c)`, the operand's row `p` at its one column. -/
theorem broadcastTo_a1_ab_apply1 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at row `p`, column `q` of its block: the four loaded blocks at that row and column, the column block
    at the row, the row block at the column. -/
theorem pay1_apply (x0 x1 : Vec Ideal S2000x256 .f32) (x2 : Vec Ideal S2000x1 .f32) (x3 : Vec Ideal S1x256 .f32) (p : Fin 2000) (q : Fin 256) :
    k1_pay1 x0 x1 x2 x3 (ix2 p q)
      = FloatOps.maximumf (F := Ideal) (φ := .f32) (FloatOps.addf (FloatOps.addf (x0 (ix2 p q)) (FloatOps.mulf (x1 (ix2 p q)) (x2 (ix2 p (0 : Fin 1))))) (x3 (ix2 (0 : Fin 1) q))) (Scalar.ofBits (F := Ideal) .f32 0x00000000#32) := by
  unfold k1_pay1
  simp only [shapeCast_self]
  have e2 := broadcastTo_a1_ab_apply1 x2 broadcasts_S2000x1_S2000x256 p q
  have e3 := broadcastTo_1b_ab_apply x3 broadcasts_S1x256_S2000x256 p q
  show FloatOps.maximumf (FloatOps.addf (FloatOps.addf _ (FloatOps.mulf _ _)) _) _ = _
  rw [e2, e3]
  rfl

/-- The output array as one function of the four input arrays: at row `p`, column `q`. -/
def g1 (a0 a1 : S50000x256.Idx → Ideal .f32) (a2 : S50000x1.Idx → Ideal .f32) (a3 : S1x256.Idx → Ideal .f32) (p : Fin 50000) (q : Fin 256) : Ideal .f32 :=
  FloatOps.maximumf (F := Ideal) (φ := .f32) (FloatOps.addf (FloatOps.addf (a0 (ix2 p q)) (FloatOps.mulf (a1 (ix2 p q)) (a2 (ix2 p (0 : Fin 1))))) (a3 (ix2 (0 : Fin 1) q))) (Scalar.ofBits (F := Ideal) .f32 0x00000000#32)

/-- The same function of an index. -/
def G1 (a0 a1 : S50000x256.Idx → Ideal .f32) (a2 : S50000x1.Idx → Ideal .f32) (a3 : S1x256.Idx → Ideal .f32) : S50000x256.Idx → Ideal .f32 :=
  fun i => g1 a0 a1 a2 a3 ⟨(i 0).val, idx2_lt0 i⟩ ⟨(i 1).val, idx2_lt1 i⟩

theorem G1_ix2 (a0 a1 : S50000x256.Idx → Ideal .f32) (a2 : S50000x1.Idx → Ideal .f32) (a3 : S1x256.Idx → Ideal .f32) (p : Fin 50000) (q : Fin 256) :
    G1 a0 a1 a2 a3 (ix2 p q) = g1 a0 a1 a2 a3 p q := rfl

/-- The printed index maps, decided over the grid: at point `t` the row-blocked windows are at block `(t, 0)`, the
    row vector at `(0, 0)`. -/
theorem idx_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point `t` is rows `2000 t … 2000 t + 1999` of its array. -/
theorem iblk1_0_apply (c : Dev nD) (t : Fin cfg1.N) (p : Fin 2000) (q : Fin 256) (P : Fin 50000) (hP : P.val = t.val * 2000 + p.val) :
    (iblk1 V c 0 t : Vec Ideal S2000x256 .f32) (ix2 p q) = (V c main_v42 : S50000x256.Idx → Ideal .f32) (ix2 P q) := by
  obtain ⟨e0, e1, -⟩ := idx_facts1 t
  unfold iblk1
  rw [View.read_apply]
  show V c main_v42 _ = V c main_v42 _
  refine congrArg _ (funext fun a => Fin.ext ?_)
  match a with
  | ⟨0, _⟩ => show win1_0.index t (0 : Fin 2) * 2000 + 1 * p.val = P.val; rw [e0, hP]; omega
  | ⟨1, _⟩ => show win1_0.index t (1 : Fin 2) * 256 + 1 * q.val = q.val; rw [e1]; omega

/-- Window 1's block at point `t` is the same rows of its array. -/
theorem iblk1_1_apply (c : Dev nD) (t : Fin cfg1.N) (p : Fin 2000) (q : Fin 256) (P : Fin 50000) (hP : P.val = t.val * 2000 + p.val) :
    (iblk1 V c 1 t : Vec Ideal S2000x256 .f32) (ix2 p q) = (V c main_v29 : S50000x256.Idx → Ideal .f32) (ix2 P q) := by
  obtain ⟨-, -, e0, e1, -⟩ := idx_facts1 t
  unfold iblk1
  rw [View.read_apply]
  show V c main_v29 _ = V c main_v29 _
  refine congrArg _ (funext fun a => Fin.ext ?_)
  match a with
  | ⟨0, _⟩ => show win1_1.index t (0 : Fin 2) * 2000 + 1 * p.val = P.val; rw [e0, hP]; omega
  | ⟨1, _⟩ => show win1_1.index t (1 : Fin 2) * 256 + 1 * q.val = q.val; rw [e1]; omega

/-- Window 2's block at point `t` is the same rows of the one-column array. -/
theorem iblk1_2_apply (c : Dev nD) (t : Fin cfg1.N) (p : Fin 2000) (P : Fin 50000) (hP : P.val = t.val * 2000 + p.val) :
    (iblk1 V c 2 t : Vec Ideal S2000x1 .f32) (ix2 p (0 : Fin 1)) = (V c main_v43 : S50000x1.Idx → Ideal .f32) (ix2 P (0 : Fin 1)) := by
  obtain ⟨-, -, -, -, e0, e1, -⟩ := idx_facts1 t
  unfold iblk1
  rw [View.read_apply]
  show V c main_v43 _ = V c main_v43 _
  refine congrArg _ (funext fun a => Fin.ext ?_)
  match a with
  | ⟨0, _⟩ => show win1_2.index t (0 : Fin 2) * 2000 + 1 * p.val = P.val; rw [e0, hP]; omega
  | ⟨1, _⟩ => show win1_2.index t (1 : Fin 2) * 1 + 1 * 0 = 0; rw [e1]

/-- Window 3's block at every point is its whole one-row array. -/
theorem iblk1_3_apply (c : Dev nD) (t : Fin cfg1.N) (q : Fin 256) :
    (iblk1 V c 3 t : Vec Ideal S1x256 .f32) (ix2 (0 : Fin 1) q) = (V c main_v44 : S1x256.Idx → Ideal .f32) (ix2 (0 : Fin 1) q) := by
  obtain ⟨-, -, -, -, -, -, e0, e1, -⟩ := idx_facts1 t
  unfold iblk1
  rw [View.read_apply]
  show V c main_v44 _ = V c main_v44 _
  refine congrArg _ (funext fun a => Fin.ext ?_)
  match a with
  | ⟨0, _⟩ => show win1_3.index t (0 : Fin 2) * 1 + 1 * 0 = 0; rw [e0]
  | ⟨1, _⟩ => show win1_3.index t (1 : Fin 2) * 256 + 1 * q.val = q.val; rw [e1]; omega

/-- The body's value at the blocks of point `t`, at row `p`, column `q` of the block, is the whole-array function at row
    `2000 t + p`, column `q`. -/
theorem point1 (c : Dev nD) (t : Fin cfg1.N) (p : Fin 2000) (q : Fin 256) (P : Fin 50000) (hP : P.val = t.val * 2000 + p.val) :
    k1_pay1 (iblk1 V c 0 t) (iblk1 V c 1 t) (iblk1 V c 2 t) (iblk1 V c 3 t) (ix2 p q)
      = g1 (V c main_v42) (V c main_v29) (V c main_v43) (V c main_v44) P q := by
  refine (pay1_apply (iblk1 V c 0 t) (iblk1 V c 1 t) (iblk1 V c 2 t) (iblk1 V c 3 t) p q).trans ?_
  rw [iblk1_0_apply V c t p q P hP, iblk1_1_apply V c t p q P hP, iblk1_2_apply V c t p P hP, iblk1_3_apply V c t q]
  rfl

/-- What point `t` writes back is block `t` of the whole-array function of the arrays as the region finds them. -/
theorem flushed1_eq (c : Dev nD) (t : Fin cfg1.N) :
    (dat1 (F := Ideal) V c).flushed 4 t
      = ((cfg1.win 4).blk t).view.read (Elt Ideal) (G1 (V c main_v42) (V c main_v29) (V c main_v43) (V c main_v44)) := by
  show (cfg1.win 4).cut (grid1.coords t) ((dat1 V c).after 4 t) = _
  rw [after1_4]
  unfold out1_4
  rw [View.canon_unit_zero hz1]
  simp only [View.ld_unit_zero (S := S2000x256) hz1, View.ld_unit_zero (S := S2000x1) hz1, View.ld_unit_zero (S := S1x256) hz1]
  obtain ⟨-, -, -, -, -, -, -, -, e0, e1⟩ := idx_facts1 t
  have hN : t.val < 25 := Nat.lt_of_lt_of_eq t.isLt N_1
  funext j
  obtain ⟨p, q, rfl⟩ : ∃ (p : Fin 2000) (q : Fin 256), j = ix2 p q := ⟨j 0, j 1, eq_ix2 j⟩
  have hp : p.val < 2000 := p.isLt
  have hx : (cfg1.win 4).xinj (grid1.coords t) (ix2 p q) = ix2 p q :=
    funext fun a => by match a with | ⟨0, _⟩ => rfl | ⟨1, _⟩ => rfl
  have he : ((cfg1.win 4).blk t).view.emb (ix2 p q) = ix2 (⟨t.val * 2000 + p.val, by omega⟩ : Fin 50000) q := by
    funext a; apply Fin.ext
    match a with
    | ⟨0, _⟩ => show win1_4.index t (0 : Fin 2) * 2000 + 1 * p.val = t.val * 2000 + p.val; rw [e0]; omega
    | ⟨1, _⟩ => show win1_4.index t (1 : Fin 2) * 256 + 1 * q.val = q.val; rw [e1]; omega
  show k1_pay1 (iblk1 V c 0 t) (iblk1 V c 1 t) (iblk1 V c 2 t) (iblk1 V c 3 t) ((cfg1.win 4).xinj (grid1.coords t) (ix2 p q))
      = G1 (V c main_v42) (V c main_v29) (V c main_v43) (V c main_v44) (((cfg1.win 4).blk t).view.emb (ix2 p q))
  rw [hx, he, G1_ix2]
  exact point1 V c t p q _ rfl

/-- Every row of the output array is in the block of the point its row block names, and every point writes back. -/
theorem cover1 (c : Dev nD) (i : ((cfg1.win 4).arr.view.loc ((c : Dev nD).tc : Thread nD τ)).2.ty.Idx) :
    ∃ t : Fin cfg1.N, (cfg1.win 4).flush t = true ∧ i ∈ ((cfg1.win 4).blk t).view.set := by
  have h0 : (i 0).val < 50000 := (i 0).isLt
  have h1 : (i 1).val < 256 := (i 1).isLt
  have hN : cfg1.N = 25 := N_1
  let t : Fin cfg1.N := ⟨(i 0).val / 2000, by rw [hN]; omega⟩
  obtain ⟨-, -, -, -, -, -, -, -, e0, e1⟩ := idx_facts1 t
  have ht : t.val = (i 0).val / 2000 := rfl
  refine ⟨t, flush1_4 t, ?_⟩
  show i ∈ ((View.whole main_v45).slice (win1_4.rect t)).set
  rw [View.set_slice_whole, Rect.mem_set_unit]
  intro a
  match a with
  | ⟨0, _⟩ =>
    show win1_4.index t (0 : Fin 2) * 2000 ≤ (i 0).val ∧ (i 0).val < win1_4.index t (0 : Fin 2) * 2000 + 2000
    rw [e0, ht]; omega
  | ⟨1, _⟩ =>
    show win1_4.index t (1 : Fin 2) * 256 ≤ (i 1).val ∧ (i 1).val < win1_4.index t (1 : Fin 2) * 256 + 256
    rw [e1]; omega

/-- The output array after the region's run is the whole-array function of the arrays as the region finds them. -/
theorem arr1_eq (c : Dev nD) :
    (dat1 (F := Ideal) V c).arrAt 4 cfg1.N = G1 (V c main_v42) (V c main_v29) (V c main_v43) (V c main_v44) :=
  (dat1 (F := Ideal) V c).arrAt_eq_of_cover 4 (G1 (V c main_v42) (V c main_v29) (V c main_v43) (V c main_v44))
    (fun t _ => flushed1_eq V c t) (cover1 c)

/-- The output array after the region's run, at row `p`, column `q`. -/
theorem final1 (c : Dev nD) (p : Fin 50000) (q : Fin 256) :
    ((dat1 (F := Ideal) V c).arrAt 4 cfg1.N : S50000x256.Idx → Ideal .f32) (ix2 p q)
      = FloatOps.maximumf (F := Ideal) (φ := .f32) (FloatOps.addf (FloatOps.addf ((V c main_v42 : S50000x256.Idx → Ideal .f32) (ix2 p q)) (FloatOps.mulf ((V c main_v29 : S50000x256.Idx → Ideal .f32) (ix2 p q)) ((V c main_v43 : S50000x1.Idx → Ideal .f32) (ix2 p (0 : Fin 1))))) ((V c main_v44 : S1x256.Idx → Ideal .f32) (ix2 (0 : Fin 1) q))) (Scalar.ofBits (F := Ideal) .f32 0x00000000#32) := by
  rw [arr1_eq V c]
  rfl

end Cert.KernelIdeal.Val

end
-- ==== Proof.KI.Layer1.lean ====
/-
  The first layer. The first kernel region leaves the product of the input with the first weight matrix, which is the
  reference's own product, sum for sum. The host operations between the two regions are the reference's, operation for
  operation, applied to equal arrays: the aggregated array is the reference's. The second region leaves, at every index,
  max((agg + h · norm_self) + b, 0): the reference's first layer output.
-/
import proofs.«130624_j18597208392405_1_alg».proof.Proof.KI.Host0
import proofs.«130624_j18597208392405_1_alg».proof.Proof.KI.Val0
import proofs.«130624_j18597208392405_1_alg».proof.Proof.KI.Val1
import Idealize.ShloMosaic.Lib.StableHlo.Run
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

set_option maxHeartbeats 4000000 in
/-- The first region's output is the reference's first product: at (p, q) both are the sum over k of x (p, k) · W₁ (k, q). -/
theorem h1_eq : W2 m ρ c (Proc.devRef .tc main_v29) = Cert.ReferenceIdeal.Read.val_main_v27 (F := Ideal) (m ((c.tc : Thread nD τ).loc main_arg0)) (m ((c.tc : Thread nD τ).loc main_arg2)) := by
  refine ((W2_arr m ρ c 2).trans (arr0 (B1 m ρ) c)).trans ?_
  rw [show B1 m ρ c main_v27 = _ from x0_eq m ρ c, show B1 m ρ c main_v28 = _ from w1_eq m ρ c]
  funext i
  obtain ⟨p, q, rfl⟩ : ∃ (p : Fin 50000) (q : Fin 256), i = ix2 p q := ⟨i 0, i 1, eq_ix2 i⟩
  rw [G0_apply, Cert.ReferenceIdeal.Read.val_main_v27_apply]
  refine Finset.sum_congr rfl fun k _ => ?_
  have el : (ix2 p k : S50000x512.Idx) = Cert.ReferenceIdeal.Read.lidx_main_v27 (ix2 p q) k := funext fun a => Fin.ext (by
    match a with
    | ⟨0, _⟩ => rfl
    | ⟨1, _⟩ => rfl)
  have er : (ix2 k q : S512x256.Idx) = Cert.ReferenceIdeal.Read.ridx_main_v27 (ix2 p q) k := funext fun a => Fin.ext (by
    match a with
    | ⟨0, _⟩ => rfl
    | ⟨1, _⟩ => rfl)
  rw [el, er]

/-- It is still there after the host operations that follow. -/
theorem h1_at3 : W3 m ρ c (Proc.devRef .tc main_v29) = Cert.ReferenceIdeal.Read.val_main_v27 (F := Ideal) (m ((c.tc : Thread nD τ).loc main_arg0)) (m ((c.tc : Thread nD τ).loc main_arg2)) :=
  (W3_keep m ρ c main_v29 (by decide)).trans (h1_eq m ρ c)

set_option maxHeartbeats 8000000 in
set_option maxRecDepth 100000 in
/-- The aggregated array: the rows of the product gathered at the edges' sources, scaled by the per-edge factor and
    summed into the edges' destinations — the same operations as the reference's, on equal arrays. -/
theorem agg1_eq : W3 m ρ c (Proc.devRef .tc main_v42) = Cert.ReferenceIdeal.Read.val_main_v40 (F := Ideal) (m ((c.tc : Thread nD τ).loc main_arg0)) (eidx m c) (m ((c.tc : Thread nD τ).loc main_arg2)) := by
  show StableHlo.after hostOps1 (W2 m ρ c) (Proc.devRef .tc main_v42) = _
  after_results_simp
  rw [h1_eq m ρ c, (W2_of_ne m ρ c main_v1 (by decide)).trans (src_eq m ρ c),
    (W2_of_ne m ρ c main_v3 (by decide)).trans (dst_eq m ρ c), (W2_of_ne m ρ c main_v25 (by decide)).trans (nedge_eq m ρ c)]
  rfl

set_option maxHeartbeats 8000000 in
set_option maxRecDepth 100000 in
/-- The per-node factor as a column: its entry (p, 0) is the factor of node p. -/
theorem ns1_at (i : S50000x256.Idx) :
    (W3 m ρ c (Proc.devRef .tc main_v43) : S50000x1.Idx → Ideal .f32) (Cert.ReferenceIdeal.Read.idx_main_v42 i)
      = Cert.ReferenceIdeal.Read.val_main_v26 (F := Ideal) (eidx m c) (Cert.ReferenceIdeal.Read.idx_main_v41 (Cert.ReferenceIdeal.Read.idx_main_v42 i)) := by
  have e : W3 m ρ c (Proc.devRef .tc main_v43) = shapeCast S50000x1 (Cert.ReferenceIdeal.Read.val_main_v26 (F := Ideal) (eidx m c)) shapeCasts_S50000_S50000x1 := by
    show StableHlo.after hostOps1 (W2 m ρ c) (Proc.devRef .tc main_v43) = _
    after_results_simp
    rw [(W2_of_ne m ρ c main_v26 (by decide)).trans (nself_eq m ρ c)]
    rfl
  rw [e]
  generalize Cert.ReferenceIdeal.Read.val_main_v26 (F := Ideal) (eidx m c) = y
  exact shapeCast_apply y shapeCasts_S50000_S50000x1 _ _ (by
    rewrite [Shape.rowMajor_val_two, Shape.rowMajor_val_one]
    show (i 0).val = (i 0).val * 1 + 0
    omega)

set_option maxHeartbeats 8000000 in
set_option maxRecDepth 100000 in
/-- The bias as a row: its entry (0, q) is the bias of column q. -/
theorem b1_at (i : S50000x256.Idx) :
    (W3 m ρ c (Proc.devRef .tc main_v44) : S1x256.Idx → Ideal .f32) (Cert.ReferenceIdeal.Read.idx_main_v46 i)
      = ((m ((c.tc : Thread nD τ).loc main_arg3)) : S256.Idx → Ideal .f32) (Cert.ReferenceIdeal.Read.idx_main_v45 (Cert.ReferenceIdeal.Read.idx_main_v46 i)) := by
  have e : W3 m ρ c (Proc.devRef .tc main_v44) = shapeCast S1x256 (m ((c.tc : Thread nD τ).loc main_arg3)) shapeCasts_S256_S1x256 := by
    show StableHlo.after hostOps1 (W2 m ρ c) (Proc.devRef .tc main_v44) = _
    after_results_simp
    rw [(W2_of_ne m ρ c main_arg3 (by decide))]
    rfl
  rw [e]
  refine shapeCast_apply (s := S256) (t := S1x256) _ shapeCasts_S256_S1x256 _ _ ?_
  show (Shape.rowMajor S256 (Cert.ReferenceIdeal.Read.idx_main_v45 (Cert.ReferenceIdeal.Read.idx_main_v46 i))).val = (Shape.rowMajor S1x256 (Cert.ReferenceIdeal.Read.idx_main_v46 i)).val
  rewrite [Shape.rowMajor_val_two, Shape.rowMajor_val_one]
  show (i 1).val = 0 * 256 + (i 1).val
  omega

set_option maxHeartbeats 4000000 in
/-- The first layer's output is the reference's: at every index max((agg + h · norm_self) + b, 0) of equal arrays. -/
theorem out1_eq : W4 m ρ c (Proc.devRef .tc main_v45)
    = Cert.ReferenceIdeal.Read.val_main_v48 (F := Ideal) (m ((c.tc : Thread nD τ).loc main_arg0)) (eidx m c) (m ((c.tc : Thread nD τ).loc main_arg2)) (m ((c.tc : Thread nD τ).loc main_arg3)) := by
  refine ((W4_arr m ρ c 4).trans (arr1_eq (B3 m ρ) c)).trans ?_
  funext i
  obtain ⟨p, q, rfl⟩ : ∃ (p : Fin 50000) (q : Fin 256), i = ix2 p q := ⟨i 0, i 1, eq_ix2 i⟩
  rw [G1_ix2]
  unfold g1
  rw [Cert.ReferenceIdeal.Read.val_main_v48_apply, Cert.ReferenceIdeal.Read.val_main_v47_apply, Cert.ReferenceIdeal.Read.val_main_v44_apply, Cert.ReferenceIdeal.Read.val_main_v43_apply,
    Cert.ReferenceIdeal.Read.val_main_v46_apply, Cert.ReferenceIdeal.Read.val_main_v45_apply, Cert.ReferenceIdeal.Read.val_main_v42_apply, Cert.ReferenceIdeal.Read.val_main_v41_apply,
    Cert.ReferenceIdeal.Read.val_main_call0_v0_apply, Cert.ReferenceIdeal.Read.val_main_call0_cst_apply]
  rw [← ns1_at m ρ c (ix2 p q), ← b1_at m ρ c (ix2 p q), ← agg1_eq m ρ c, ← h1_at3 m ρ c]
  rfl

end Cert.KernelIdeal.Val

end
-- ==== Proof.KI.Val2.lean ====
/-
  Region 2: the array its output window leaves, index by index, over the extended reals.
-/
import proofs.«130624_j18597208392405_1_alg».proof.Proof.KI.Region2
import proofs.«130624_j18597208392405_1_alg».proof.Proof.LibPlainDot
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The matrix product's dimension numbers are the plain ones. -/
theorem dot2_eq : dot_S2000x256_S256x256_S2000x256_1_0_0_1_n_n
    = Cert.Lib.plainDot 2000 256 256 dot_S2000x256_S256x256_S2000x256_1_0_0_1_n_n_wf := rfl

/-- The body's value at (p, q): row p of the left block times column q of the right block. -/
theorem pay2_apply (x0 : Vec Ideal S2000x256 .bf16) (x1 : Vec Ideal S256x256 .bf16) (p : Fin 2000) (q : Fin 256) :
    k2_pay1 x0 x1 (ix2 p q) = ∑ k : Fin 256, (x0 : S2000x256.Idx → EReal) (ix2 p k) * (x1 : S256x256.Idx → EReal) (ix2 k q) := by
  unfold k2_pay1
  simp only [shapeCast_self]
  rw [dot2_eq]
  exact Cert.Lib.matmul_zero_apply _ none x0 x1 p q

/-- The product of the two arrays, index by index. -/
def G2 (a0 : S50000x256.Idx → EReal) (a1 : S256x256.Idx → EReal) : S50000x256.Idx → EReal :=
  fun i => ∑ k : Fin 256, a0 (ix2 (⟨(i 0).val, (i 0).isLt⟩ : Fin 50000) k) * a1 (ix2 k (⟨(i 1).val, (i 1).isLt⟩ : Fin 256))

theorem G2_apply (a0 : S50000x256.Idx → EReal) (a1 : S256x256.Idx → EReal) (P : Fin 50000) (q : Fin 256) :
    G2 a0 a1 (ix2 P q) = ∑ k : Fin 256, a0 (ix2 P k) * a1 (ix2 k q) := rfl

/-- The index maps over the grid: the output's and the left operand's blocks are the point's row block, the right operand's is the whole matrix. -/
theorem idx2 : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- A point's stored value at an index of its block is the product at the array index the block's index sits at, when the
    left block holds the point's rows of the left array and the right block the right array. -/
theorem point2 (a0 : S50000x256.Idx → EReal) (a1 : S256x256.Idx → EReal)
    (x0 : Vec Ideal S2000x256 .bf16) (x1 : Vec Ideal S256x256 .bf16) (n : Nat)
    (h0 : ∀ (y : S2000x256.Idx) (i : S50000x256.Idx), (i 0).val = n * 2000 + (y 0).val → (i 1).val = (y 1).val → x0 y = a0 i)
    (h1 : ∀ y : S256x256.Idx, x1 y = a1 y)
    (y : S2000x256.Idx) (i : S50000x256.Idx) (hi0 : (i 0).val = n * 2000 + (y 0).val) (hi1 : (i 1).val = (y 1).val) :
    k2_pay1 x0 x1 y = G2 a0 a1 i := by
  obtain ⟨p, q, rfl⟩ : ∃ (p : Fin 2000) (q : Fin 256), y = ix2 p q := ⟨y 0, y 1, eq_ix2 y⟩
  obtain ⟨P, Q, rfl⟩ : ∃ (P : Fin 50000) (Q : Fin 256), i = ix2 P Q := ⟨i 0, i 1, eq_ix2 i⟩
  obtain rfl : Q = q := Fin.ext hi1
  rw [pay2_apply, G2_apply]
  refine Finset.sum_congr rfl fun k _ => ?_
  rw [h0 (ix2 p k) (ix2 P k) hi0 rfl, h1]

/-- The left operand's block at a point is the point's 2000 rows of the left array. -/
theorem blk2_0 (c : Dev nD) (t : Fin cfg2.N) (y : S2000x256.Idx) (i : S50000x256.Idx)
    (hi0 : (i 0).val = t.val * 2000 + (y 0).val) (hi1 : (i 1).val = (y 1).val) :
    (iblk2 V c 0 t : S2000x256.Idx → EReal) y = (V c main_v46 : S50000x256.Idx → EReal) i := by
  obtain ⟨e0, e1, e2, e3, e4, e5⟩ := idx2 t
  unfold iblk2
  rw [View.read_apply]
  show V c main_v46 _ = V c main_v46 _
  refine congrArg _ (funext fun a => Fin.ext ?_)
  match a with
  | ⟨0, _⟩ => show win2_0.index t (0 : Fin 2) * 2000 + 1 * (y 0).val = (i 0).val; rw [e2, hi0]; omega
  | ⟨1, _⟩ => show win2_0.index t (1 : Fin 2) * 256 + 1 * (y 1).val = (i 1).val; rw [e3, hi1]; omega

/-- The right operand's block at every point is the whole right array. -/
theorem blk2_1 (c : Dev nD) (t : Fin cfg2.N) (y : S256x256.Idx) :
    (iblk2 V c 1 t : S256x256.Idx → EReal) y = (V c main_v47 : S256x256.Idx → EReal) y := by
  obtain ⟨e0, e1, e2, e3, e4, e5⟩ := idx2 t
  unfold iblk2
  rw [View.read_apply]
  show V c main_v47 _ = V c main_v47 _
  refine congrArg _ (funext fun a => Fin.ext ?_)
  match a with
  | ⟨0, _⟩ => show win2_1.index t (0 : Fin 2) * 256 + 1 * (y 0).val = (y 0).val; rw [e4]; omega
  | ⟨1, _⟩ => show win2_1.index t (1 : Fin 2) * 256 + 1 * (y 1).val = (y 1).val; rw [e5]; omega

/-- What a point writes back is its block of the product of the two arrays as the region finds them. -/
theorem flushed2_eq (c : Dev nD) (t : Fin cfg2.N) :
    (dat2 V c).flushed 2 t = ((cfg2.win 2).blk t).view.read (Elt Ideal) (G2 (V c main_v46) (V c main_v47)) := by
  show (cfg2.win 2).cut (grid2.coords t) ((dat2 V c).after 2 t) = _
  rw [after2_2]
  unfold out2_2
  rw [View.canon_unit_zero hz2]
  simp only [View.ld_unit_zero (S := S2000x256) hz2, View.ld_unit_zero (S := S256x256) hz2]
  obtain ⟨e0, e1, e2, e3, e4, e5⟩ := idx2 t
  funext j
  show k2_pay1 (iblk2 V c 0 t) (iblk2 V c 1 t) ((cfg2.win 2).xinj (grid2.coords t) j)
    = G2 (V c main_v46) (V c main_v47) (((cfg2.win 2).blk t).view.emb j)
  refine point2 (V c main_v46) (V c main_v47) (iblk2 V c 0 t) (iblk2 V c 1 t) t.val (blk2_0 V c t) (blk2_1 V c t) _ _ ?_ ?_
  · show win2_2.index t (0 : Fin 2) * 2000 + 1 * (j 0).val = t.val * 2000 + (j 0).val; rw [e0]; omega
  · show win2_2.index t (1 : Fin 2) * 256 + 1 * (j 1).val = (j 1).val; rw [e1]; omega

/-- An index of the array is in a point's block iff each coordinate is in the block's range on its axis. -/
theorem mem_blk2 (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v48).slice (win2_2.rect t)).set ↔ _
  rw [View.set_slice_whole, Rect.mem_set_unit]
  exact Iff.rfl

/-- Every index of the array is in the block of the point numbered by its row divided by 2000. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have ht : (i 0).val / 2000 < cfg2.N := by show _ < grid2.N; rw [N_2]; omega
  obtain ⟨e0, e1, -⟩ := idx2 ⟨(i 0).val / 2000, ht⟩
  refine ⟨⟨(i 0).val / 2000, ht⟩, flush2_2 _, ?_⟩
  rw [mem_blk2]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_2.index ⟨(i 0).val / 2000, ht⟩ (1 : Fin 2) * 256 ≤ (i 1).val ∧ (i 1).val < win2_2.index ⟨(i 0).val / 2000, ht⟩ (1 : Fin 2) * 256 + 256
    rw [e1]; omega

/-- The output array after the region is the product of the two input arrays as the region finds them. -/
theorem arr2 (c : Dev nD) : (dat2 V c).arrAt 2 cfg2.N = G2 (V c main_v46) (V c main_v47) :=
  (dat2 V c).arrAt_eq_of_cover 2 (G2 (V c main_v46) (V c main_v47)) (fun t _ => flushed2_eq V c t) cover2

/-- The output array after the region, at (p, q): row p of the first array times column q of the second, the two arrays
    named as functions of their indices. -/
theorem final2 (c : Dev nD) (a0 : S50000x256.Idx → EReal) (a1 : S256x256.Idx → EReal)
    (h0 : V c main_v46 = a0) (h1 : V c main_v47 = a1) (p : Fin 50000) (q : Fin 256) :
    @Eq EReal ((dat2 (F := Ideal) V c).arrAt 2 cfg2.N (ix2 p q)) (∑ k : Fin 256, a0 (ix2 p k) * a1 (ix2 k q)) := by
  subst h0; subst h1
  exact (congrFun (arr2 V c) (ix2 p q)).trans (G2_apply _ _ p q)

end Cert.KernelIdeal.Val

end
-- ==== Proof.KI.Val3.lean ====
/-
  Region 3 of the program, read index by index at the ideal float instance: the combine step's output array after the
  region's run is, at every row p and column q, max(agg[p,q] + h[p,q] * norm[p,0] + bias[0,q], 0) of the arrays the
  region finds. First a column broadcast read at an index, then the body's value at an index of its block, the printed
  index maps over the grid, what each grid point writes back as a block of one whole-array function, the cover of the
  output array by the row blocks, and the array after the run.
-/
import proofs.«130624_j18597208392405_1_alg».proof.Proof.KI.Region3
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz3 : (![0, 0] : Fin 2 → Nat) = fun _ => 0 := funext fun a => by fin_cases a <;> rfl

/-- A column `[a, 1]` broadcast to `[a, b]` reads, at `(p, c)`, the operand's row `p` at its one column. -/
theorem broadcastTo_a1_ab_apply3 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at row `p`, column `q` of its block: the four loaded blocks at that row and column, the column block
    at the row, the row block at the column. -/
theorem pay3_apply (x0 x1 : Vec Ideal S2000x256 .f32) (x2 : Vec Ideal S2000x1 .f32) (x3 : Vec Ideal S1x256 .f32) (p : Fin 2000) (q : Fin 256) :
    k3_pay1 x0 x1 x2 x3 (ix2 p q)
      = FloatOps.maximumf (F := Ideal) (φ := .f32) (FloatOps.addf (FloatOps.addf (x0 (ix2 p q)) (FloatOps.mulf (x1 (ix2 p q)) (x2 (ix2 p (0 : Fin 1))))) (x3 (ix2 (0 : Fin 1) q))) (Scalar.ofBits (F := Ideal) .f32 0x00000000#32) := by
  unfold k3_pay1
  simp only [shapeCast_self]
  have e2 := broadcastTo_a1_ab_apply3 x2 broadcasts_S2000x1_S2000x256 p q
  have e3 := broadcastTo_1b_ab_apply x3 broadcasts_S1x256_S2000x256 p q
  show FloatOps.maximumf (FloatOps.addf (FloatOps.addf _ (FloatOps.mulf _ _)) _) _ = _
  rw [e2, e3]
  rfl

/-- The output array as one function of the four input arrays: at row `p`, column `q`. -/
def g3 (a0 a1 : S50000x256.Idx → Ideal .f32) (a2 : S50000x1.Idx → Ideal .f32) (a3 : S1x256.Idx → Ideal .f32) (p : Fin 50000) (q : Fin 256) : Ideal .f32 :=
  FloatOps.maximumf (F := Ideal) (φ := .f32) (FloatOps.addf (FloatOps.addf (a0 (ix2 p q)) (FloatOps.mulf (a1 (ix2 p q)) (a2 (ix2 p (0 : Fin 1))))) (a3 (ix2 (0 : Fin 1) q))) (Scalar.ofBits (F := Ideal) .f32 0x00000000#32)

/-- The same function of an index. -/
def G3 (a0 a1 : S50000x256.Idx → Ideal .f32) (a2 : S50000x1.Idx → Ideal .f32) (a3 : S1x256.Idx → Ideal .f32) : S50000x256.Idx → Ideal .f32 :=
  fun i => g3 a0 a1 a2 a3 ⟨(i 0).val, idx2_lt0 i⟩ ⟨(i 1).val, idx2_lt1 i⟩

theorem G3_ix2 (a0 a1 : S50000x256.Idx → Ideal .f32) (a2 : S50000x1.Idx → Ideal .f32) (a3 : S1x256.Idx → Ideal .f32) (p : Fin 50000) (q : Fin 256) :
    G3 a0 a1 a2 a3 (ix2 p q) = g3 a0 a1 a2 a3 p q := rfl

/-- The printed index maps, decided over the grid: at point `t` the row-blocked windows are at block `(t, 0)`, the
    row vector at `(0, 0)`. -/
theorem idx_facts3 : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Window 0's block at point `t` is rows `2000 t … 2000 t + 1999` of its array. -/
theorem iblk3_0_apply (c : Dev nD) (t : Fin cfg3.N) (p : Fin 2000) (q : Fin 256) (P : Fin 50000) (hP : P.val = t.val * 2000 + p.val) :
    (iblk3 V c 0 t : Vec Ideal S2000x256 .f32) (ix2 p q) = (V c main_v61 : S50000x256.Idx → Ideal .f32) (ix2 P q) := by
  obtain ⟨e0, e1, -⟩ := idx_facts3 t
  unfold iblk3
  rw [View.read_apply]
  show V c main_v61 _ = V c main_v61 _
  refine congrArg _ (funext fun a => Fin.ext ?_)
  match a with
  | ⟨0, _⟩ => show win3_0.index t (0 : Fin 2) * 2000 + 1 * p.val = P.val; rw [e0, hP]; omega
  | ⟨1, _⟩ => show win3_0.index t (1 : Fin 2) * 256 + 1 * q.val = q.val; rw [e1]; omega

/-- Window 1's block at point `t` is the same rows of its array. -/
theorem iblk3_1_apply (c : Dev nD) (t : Fin cfg3.N) (p : Fin 2000) (q : Fin 256) (P : Fin 50000) (hP : P.val = t.val * 2000 + p.val) :
    (iblk3 V c 1 t : Vec Ideal S2000x256 .f32) (ix2 p q) = (V c main_v48 : S50000x256.Idx → Ideal .f32) (ix2 P q) := by
  obtain ⟨-, -, e0, e1, -⟩ := idx_facts3 t
  unfold iblk3
  rw [View.read_apply]
  show V c main_v48 _ = V c main_v48 _
  refine congrArg _ (funext fun a => Fin.ext ?_)
  match a with
  | ⟨0, _⟩ => show win3_1.index t (0 : Fin 2) * 2000 + 1 * p.val = P.val; rw [e0, hP]; omega
  | ⟨1, _⟩ => show win3_1.index t (1 : Fin 2) * 256 + 1 * q.val = q.val; rw [e1]; omega

/-- Window 2's block at point `t` is the same rows of the one-column array. -/
theorem iblk3_2_apply (c : Dev nD) (t : Fin cfg3.N) (p : Fin 2000) (P : Fin 50000) (hP : P.val = t.val * 2000 + p.val) :
    (iblk3 V c 2 t : Vec Ideal S2000x1 .f32) (ix2 p (0 : Fin 1)) = (V c main_v62 : S50000x1.Idx → Ideal .f32) (ix2 P (0 : Fin 1)) := by
  obtain ⟨-, -, -, -, e0, e1, -⟩ := idx_facts3 t
  unfold iblk3
  rw [View.read_apply]
  show V c main_v62 _ = V c main_v62 _
  refine congrArg _ (funext fun a => Fin.ext ?_)
  match a with
  | ⟨0, _⟩ => show win3_2.index t (0 : Fin 2) * 2000 + 1 * p.val = P.val; rw [e0, hP]; omega
  | ⟨1, _⟩ => show win3_2.index t (1 : Fin 2) * 1 + 1 * 0 = 0; rw [e1]

/-- Window 3's block at every point is its whole one-row array. -/
theorem iblk3_3_apply (c : Dev nD) (t : Fin cfg3.N) (q : Fin 256) :
    (iblk3 V c 3 t : Vec Ideal S1x256 .f32) (ix2 (0 : Fin 1) q) = (V c main_v63 : S1x256.Idx → Ideal .f32) (ix2 (0 : Fin 1) q) := by
  obtain ⟨-, -, -, -, -, -, e0, e1, -⟩ := idx_facts3 t
  unfold iblk3
  rw [View.read_apply]
  show V c main_v63 _ = V c main_v63 _
  refine congrArg _ (funext fun a => Fin.ext ?_)
  match a with
  | ⟨0, _⟩ => show win3_3.index t (0 : Fin 2) * 1 + 1 * 0 = 0; rw [e0]
  | ⟨1, _⟩ => show win3_3.index t (1 : Fin 2) * 256 + 1 * q.val = q.val; rw [e1]; omega

/-- The body's value at the blocks of point `t`, at row `p`, column `q` of the block, is the whole-array function at row
    `2000 t + p`, column `q`. -/
theorem point3 (c : Dev nD) (t : Fin cfg3.N) (p : Fin 2000) (q : Fin 256) (P : Fin 50000) (hP : P.val = t.val * 2000 + p.val) :
    k3_pay1 (iblk3 V c 0 t) (iblk3 V c 1 t) (iblk3 V c 2 t) (iblk3 V c 3 t) (ix2 p q)
      = g3 (V c main_v61) (V c main_v48) (V c main_v62) (V c main_v63) P q := by
  refine (pay3_apply (iblk3 V c 0 t) (iblk3 V c 1 t) (iblk3 V c 2 t) (iblk3 V c 3 t) p q).trans ?_
  rw [iblk3_0_apply V c t p q P hP, iblk3_1_apply V c t p q P hP, iblk3_2_apply V c t p P hP, iblk3_3_apply V c t q]
  rfl

/-- What point `t` writes back is block `t` of the whole-array function of the arrays as the region finds them. -/
theorem flushed3_eq (c : Dev nD) (t : Fin cfg3.N) :
    (dat3 (F := Ideal) V c).flushed 4 t
      = ((cfg3.win 4).blk t).view.read (Elt Ideal) (G3 (V c main_v61) (V c main_v48) (V c main_v62) (V c main_v63)) := by
  show (cfg3.win 4).cut (grid3.coords t) ((dat3 V c).after 4 t) = _
  rw [after3_4]
  unfold out3_4
  rw [View.canon_unit_zero hz3]
  simp only [View.ld_unit_zero (S := S2000x256) hz3, View.ld_unit_zero (S := S2000x1) hz3, View.ld_unit_zero (S := S1x256) hz3]
  obtain ⟨-, -, -, -, -, -, -, -, e0, e1⟩ := idx_facts3 t
  have hN : t.val < 25 := Nat.lt_of_lt_of_eq t.isLt N_3
  funext j
  obtain ⟨p, q, rfl⟩ : ∃ (p : Fin 2000) (q : Fin 256), j = ix2 p q := ⟨j 0, j 1, eq_ix2 j⟩
  have hp : p.val < 2000 := p.isLt
  have hx : (cfg3.win 4).xinj (grid3.coords t) (ix2 p q) = ix2 p q :=
    funext fun a => by match a with | ⟨0, _⟩ => rfl | ⟨1, _⟩ => rfl
  have he : ((cfg3.win 4).blk t).view.emb (ix2 p q) = ix2 (⟨t.val * 2000 + p.val, by omega⟩ : Fin 50000) q := by
    funext a; apply Fin.ext
    match a with
    | ⟨0, _⟩ => show win3_4.index t (0 : Fin 2) * 2000 + 1 * p.val = t.val * 2000 + p.val; rw [e0]; omega
    | ⟨1, _⟩ => show win3_4.index t (1 : Fin 2) * 256 + 1 * q.val = q.val; rw [e1]; omega
  show k3_pay1 (iblk3 V c 0 t) (iblk3 V c 1 t) (iblk3 V c 2 t) (iblk3 V c 3 t) ((cfg3.win 4).xinj (grid3.coords t) (ix2 p q))
      = G3 (V c main_v61) (V c main_v48) (V c main_v62) (V c main_v63) (((cfg3.win 4).blk t).view.emb (ix2 p q))
  rw [hx, he, G3_ix2]
  exact point3 V c t p q _ rfl

/-- Every row of the output array is in the block of the point its row block names, and every point writes back. -/
theorem cover3 (c : Dev nD) (i : ((cfg3.win 4).arr.view.loc ((c : Dev nD).tc : Thread nD τ)).2.ty.Idx) :
    ∃ t : Fin cfg3.N, (cfg3.win 4).flush t = true ∧ i ∈ ((cfg3.win 4).blk t).view.set := by
  have h0 : (i 0).val < 50000 := (i 0).isLt
  have h1 : (i 1).val < 256 := (i 1).isLt
  have hN : cfg3.N = 25 := N_3
  let t : Fin cfg3.N := ⟨(i 0).val / 2000, by rw [hN]; omega⟩
  obtain ⟨-, -, -, -, -, -, -, -, e0, e1⟩ := idx_facts3 t
  have ht : t.val = (i 0).val / 2000 := rfl
  refine ⟨t, flush3_4 t, ?_⟩
  show i ∈ ((View.whole main_v64).slice (win3_4.rect t)).set
  rw [View.set_slice_whole, Rect.mem_set_unit]
  intro a
  match a with
  | ⟨0, _⟩ =>
    show win3_4.index t (0 : Fin 2) * 2000 ≤ (i 0).val ∧ (i 0).val < win3_4.index t (0 : Fin 2) * 2000 + 2000
    rw [e0, ht]; omega
  | ⟨1, _⟩ =>
    show win3_4.index t (1 : Fin 2) * 256 ≤ (i 1).val ∧ (i 1).val < win3_4.index t (1 : Fin 2) * 256 + 256
    rw [e1]; omega

/-- The output array after the region's run is the whole-array function of the arrays as the region finds them. -/
theorem arr3_eq (c : Dev nD) :
    (dat3 (F := Ideal) V c).arrAt 4 cfg3.N = G3 (V c main_v61) (V c main_v48) (V c main_v62) (V c main_v63) :=
  (dat3 (F := Ideal) V c).arrAt_eq_of_cover 4 (G3 (V c main_v61) (V c main_v48) (V c main_v62) (V c main_v63))
    (fun t _ => flushed3_eq V c t) (cover3 c)

/-- The output array after the region's run, at row `p`, column `q`. -/
theorem final3 (c : Dev nD) (p : Fin 50000) (q : Fin 256) :
    ((dat3 (F := Ideal) V c).arrAt 4 cfg3.N : S50000x256.Idx → Ideal .f32) (ix2 p q)
      = FloatOps.maximumf (F := Ideal) (φ := .f32) (FloatOps.addf (FloatOps.addf ((V c main_v61 : S50000x256.Idx → Ideal .f32) (ix2 p q)) (FloatOps.mulf ((V c main_v48 : S50000x256.Idx → Ideal .f32) (ix2 p q)) ((V c main_v62 : S50000x1.Idx → Ideal .f32) (ix2 p (0 : Fin 1))))) ((V c main_v63 : S1x256.Idx → Ideal .f32) (ix2 (0 : Fin 1) q))) (Scalar.ofBits (F := Ideal) .f32 0x00000000#32) := by
  rw [arr3_eq V c]
  rfl

end Cert.KernelIdeal.Val

end
-- ==== Proof.KI.Layer2.lean ====
/-
  The second layer of the value chain: given that the first layer's output is the reference's, the second layer's is.
  The two casts before the matrix product are the identity on extended reals; the matrix product's output is the
  reference's dot product, sum for sum; the host stretch that follows gathers, scales and adds up the same rows at the
  same indices; the combine step's column and row operands read the same elements the reference's broadcasts read; and
  the combine step's value at every index is the reference's tree of operations on those.
-/
import proofs.«130624_j18597208392405_1_alg».proof.Proof.KI.Run
import proofs.«130624_j18597208392405_1_alg».proof.Proof.KI.Host0
import proofs.«130624_j18597208392405_1_alg».proof.Proof.KI.Val2
import proofs.«130624_j18597208392405_1_alg».proof.Proof.KI.Val3
import proofs.«130624_j18597208392405_1_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

set_option quotPrecheck false in
local notation "𝔞0" => m ((c.tc : Thread nD τ).loc main_arg0)
set_option quotPrecheck false in
local notation "𝔞2" => m ((c.tc : Thread nD τ).loc main_arg2)
set_option quotPrecheck false in
local notation "𝔞3" => m ((c.tc : Thread nD τ).loc main_arg3)
set_option quotPrecheck false in
local notation "𝔞4" => m ((c.tc : Thread nD τ).loc main_arg4)
set_option quotPrecheck false in
local notation "𝔞5" => m ((c.tc : Thread nD τ).loc main_arg5)
set_option quotPrecheck false in
local notation "𝔞6" => m ((c.tc : Thread nD τ).loc main_arg6)
set_option quotPrecheck false in
local notation "𝔞7" => m ((c.tc : Thread nD τ).loc main_arg7)

/-! ## What earlier stretches left, carried to where this layer reads it -/

/-- A reference that nothing between the first host stretch and the second matrix product's exit writes holds there what the first host stretch left. -/
theorem l2_carry (r : Ref sig .tc) (h1 : ∀ w, Pipeline.arrRef spec0 w ≠ r) (h2 : r ∉ hostOps1_W) (h3 : ∀ w, Pipeline.arrRef spec1 w ≠ r)
    (h4 : r ∉ hostOps2_W) (h5 : ∀ w, Pipeline.arrRef spec2 w ≠ r) :
    W6 m ρ c (Proc.devRef .tc r) = W1 m ρ c (Proc.devRef .tc r) :=
  (W6_of_ne m ρ c r h5).trans <| (W5_keep m ρ c r h4).trans <| (W4_of_ne m ρ c r h3).trans <| (W3_keep m ρ c r h2).trans <| W2_of_ne m ρ c r h1

/-- The source indices, where the second aggregation reads them. -/
theorem l2_src : W6 m ρ c (Proc.devRef .tc main_v1) = Cert.ReferenceIdeal.Read.val_main_v1 (F := Ideal) (eidx m c) :=
  (l2_carry m ρ c main_v1 (by decide) (by decide) (by decide) (by decide) (by decide)).trans (src_eq m ρ c)
/-- The destination indices. -/
theorem l2_dst : W6 m ρ c (Proc.devRef .tc main_v3) = Cert.ReferenceIdeal.Read.val_main_v3 (F := Ideal) (eidx m c) :=
  (l2_carry m ρ c main_v3 (by decide) (by decide) (by decide) (by decide) (by decide)).trans (dst_eq m ρ c)
/-- The per-edge factor. -/
theorem l2_nedge : W6 m ρ c (Proc.devRef .tc main_v25) = Cert.ReferenceIdeal.Read.val_main_v25 (F := Ideal) (eidx m c) :=
  (l2_carry m ρ c main_v25 (by decide) (by decide) (by decide) (by decide) (by decide)).trans (nedge_eq m ρ c)
/-- The per-node factor. -/
theorem l2_nself : W6 m ρ c (Proc.devRef .tc main_v26) = Cert.ReferenceIdeal.Read.val_main_v26 (F := Ideal) (eidx m c) :=
  (l2_carry m ρ c main_v26 (by decide) (by decide) (by decide) (by decide) (by decide)).trans (nself_eq m ρ c)
/-- The layer's bias, an argument nothing writes. -/
theorem l2_bias : W6 m ρ c (Proc.devRef .tc main_arg5) = 𝔞5 :=
  (l2_carry m ρ c main_arg5 (by decide) (by decide) (by decide) (by decide) (by decide)).trans (W1_keep m ρ c main_arg5 (by decide))
/-- The layer's weights, an argument nothing writes. -/
theorem l2_w : W4 m ρ c (Proc.devRef .tc main_arg4) = 𝔞4 :=
  (W4_of_ne m ρ c main_arg4 (by decide)).trans <| (W3_keep m ρ c main_arg4 (by decide)).trans <| (W2_of_ne m ρ c main_arg4 (by decide)).trans <| W1_keep m ρ c main_arg4 (by decide)

/-! ## The matrix product's two inputs: the casts are the identity on extended reals -/

set_option maxHeartbeats 8000000 in
set_option maxRecDepth 100000 in
/-- The layer's input, cast. -/
theorem l2_in (hX : W4 m ρ c (Proc.devRef .tc main_v45) = Cert.ReferenceIdeal.Read.val_main_v48 (F := Ideal) 𝔞0 (eidx m c) 𝔞2 𝔞3) :
    W5 m ρ c (Proc.devRef .tc main_v46) = Cert.ReferenceIdeal.Read.val_main_v48 (F := Ideal) 𝔞0 (eidx m c) 𝔞2 𝔞3 := by
  show StableHlo.after hostOps2 (W4 m ρ c) (Proc.devRef .tc main_v46) = _
  after_results_simp
  exact hX

set_option maxHeartbeats 8000000 in
set_option maxRecDepth 100000 in
/-- The layer's weights, cast. -/
theorem l2_win : W5 m ρ c (Proc.devRef .tc main_v47) = 𝔞4 := by
  show StableHlo.after hostOps2 (W4 m ρ c) (Proc.devRef .tc main_v47) = _
  after_results_simp
  exact l2_w m ρ c

/-! ## The matrix product -/

/-- The second matrix product's output is the reference's. -/
theorem l2_mm (hX : W4 m ρ c (Proc.devRef .tc main_v45) = Cert.ReferenceIdeal.Read.val_main_v48 (F := Ideal) 𝔞0 (eidx m c) 𝔞2 𝔞3) :
    W6 m ρ c (Proc.devRef .tc main_v48) = Cert.ReferenceIdeal.Read.val_main_v49 (F := Ideal) 𝔞0 (eidx m c) 𝔞2 𝔞3 𝔞4 := by
  refine ((W6_arr m ρ c 2).trans (arr2 (B5 m ρ) c)).trans ?_
  show G2 (W5 m ρ c (Proc.devRef .tc main_v46)) (W5 m ρ c (Proc.devRef .tc main_v47)) = _
  rw [l2_in m ρ c hX, l2_win m ρ c]
  funext i
  obtain ⟨p, q, rfl⟩ : ∃ (p : Fin 50000) (q : Fin 256), i = ix2 p q := ⟨i 0, i 1, eq_ix2 i⟩
  rw [G2_apply, Cert.ReferenceIdeal.Read.val_main_v49_apply]
  refine Finset.sum_congr rfl fun k _ => ?_
  have el : Cert.ReferenceIdeal.Read.lidx_main_v49 (ix2 p q) k = ix2 p k := funext fun a => Fin.ext (by
    match a with
    | ⟨0, _⟩ => rfl
    | ⟨1, _⟩ => rfl)
  have er : Cert.ReferenceIdeal.Read.ridx_main_v49 (ix2 p q) k = ix2 k q := funext fun a => Fin.ext (by
    match a with
    | ⟨0, _⟩ => rfl
    | ⟨1, _⟩ => rfl)
  rw [el, er]

/-! ## The host stretch between the matrix product and the combine step -/

set_option maxHeartbeats 8000000 in
set_option maxRecDepth 100000 in
/-- The aggregated array: the product's rows gathered along the edges, scaled, and added up at the destinations. -/
theorem l2_agg (hX : W4 m ρ c (Proc.devRef .tc main_v45) = Cert.ReferenceIdeal.Read.val_main_v48 (F := Ideal) 𝔞0 (eidx m c) 𝔞2 𝔞3) :
    W7 m ρ c (Proc.devRef .tc main_v61) = Cert.ReferenceIdeal.Read.val_main_v62 (F := Ideal) 𝔞0 (eidx m c) 𝔞2 𝔞3 𝔞4 := by
  show StableHlo.after hostOps3 (W6 m ρ c) (Proc.devRef .tc main_v61) = _
  after_results_simp
  rw [l2_mm m ρ c hX, l2_src m ρ c, l2_dst m ρ c, l2_nedge m ρ c]
  rfl

/-- The matrix product's output, which the stretch does not write, where the combine step reads it. -/
theorem l2_mm' (hX : W4 m ρ c (Proc.devRef .tc main_v45) = Cert.ReferenceIdeal.Read.val_main_v48 (F := Ideal) 𝔞0 (eidx m c) 𝔞2 𝔞3) :
    W7 m ρ c (Proc.devRef .tc main_v48) = Cert.ReferenceIdeal.Read.val_main_v49 (F := Ideal) 𝔞0 (eidx m c) 𝔞2 𝔞3 𝔞4 :=
  (W7_keep m ρ c main_v48 (by decide)).trans (l2_mm m ρ c hX)

set_option maxHeartbeats 8000000 in
set_option maxRecDepth 100000 in
/-- The per-node factor as a column, at row p: the reference's broadcast of it reads the same element. -/
theorem l2_col (p : Fin 50000) (q : Fin 256) :
    (W7 m ρ c (Proc.devRef .tc main_v62) : S50000x1.Idx → EReal) (ix2 p (0 : Fin 1))
      = Cert.ReferenceIdeal.Read.val_main_v26 (F := Ideal) (eidx m c) (Cert.ReferenceIdeal.Read.idx_main_v63 (Cert.ReferenceIdeal.Read.idx_main_v64 (ix2 p q))) := by
  show StableHlo.after hostOps3 (W6 m ρ c) (Proc.devRef .tc main_v62) (ix2 p (0 : Fin 1)) = _
  after_results_simp
  rw [l2_nself m ρ c]
  refine (shapeCast_apply _ _ (ix2 p (0 : Fin 1)) (ix1 p) ?_).trans (congrArg _ (funext fun a => ?_))
  · show ((⟨1, ![50000]⟩ : Shape).rowMajor (ix1 p)).val = ((⟨2, ![50000, 1]⟩ : Shape).rowMajor (ix2 p (0 : Fin 1))).val
    rw [Shape.rowMajor_val_two, Shape.rowMajor_val_one]
    show p.val = p.val * 1 + 0
    omega
  · match a with
    | ⟨0, _⟩ => rfl

set_option maxHeartbeats 8000000 in
set_option maxRecDepth 100000 in
/-- The bias as a row, at column q: the reference's broadcast of it reads the same element. -/
theorem l2_row (p : Fin 50000) (q : Fin 256) :
    (W7 m ρ c (Proc.devRef .tc main_v63) : S1x256.Idx → EReal) (ix2 (0 : Fin 1) q)
      = (𝔞5 : S256.Idx → EReal) (Cert.ReferenceIdeal.Read.idx_main_v67 (Cert.ReferenceIdeal.Read.idx_main_v68 (ix2 p q))) := by
  show StableHlo.after hostOps3 (W6 m ρ c) (Proc.devRef .tc main_v63) (ix2 (0 : Fin 1) q) = _
  after_results_simp
  rw [l2_bias m ρ c]
  refine (shapeCast_a_1a_apply _ _ (0 : Fin 1) q).trans (congrArg _ (funext fun a => ?_))
  match a with
  | ⟨0, _⟩ => rfl

/-! ## The layer -/

/-- The second layer's output is the reference's, given that the first layer's is. -/
theorem layer2 (hX : W4 m ρ c (Proc.devRef .tc main_v45) = Cert.ReferenceIdeal.Read.val_main_v48 (F := Ideal) 𝔞0 (eidx m c) 𝔞2 𝔞3) :
    W8 m ρ c (Proc.devRef .tc main_v64) = Cert.ReferenceIdeal.Read.val_main_v70 (F := Ideal) 𝔞0 (eidx m c) 𝔞2 𝔞3 𝔞4 𝔞5 := by
  refine ((W8_arr m ρ c 4).trans (arr3_eq (B7 m ρ) c)).trans ?_
  show G3 (W7 m ρ c (Proc.devRef .tc main_v61)) (W7 m ρ c (Proc.devRef .tc main_v48)) (W7 m ρ c (Proc.devRef .tc main_v62)) (W7 m ρ c (Proc.devRef .tc main_v63)) = _
  rw [l2_agg m ρ c hX, l2_mm' m ρ c hX]
  funext i
  obtain ⟨p, q, rfl⟩ : ∃ (p : Fin 50000) (q : Fin 256), i = ix2 p q := ⟨i 0, i 1, eq_ix2 i⟩
  rw [G3_ix2]
  unfold g3
  rw [l2_col m ρ c p q, l2_row m ρ c p q]
  rw [Cert.ReferenceIdeal.Read.val_main_v70_apply, Cert.ReferenceIdeal.Read.val_main_v69_apply, Cert.ReferenceIdeal.Read.val_main_v66_apply, Cert.ReferenceIdeal.Read.val_main_v65_apply, Cert.ReferenceIdeal.Read.val_main_v64_apply,
    Cert.ReferenceIdeal.Read.val_main_v63_apply, Cert.ReferenceIdeal.Read.val_main_v68_apply, Cert.ReferenceIdeal.Read.val_main_v67_apply, Cert.ReferenceIdeal.Read.val_main_call1_v0_apply, Cert.ReferenceIdeal.Read.val_main_call1_cst_apply]

end Cert.KernelIdeal.Val

end
-- ==== Proof.KI.Val4.lean ====
/-
  Region 4: the array its output window leaves, index by index, over the extended reals.
-/
import proofs.«130624_j18597208392405_1_alg».proof.Proof.KI.Region4
import proofs.«130624_j18597208392405_1_alg».proof.Proof.LibPlainDot
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The matrix product's dimension numbers are the plain ones. -/
theorem dot4_eq : dot_S2000x256_S256x128_S2000x128_1_0_0_1_n_n
    = Cert.Lib.plainDot 2000 256 128 dot_S2000x256_S256x128_S2000x128_1_0_0_1_n_n_wf := rfl

/-- The body's value at (p, q): row p of the left block times column q of the right block. -/
theorem pay4_apply (x0 : Vec Ideal S2000x256 .bf16) (x1 : Vec Ideal S256x128 .bf16) (p : Fin 2000) (q : Fin 128) :
    k4_pay1 x0 x1 (ix2 p q) = ∑ k : Fin 256, (x0 : S2000x256.Idx → EReal) (ix2 p k) * (x1 : S256x128.Idx → EReal) (ix2 k q) := by
  unfold k4_pay1
  simp only [shapeCast_self]
  rw [dot4_eq]
  exact Cert.Lib.matmul_zero_apply _ none x0 x1 p q

/-- The product of the two arrays, index by index. -/
def G4 (a0 : S50000x256.Idx → EReal) (a1 : S256x128.Idx → EReal) : S50000x128.Idx → EReal :=
  fun i => ∑ k : Fin 256, a0 (ix2 (⟨(i 0).val, (i 0).isLt⟩ : Fin 50000) k) * a1 (ix2 k (⟨(i 1).val, (i 1).isLt⟩ : Fin 128))

theorem G4_apply (a0 : S50000x256.Idx → EReal) (a1 : S256x128.Idx → EReal) (P : Fin 50000) (q : Fin 128) :
    G4 a0 a1 (ix2 P q) = ∑ k : Fin 256, a0 (ix2 P k) * a1 (ix2 k q) := rfl

/-- The index maps over the grid: the output's and the left operand's blocks are the point's row block, the right operand's is the whole matrix. -/
theorem idx4 : ∀ t : Fin cfg4.N, win4_2.index t (0 : Fin 2) = t.val ∧ win4_2.index t (1 : Fin 2) = 0
    ∧ win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- A point's stored value at an index of its block is the product at the array index the block's index sits at, when the
    left block holds the point's rows of the left array and the right block the right array. -/
theorem point4 (a0 : S50000x256.Idx → EReal) (a1 : S256x128.Idx → EReal)
    (x0 : Vec Ideal S2000x256 .bf16) (x1 : Vec Ideal S256x128 .bf16) (n : Nat)
    (h0 : ∀ (y : S2000x256.Idx) (i : S50000x256.Idx), (i 0).val = n * 2000 + (y 0).val → (i 1).val = (y 1).val → x0 y = a0 i)
    (h1 : ∀ y : S256x128.Idx, x1 y = a1 y)
    (y : S2000x128.Idx) (i : S50000x128.Idx) (hi0 : (i 0).val = n * 2000 + (y 0).val) (hi1 : (i 1).val = (y 1).val) :
    k4_pay1 x0 x1 y = G4 a0 a1 i := by
  obtain ⟨p, q, rfl⟩ : ∃ (p : Fin 2000) (q : Fin 128), y = ix2 p q := ⟨y 0, y 1, eq_ix2 y⟩
  obtain ⟨P, Q, rfl⟩ : ∃ (P : Fin 50000) (Q : Fin 128), i = ix2 P Q := ⟨i 0, i 1, eq_ix2 i⟩
  obtain rfl : Q = q := Fin.ext hi1
  rw [pay4_apply, G4_apply]
  refine Finset.sum_congr rfl fun k _ => ?_
  rw [h0 (ix2 p k) (ix2 P k) hi0 rfl, h1]

/-- The left operand's block at a point is the point's 2000 rows of the left array. -/
theorem blk4_0 (c : Dev nD) (t : Fin cfg4.N) (y : S2000x256.Idx) (i : S50000x256.Idx)
    (hi0 : (i 0).val = t.val * 2000 + (y 0).val) (hi1 : (i 1).val = (y 1).val) :
    (iblk4 V c 0 t : S2000x256.Idx → EReal) y = (V c main_v65 : S50000x256.Idx → EReal) i := by
  obtain ⟨e0, e1, e2, e3, e4, e5⟩ := idx4 t
  unfold iblk4
  rw [View.read_apply]
  show V c main_v65 _ = V c main_v65 _
  refine congrArg _ (funext fun a => Fin.ext ?_)
  match a with
  | ⟨0, _⟩ => show win4_0.index t (0 : Fin 2) * 2000 + 1 * (y 0).val = (i 0).val; rw [e2, hi0]; omega
  | ⟨1, _⟩ => show win4_0.index t (1 : Fin 2) * 256 + 1 * (y 1).val = (i 1).val; rw [e3, hi1]; omega

/-- The right operand's block at every point is the whole right array. -/
theorem blk4_1 (c : Dev nD) (t : Fin cfg4.N) (y : S256x128.Idx) :
    (iblk4 V c 1 t : S256x128.Idx → EReal) y = (V c main_v66 : S256x128.Idx → EReal) y := by
  obtain ⟨e0, e1, e2, e3, e4, e5⟩ := idx4 t
  unfold iblk4
  rw [View.read_apply]
  show V c main_v66 _ = V c main_v66 _
  refine congrArg _ (funext fun a => Fin.ext ?_)
  match a with
  | ⟨0, _⟩ => show win4_1.index t (0 : Fin 2) * 256 + 1 * (y 0).val = (y 0).val; rw [e4]; omega
  | ⟨1, _⟩ => show win4_1.index t (1 : Fin 2) * 128 + 1 * (y 1).val = (y 1).val; rw [e5]; omega

/-- What a point writes back is its block of the product of the two arrays as the region finds them. -/
theorem flushed4_eq (c : Dev nD) (t : Fin cfg4.N) :
    (dat4 V c).flushed 2 t = ((cfg4.win 2).blk t).view.read (Elt Ideal) (G4 (V c main_v65) (V c main_v66)) := by
  show (cfg4.win 2).cut (grid4.coords t) ((dat4 V c).after 2 t) = _
  rw [after4_2]
  unfold out4_2
  rw [View.canon_unit_zero hz4]
  simp only [View.ld_unit_zero (S := S2000x256) hz4, View.ld_unit_zero (S := S256x128) hz4]
  obtain ⟨e0, e1, e2, e3, e4, e5⟩ := idx4 t
  funext j
  show k4_pay1 (iblk4 V c 0 t) (iblk4 V c 1 t) ((cfg4.win 2).xinj (grid4.coords t) j)
    = G4 (V c main_v65) (V c main_v66) (((cfg4.win 2).blk t).view.emb j)
  refine point4 (V c main_v65) (V c main_v66) (iblk4 V c 0 t) (iblk4 V c 1 t) t.val (blk4_0 V c t) (blk4_1 V c t) _ _ ?_ ?_
  · show win4_2.index t (0 : Fin 2) * 2000 + 1 * (j 0).val = t.val * 2000 + (j 0).val; rw [e0]; omega
  · show win4_2.index t (1 : Fin 2) * 128 + 1 * (j 1).val = (j 1).val; rw [e1]; omega

/-- An index of the array is in a point's block iff each coordinate is in the block's range on its axis. -/
theorem mem_blk4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v67).slice (win4_2.rect t)).set ↔ _
  rw [View.set_slice_whole, Rect.mem_set_unit]
  exact Iff.rfl

/-- Every index of the array is in the block of the point numbered by its row divided by 2000. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have ht : (i 0).val / 2000 < cfg4.N := by show _ < grid4.N; rw [N_4]; omega
  obtain ⟨e0, e1, -⟩ := idx4 ⟨(i 0).val / 2000, ht⟩
  refine ⟨⟨(i 0).val / 2000, ht⟩, flush4_2 _, ?_⟩
  rw [mem_blk4]
  intro a
  match a with
  | ⟨0, _⟩ =>
    show win4_2.index ⟨(i 0).val / 2000, ht⟩ (0 : Fin 2) * 2000 ≤ (i 0).val ∧ (i 0).val < win4_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_2.index ⟨(i 0).val / 2000, ht⟩ (1 : Fin 2) * 128 ≤ (i 1).val ∧ (i 1).val < win4_2.index ⟨(i 0).val / 2000, ht⟩ (1 : Fin 2) * 128 + 128
    rw [e1]; omega

/-- The output array after the region is the product of the two input arrays as the region finds them. -/
theorem arr4 (c : Dev nD) : (dat4 V c).arrAt 2 cfg4.N = G4 (V c main_v65) (V c main_v66) :=
  (dat4 V c).arrAt_eq_of_cover 2 (G4 (V c main_v65) (V c main_v66)) (fun t _ => flushed4_eq V c t) cover4

/-- The output array after the region, at (p, q): row p of the first array times column q of the second, the two arrays
    named as functions of their indices. -/
theorem final4 (c : Dev nD) (a0 : S50000x256.Idx → EReal) (a1 : S256x128.Idx → EReal)
    (h0 : V c main_v65 = a0) (h1 : V c main_v66 = a1) (p : Fin 50000) (q : Fin 128) :
    @Eq EReal ((dat4 (F := Ideal) V c).arrAt 2 cfg4.N (ix2 p q)) (∑ k : Fin 256, a0 (ix2 p k) * a1 (ix2 k q)) := by
  subst h0; subst h1
  exact (congrFun (arr4 V c) (ix2 p q)).trans (G4_apply _ _ p q)

end Cert.KernelIdeal.Val

end
-- ==== Proof.KI.Val5.lean ====
/-
  Region 5 of the program, read index by index at the ideal float instance: the combine step's output array after the
  region's run is, at every row p and column q, max(agg[p,q] + h[p,q] * norm[p,0] + bias[0,q], 0) of the arrays the
  region finds. First a column broadcast read at an index, then the body's value at an index of its block, the printed
  index maps over the grid, what each grid point writes back as a block of one whole-array function, the cover of the
  output array by the row blocks, and the array after the run.
-/
import proofs.«130624_j18597208392405_1_alg».proof.Proof.KI.Region5
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz5 : (![0, 0] : Fin 2 → Nat) = fun _ => 0 := funext fun a => by fin_cases a <;> rfl

/-- A column `[a, 1]` broadcast to `[a, b]` reads, at `(p, c)`, the operand's row `p` at its one column. -/
theorem broadcastTo_a1_ab_apply5 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at row `p`, column `q` of its block: the four loaded blocks at that row and column, the column block
    at the row, the row block at the column. -/
theorem pay5_apply (x0 x1 : Vec Ideal S2000x128 .f32) (x2 : Vec Ideal S2000x1 .f32) (x3 : Vec Ideal S1x128 .f32) (p : Fin 2000) (q : Fin 128) :
    k5_pay1 x0 x1 x2 x3 (ix2 p q)
      = FloatOps.maximumf (F := Ideal) (φ := .f32) (FloatOps.addf (FloatOps.addf (x0 (ix2 p q)) (FloatOps.mulf (x1 (ix2 p q)) (x2 (ix2 p (0 : Fin 1))))) (x3 (ix2 (0 : Fin 1) q))) (Scalar.ofBits (F := Ideal) .f32 0x00000000#32) := by
  unfold k5_pay1
  simp only [shapeCast_self]
  have e2 := broadcastTo_a1_ab_apply5 x2 broadcasts_S2000x1_S2000x128 p q
  have e3 := broadcastTo_1b_ab_apply x3 broadcasts_S1x128_S2000x128 p q
  show FloatOps.maximumf (FloatOps.addf (FloatOps.addf _ (FloatOps.mulf _ _)) _) _ = _
  rw [e2, e3]
  rfl

/-- The output array as one function of the four input arrays: at row `p`, column `q`. -/
def g5 (a0 a1 : S50000x128.Idx → Ideal .f32) (a2 : S50000x1.Idx → Ideal .f32) (a3 : S1x128.Idx → Ideal .f32) (p : Fin 50000) (q : Fin 128) : Ideal .f32 :=
  FloatOps.maximumf (F := Ideal) (φ := .f32) (FloatOps.addf (FloatOps.addf (a0 (ix2 p q)) (FloatOps.mulf (a1 (ix2 p q)) (a2 (ix2 p (0 : Fin 1))))) (a3 (ix2 (0 : Fin 1) q))) (Scalar.ofBits (F := Ideal) .f32 0x00000000#32)

/-- The same function of an index. -/
def G5 (a0 a1 : S50000x128.Idx → Ideal .f32) (a2 : S50000x1.Idx → Ideal .f32) (a3 : S1x128.Idx → Ideal .f32) : S50000x128.Idx → Ideal .f32 :=
  fun i => g5 a0 a1 a2 a3 ⟨(i 0).val, idx2_lt0 i⟩ ⟨(i 1).val, idx2_lt1 i⟩

theorem G5_ix2 (a0 a1 : S50000x128.Idx → Ideal .f32) (a2 : S50000x1.Idx → Ideal .f32) (a3 : S1x128.Idx → Ideal .f32) (p : Fin 50000) (q : Fin 128) :
    G5 a0 a1 a2 a3 (ix2 p q) = g5 a0 a1 a2 a3 p q := rfl

/-- The printed index maps, decided over the grid: at point `t` the row-blocked windows are at block `(t, 0)`, the
    row vector at `(0, 0)`. -/
theorem idx_facts5 : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Window 0's block at point `t` is rows `2000 t … 2000 t + 1999` of its array. -/
theorem iblk5_0_apply (c : Dev nD) (t : Fin cfg5.N) (p : Fin 2000) (q : Fin 128) (P : Fin 50000) (hP : P.val = t.val * 2000 + p.val) :
    (iblk5 V c 0 t : Vec Ideal S2000x128 .f32) (ix2 p q) = (V c main_v80 : S50000x128.Idx → Ideal .f32) (ix2 P q) := by
  obtain ⟨e0, e1, -⟩ := idx_facts5 t
  unfold iblk5
  rw [View.read_apply]
  show V c main_v80 _ = V c main_v80 _
  refine congrArg _ (funext fun a => Fin.ext ?_)
  match a with
  | ⟨0, _⟩ => show win5_0.index t (0 : Fin 2) * 2000 + 1 * p.val = P.val; rw [e0, hP]; omega
  | ⟨1, _⟩ => show win5_0.index t (1 : Fin 2) * 128 + 1 * q.val = q.val; rw [e1]; omega

/-- Window 1's block at point `t` is the same rows of its array. -/
theorem iblk5_1_apply (c : Dev nD) (t : Fin cfg5.N) (p : Fin 2000) (q : Fin 128) (P : Fin 50000) (hP : P.val = t.val * 2000 + p.val) :
    (iblk5 V c 1 t : Vec Ideal S2000x128 .f32) (ix2 p q) = (V c main_v67 : S50000x128.Idx → Ideal .f32) (ix2 P q) := by
  obtain ⟨-, -, e0, e1, -⟩ := idx_facts5 t
  unfold iblk5
  rw [View.read_apply]
  show V c main_v67 _ = V c main_v67 _
  refine congrArg _ (funext fun a => Fin.ext ?_)
  match a with
  | ⟨0, _⟩ => show win5_1.index t (0 : Fin 2) * 2000 + 1 * p.val = P.val; rw [e0, hP]; omega
  | ⟨1, _⟩ => show win5_1.index t (1 : Fin 2) * 128 + 1 * q.val = q.val; rw [e1]; omega

/-- Window 2's block at point `t` is the same rows of the one-column array. -/
theorem iblk5_2_apply (c : Dev nD) (t : Fin cfg5.N) (p : Fin 2000) (P : Fin 50000) (hP : P.val = t.val * 2000 + p.val) :
    (iblk5 V c 2 t : Vec Ideal S2000x1 .f32) (ix2 p (0 : Fin 1)) = (V c main_v81 : S50000x1.Idx → Ideal .f32) (ix2 P (0 : Fin 1)) := by
  obtain ⟨-, -, -, -, e0, e1, -⟩ := idx_facts5 t
  unfold iblk5
  rw [View.read_apply]
  show V c main_v81 _ = V c main_v81 _
  refine congrArg _ (funext fun a => Fin.ext ?_)
  match a with
  | ⟨0, _⟩ => show win5_2.index t (0 : Fin 2) * 2000 + 1 * p.val = P.val; rw [e0, hP]; omega
  | ⟨1, _⟩ => show win5_2.index t (1 : Fin 2) * 1 + 1 * 0 = 0; rw [e1]

/-- Window 3's block at every point is its whole one-row array. -/
theorem iblk5_3_apply (c : Dev nD) (t : Fin cfg5.N) (q : Fin 128) :
    (iblk5 V c 3 t : Vec Ideal S1x128 .f32) (ix2 (0 : Fin 1) q) = (V c main_v82 : S1x128.Idx → Ideal .f32) (ix2 (0 : Fin 1) q) := by
  obtain ⟨-, -, -, -, -, -, e0, e1, -⟩ := idx_facts5 t
  unfold iblk5
  rw [View.read_apply]
  show V c main_v82 _ = V c main_v82 _
  refine congrArg _ (funext fun a => Fin.ext ?_)
  match a with
  | ⟨0, _⟩ => show win5_3.index t (0 : Fin 2) * 1 + 1 * 0 = 0; rw [e0]
  | ⟨1, _⟩ => show win5_3.index t (1 : Fin 2) * 128 + 1 * q.val = q.val; rw [e1]; omega

/-- The body's value at the blocks of point `t`, at row `p`, column `q` of the block, is the whole-array function at row
    `2000 t + p`, column `q`. -/
theorem point5 (c : Dev nD) (t : Fin cfg5.N) (p : Fin 2000) (q : Fin 128) (P : Fin 50000) (hP : P.val = t.val * 2000 + p.val) :
    k5_pay1 (iblk5 V c 0 t) (iblk5 V c 1 t) (iblk5 V c 2 t) (iblk5 V c 3 t) (ix2 p q)
      = g5 (V c main_v80) (V c main_v67) (V c main_v81) (V c main_v82) P q := by
  refine (pay5_apply (iblk5 V c 0 t) (iblk5 V c 1 t) (iblk5 V c 2 t) (iblk5 V c 3 t) p q).trans ?_
  rw [iblk5_0_apply V c t p q P hP, iblk5_1_apply V c t p q P hP, iblk5_2_apply V c t p P hP, iblk5_3_apply V c t q]
  rfl

/-- What point `t` writes back is block `t` of the whole-array function of the arrays as the region finds them. -/
theorem flushed5_eq (c : Dev nD) (t : Fin cfg5.N) :
    (dat5 (F := Ideal) V c).flushed 4 t
      = ((cfg5.win 4).blk t).view.read (Elt Ideal) (G5 (V c main_v80) (V c main_v67) (V c main_v81) (V c main_v82)) := by
  show (cfg5.win 4).cut (grid5.coords t) ((dat5 V c).after 4 t) = _
  rw [after5_4]
  unfold out5_4
  rw [View.canon_unit_zero hz5]
  simp only [View.ld_unit_zero (S := S2000x128) hz5, View.ld_unit_zero (S := S2000x1) hz5, View.ld_unit_zero (S := S1x128) hz5]
  obtain ⟨-, -, -, -, -, -, -, -, e0, e1⟩ := idx_facts5 t
  have hN : t.val < 25 := Nat.lt_of_lt_of_eq t.isLt N_5
  funext j
  obtain ⟨p, q, rfl⟩ : ∃ (p : Fin 2000) (q : Fin 128), j = ix2 p q := ⟨j 0, j 1, eq_ix2 j⟩
  have hp : p.val < 2000 := p.isLt
  have hx : (cfg5.win 4).xinj (grid5.coords t) (ix2 p q) = ix2 p q :=
    funext fun a => by match a with | ⟨0, _⟩ => rfl | ⟨1, _⟩ => rfl
  have he : ((cfg5.win 4).blk t).view.emb (ix2 p q) = ix2 (⟨t.val * 2000 + p.val, by omega⟩ : Fin 50000) q := by
    funext a; apply Fin.ext
    match a with
    | ⟨0, _⟩ => show win5_4.index t (0 : Fin 2) * 2000 + 1 * p.val = t.val * 2000 + p.val; rw [e0]; omega
    | ⟨1, _⟩ => show win5_4.index t (1 : Fin 2) * 128 + 1 * q.val = q.val; rw [e1]; omega
  show k5_pay1 (iblk5 V c 0 t) (iblk5 V c 1 t) (iblk5 V c 2 t) (iblk5 V c 3 t) ((cfg5.win 4).xinj (grid5.coords t) (ix2 p q))
      = G5 (V c main_v80) (V c main_v67) (V c main_v81) (V c main_v82) (((cfg5.win 4).blk t).view.emb (ix2 p q))
  rw [hx, he, G5_ix2]
  exact point5 V c t p q _ rfl

/-- Every row of the output array is in the block of the point its row block names, and every point writes back. -/
theorem cover5 (c : Dev nD) (i : ((cfg5.win 4).arr.view.loc ((c : Dev nD).tc : Thread nD τ)).2.ty.Idx) :
    ∃ t : Fin cfg5.N, (cfg5.win 4).flush t = true ∧ i ∈ ((cfg5.win 4).blk t).view.set := by
  have h0 : (i 0).val < 50000 := (i 0).isLt
  have h1 : (i 1).val < 128 := (i 1).isLt
  have hN : cfg5.N = 25 := N_5
  let t : Fin cfg5.N := ⟨(i 0).val / 2000, by rw [hN]; omega⟩
  obtain ⟨-, -, -, -, -, -, -, -, e0, e1⟩ := idx_facts5 t
  have ht : t.val = (i 0).val / 2000 := rfl
  refine ⟨t, flush5_4 t, ?_⟩
  show i ∈ ((View.whole main_v83).slice (win5_4.rect t)).set
  rw [View.set_slice_whole, Rect.mem_set_unit]
  intro a
  match a with
  | ⟨0, _⟩ =>
    show win5_4.index t (0 : Fin 2) * 2000 ≤ (i 0).val ∧ (i 0).val < win5_4.index t (0 : Fin 2) * 2000 + 2000
    rw [e0, ht]; omega
  | ⟨1, _⟩ =>
    show win5_4.index t (1 : Fin 2) * 128 ≤ (i 1).val ∧ (i 1).val < win5_4.index t (1 : Fin 2) * 128 + 128
    rw [e1]; omega

/-- The output array after the region's run is the whole-array function of the arrays as the region finds them. -/
theorem arr5_eq (c : Dev nD) :
    (dat5 (F := Ideal) V c).arrAt 4 cfg5.N = G5 (V c main_v80) (V c main_v67) (V c main_v81) (V c main_v82) :=
  (dat5 (F := Ideal) V c).arrAt_eq_of_cover 4 (G5 (V c main_v80) (V c main_v67) (V c main_v81) (V c main_v82))
    (fun t _ => flushed5_eq V c t) (cover5 c)

/-- The output array after the region's run, at row `p`, column `q`. -/
theorem final5 (c : Dev nD) (p : Fin 50000) (q : Fin 128) :
    ((dat5 (F := Ideal) V c).arrAt 4 cfg5.N : S50000x128.Idx → Ideal .f32) (ix2 p q)
      = FloatOps.maximumf (F := Ideal) (φ := .f32) (FloatOps.addf (FloatOps.addf ((V c main_v80 : S50000x128.Idx → Ideal .f32) (ix2 p q)) (FloatOps.mulf ((V c main_v67 : S50000x128.Idx → Ideal .f32) (ix2 p q)) ((V c main_v81 : S50000x1.Idx → Ideal .f32) (ix2 p (0 : Fin 1))))) ((V c main_v82 : S1x128.Idx → Ideal .f32) (ix2 (0 : Fin 1) q))) (Scalar.ofBits (F := Ideal) .f32 0x00000000#32) := by
  rw [arr5_eq V c]
  rfl

end Cert.KernelIdeal.Val

end
-- ==== Proof.KI.Layer3.lean ====
/-
  The third layer of the value chain: given that the second layer's output is the reference's, the third layer's is.
  The two casts before the matrix product are the identity on extended reals; the matrix product's output is the
  reference's dot product, sum for sum; the host stretch that follows gathers, scales and adds up the same rows at the
  same indices; the combine step's column and row operands read the same elements the reference's broadcasts read; and
  the combine step's value at every index is the reference's tree of operations on those.
-/
import proofs.«130624_j18597208392405_1_alg».proof.Proof.KI.Run
import proofs.«130624_j18597208392405_1_alg».proof.Proof.KI.Host0
import proofs.«130624_j18597208392405_1_alg».proof.Proof.KI.Val4
import proofs.«130624_j18597208392405_1_alg».proof.Proof.KI.Val5
import proofs.«130624_j18597208392405_1_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

set_option quotPrecheck false in
local notation "𝔞0" => m ((c.tc : Thread nD τ).loc main_arg0)
set_option quotPrecheck false in
local notation "𝔞2" => m ((c.tc : Thread nD τ).loc main_arg2)
set_option quotPrecheck false in
local notation "𝔞3" => m ((c.tc : Thread nD τ).loc main_arg3)
set_option quotPrecheck false in
local notation "𝔞4" => m ((c.tc : Thread nD τ).loc main_arg4)
set_option quotPrecheck false in
local notation "𝔞5" => m ((c.tc : Thread nD τ).loc main_arg5)
set_option quotPrecheck false in
local notation "𝔞6" => m ((c.tc : Thread nD τ).loc main_arg6)
set_option quotPrecheck false in
local notation "𝔞7" => m ((c.tc : Thread nD τ).loc main_arg7)

/-! ## What earlier stretches left, carried to where this layer reads it -/

/-- A reference that nothing between the first host stretch and the third matrix product's exit writes holds there what the first host stretch left. -/
theorem l3_carry (r : Ref sig .tc) (h1 : ∀ w, Pipeline.arrRef spec0 w ≠ r) (h2 : r ∉ hostOps1_W) (h3 : ∀ w, Pipeline.arrRef spec1 w ≠ r)
    (h4 : r ∉ hostOps2_W) (h5 : ∀ w, Pipeline.arrRef spec2 w ≠ r) (h6 : r ∉ hostOps3_W) (h7 : ∀ w, Pipeline.arrRef spec3 w ≠ r)
    (h8 : r ∉ hostOps4_W) (h9 : ∀ w, Pipeline.arrRef spec4 w ≠ r) :
    W10 m ρ c (Proc.devRef .tc r) = W1 m ρ c (Proc.devRef .tc r) :=
  (W10_of_ne m ρ c r h9).trans <| (W9_keep m ρ c r h8).trans <| (W8_of_ne m ρ c r h7).trans <| (W7_keep m ρ c r h6).trans <|
    (W6_of_ne m ρ c r h5).trans <| (W5_keep m ρ c r h4).trans <| (W4_of_ne m ρ c r h3).trans <| (W3_keep m ρ c r h2).trans <| W2_of_ne m ρ c r h1

/-- The source indices, where the third aggregation reads them. -/
theorem l3_src : W10 m ρ c (Proc.devRef .tc main_v1) = Cert.ReferenceIdeal.Read.val_main_v1 (F := Ideal) (eidx m c) :=
  (l3_carry m ρ c main_v1 (by decide) (by decide) (by decide) (by decide) (by decide) (by decide) (by decide) (by decide) (by decide)).trans (src_eq m ρ c)
/-- The destination indices. -/
theorem l3_dst : W10 m ρ c (Proc.devRef .tc main_v3) = Cert.ReferenceIdeal.Read.val_main_v3 (F := Ideal) (eidx m c) :=
  (l3_carry m ρ c main_v3 (by decide) (by decide) (by decide) (by decide) (by decide) (by decide) (by decide) (by decide) (by decide)).trans (dst_eq m ρ c)
/-- The per-edge factor. -/
theorem l3_nedge : W10 m ρ c (Proc.devRef .tc main_v25) = Cert.ReferenceIdeal.Read.val_main_v25 (F := Ideal) (eidx m c) :=
  (l3_carry m ρ c main_v25 (by decide) (by decide) (by decide) (by decide) (by decide) (by decide) (by decide) (by decide) (by decide)).trans (nedge_eq m ρ c)
/-- The per-node factor. -/
theorem l3_nself : W10 m ρ c (Proc.devRef .tc main_v26) = Cert.ReferenceIdeal.Read.val_main_v26 (F := Ideal) (eidx m c) :=
  (l3_carry m ρ c main_v26 (by decide) (by decide) (by decide) (by decide) (by decide) (by decide) (by decide) (by decide) (by decide)).trans (nself_eq m ρ c)
/-- The layer's bias, an argument nothing writes. -/
theorem l3_bias : W10 m ρ c (Proc.devRef .tc main_arg7) = 𝔞7 :=
  (l3_carry m ρ c main_arg7 (by decide) (by decide) (by decide) (by decide) (by decide) (by decide) (by decide) (by decide) (by decide)).trans (W1_keep m ρ c main_arg7 (by decide))
/-- The layer's weights, an argument nothing writes. -/
theorem l3_w : W8 m ρ c (Proc.devRef .tc main_arg6) = 𝔞6 :=
  (W8_of_ne m ρ c main_arg6 (by decide)).trans <| (W7_keep m ρ c main_arg6 (by decide)).trans <| (W6_of_ne m ρ c main_arg6 (by decide)).trans <|
    (W5_keep m ρ c main_arg6 (by decide)).trans <| (W4_of_ne m ρ c main_arg6 (by decide)).trans <| (W3_keep m ρ c main_arg6 (by decide)).trans <|
    (W2_of_ne m ρ c main_arg6 (by decide)).trans <| W1_keep m ρ c main_arg6 (by decide)

/-! ## The matrix product's two inputs: the casts are the identity on extended reals -/

set_option maxHeartbeats 8000000 in
set_option maxRecDepth 100000 in
/-- The layer's input, cast. -/
theorem l3_in (hX : W8 m ρ c (Proc.devRef .tc main_v64) = Cert.ReferenceIdeal.Read.val_main_v70 (F := Ideal) 𝔞0 (eidx m c) 𝔞2 𝔞3 𝔞4 𝔞5) :
    W9 m ρ c (Proc.devRef .tc main_v65) = Cert.ReferenceIdeal.Read.val_main_v70 (F := Ideal) 𝔞0 (eidx m c) 𝔞2 𝔞3 𝔞4 𝔞5 := by
  show StableHlo.after hostOps4 (W8 m ρ c) (Proc.devRef .tc main_v65) = _
  after_results_simp
  exact hX

set_option maxHeartbeats 8000000 in
set_option maxRecDepth 100000 in
/-- The layer's weights, cast. -/
theorem l3_win : W9 m ρ c (Proc.devRef .tc main_v66) = 𝔞6 := by
  show StableHlo.after hostOps4 (W8 m ρ c) (Proc.devRef .tc main_v66) = _
  after_results_simp
  exact l3_w m ρ c

/-! ## The matrix product -/

/-- The third matrix product's output is the reference's. -/
theorem l3_mm (hX : W8 m ρ c (Proc.devRef .tc main_v64) = Cert.ReferenceIdeal.Read.val_main_v70 (F := Ideal) 𝔞0 (eidx m c) 𝔞2 𝔞3 𝔞4 𝔞5) :
    W10 m ρ c (Proc.devRef .tc main_v67) = Cert.ReferenceIdeal.Read.val_main_v71 (F := Ideal) 𝔞0 (eidx m c) 𝔞2 𝔞3 𝔞4 𝔞5 𝔞6 := by
  refine ((W10_arr m ρ c 2).trans (arr4 (B9 m ρ) c)).trans ?_
  show G4 (W9 m ρ c (Proc.devRef .tc main_v65)) (W9 m ρ c (Proc.devRef .tc main_v66)) = _
  rw [l3_in m ρ c hX, l3_win m ρ c]
  funext i
  obtain ⟨p, q, rfl⟩ : ∃ (p : Fin 50000) (q : Fin 128), i = ix2 p q := ⟨i 0, i 1, eq_ix2 i⟩
  rw [G4_apply, Cert.ReferenceIdeal.Read.val_main_v71_apply]
  refine Finset.sum_congr rfl fun k _ => ?_
  have el : Cert.ReferenceIdeal.Read.lidx_main_v71 (ix2 p q) k = ix2 p k := funext fun a => Fin.ext (by
    match a with
    | ⟨0, _⟩ => rfl
    | ⟨1, _⟩ => rfl)
  have er : Cert.ReferenceIdeal.Read.ridx_main_v71 (ix2 p q) k = ix2 k q := funext fun a => Fin.ext (by
    match a with
    | ⟨0, _⟩ => rfl
    | ⟨1, _⟩ => rfl)
  rw [el, er]

/-! ## The host stretch between the matrix product and the combine step -/

set_option maxHeartbeats 8000000 in
set_option maxRecDepth 100000 in
/-- The aggregated array: the product's rows gathered along the edges, scaled, and added up at the destinations. -/
theorem l3_agg (hX : W8 m ρ c (Proc.devRef .tc main_v64) = Cert.ReferenceIdeal.Read.val_main_v70 (F := Ideal) 𝔞0 (eidx m c) 𝔞2 𝔞3 𝔞4 𝔞5) :
    W11 m ρ c (Proc.devRef .tc main_v80) = Cert.ReferenceIdeal.Read.val_main_v84 (F := Ideal) 𝔞0 (eidx m c) 𝔞2 𝔞3 𝔞4 𝔞5 𝔞6 := by
  show StableHlo.after hostOps5 (W10 m ρ c) (Proc.devRef .tc main_v80) = _
  after_results_simp
  rw [l3_mm m ρ c hX, l3_src m ρ c, l3_dst m ρ c, l3_nedge m ρ c]
  rfl

/-- The matrix product's output, which the stretch does not write, where the combine step reads it. -/
theorem l3_mm' (hX : W8 m ρ c (Proc.devRef .tc main_v64) = Cert.ReferenceIdeal.Read.val_main_v70 (F := Ideal) 𝔞0 (eidx m c) 𝔞2 𝔞3 𝔞4 𝔞5) :
    W11 m ρ c (Proc.devRef .tc main_v67) = Cert.ReferenceIdeal.Read.val_main_v71 (F := Ideal) 𝔞0 (eidx m c) 𝔞2 𝔞3 𝔞4 𝔞5 𝔞6 :=
  (W11_keep m ρ c main_v67 (by decide)).trans (l3_mm m ρ c hX)

set_option maxHeartbeats 8000000 in
set_option maxRecDepth 100000 in
/-- The per-node factor as a column, at row p: the reference's broadcast of it reads the same element. -/
theorem l3_col (p : Fin 50000) (q : Fin 128) :
    (W11 m ρ c (Proc.devRef .tc main_v81) : S50000x1.Idx → EReal) (ix2 p (0 : Fin 1))
      = Cert.ReferenceIdeal.Read.val_main_v26 (F := Ideal) (eidx m c) (Cert.ReferenceIdeal.Read.idx_main_v85 (Cert.ReferenceIdeal.Read.idx_main_v86 (ix2 p q))) := by
  show StableHlo.after hostOps5 (W10 m ρ c) (Proc.devRef .tc main_v81) (ix2 p (0 : Fin 1)) = _
  after_results_simp
  rw [l3_nself m ρ c]
  refine (shapeCast_apply _ _ (ix2 p (0 : Fin 1)) (ix1 p) ?_).trans (congrArg _ (funext fun a => ?_))
  · show ((⟨1, ![50000]⟩ : Shape).rowMajor (ix1 p)).val = ((⟨2, ![50000, 1]⟩ : Shape).rowMajor (ix2 p (0 : Fin 1))).val
    rw [Shape.rowMajor_val_two, Shape.rowMajor_val_one]
    show p.val = p.val * 1 + 0
    omega
  · match a with
    | ⟨0, _⟩ => rfl

set_option maxHeartbeats 8000000 in
set_option maxRecDepth 100000 in
/-- The bias as a row, at column q: the reference's broadcast of it reads the same element. -/
theorem l3_row (p : Fin 50000) (q : Fin 128) :
    (W11 m ρ c (Proc.devRef .tc main_v82) : S1x128.Idx → EReal) (ix2 (0 : Fin 1) q)
      = (𝔞7 : S128.Idx → EReal) (Cert.ReferenceIdeal.Read.idx_main_v89 (Cert.ReferenceIdeal.Read.idx_main_v90 (ix2 p q))) := by
  show StableHlo.after hostOps5 (W10 m ρ c) (Proc.devRef .tc main_v82) (ix2 (0 : Fin 1) q) = _
  after_results_simp
  rw [l3_bias m ρ c]
  refine (shapeCast_a_1a_apply _ _ (0 : Fin 1) q).trans (congrArg _ (funext fun a => ?_))
  match a with
  | ⟨0, _⟩ => rfl

/-! ## The layer -/

/-- The third layer's output is the reference's, given that the second layer's is. -/
theorem layer3 (hX : W8 m ρ c (Proc.devRef .tc main_v64) = Cert.ReferenceIdeal.Read.val_main_v70 (F := Ideal) 𝔞0 (eidx m c) 𝔞2 𝔞3 𝔞4 𝔞5) :
    W12 m ρ c (Proc.devRef .tc main_v83) = Cert.ReferenceIdeal.Read.val_main_v92 (F := Ideal) 𝔞0 (eidx m c) 𝔞2 𝔞3 𝔞4 𝔞5 𝔞6 𝔞7 := by
  refine ((W12_arr m ρ c 4).trans (arr5_eq (B11 m ρ) c)).trans ?_
  show G5 (W11 m ρ c (Proc.devRef .tc main_v80)) (W11 m ρ c (Proc.devRef .tc main_v67)) (W11 m ρ c (Proc.devRef .tc main_v81)) (W11 m ρ c (Proc.devRef .tc main_v82)) = _
  rw [l3_agg m ρ c hX, l3_mm' m ρ c hX]
  funext i
  obtain ⟨p, q, rfl⟩ : ∃ (p : Fin 50000) (q : Fin 128), i = ix2 p q := ⟨i 0, i 1, eq_ix2 i⟩
  rw [G5_ix2]
  unfold g5
  rw [l3_col m ρ c p q, l3_row m ρ c p q]
  rw [Cert.ReferenceIdeal.Read.val_main_v92_apply, Cert.ReferenceIdeal.Read.val_main_v91_apply, Cert.ReferenceIdeal.Read.val_main_v88_apply, Cert.ReferenceIdeal.Read.val_main_v87_apply, Cert.ReferenceIdeal.Read.val_main_v86_apply,
    Cert.ReferenceIdeal.Read.val_main_v85_apply, Cert.ReferenceIdeal.Read.val_main_v90_apply, Cert.ReferenceIdeal.Read.val_main_v89_apply, Cert.ReferenceIdeal.Read.val_main_call2_v0_apply, Cert.ReferenceIdeal.Read.val_main_call2_cst_apply]

end Cert.KernelIdeal.Val

end
-- ==== Proof.KI.Val6.lean ====
/-
  Region 6: the array its output window leaves, index by index, over the extended reals.
-/
import proofs.«130624_j18597208392405_1_alg».proof.Proof.KI.Region6
import proofs.«130624_j18597208392405_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-- The matrix product's dimension numbers are the plain ones. -/
theorem dot6_eq : dot_S2000x128_S128x128_S2000x128_1_0_0_1_n_n
    = Cert.Lib.plainDot 2000 128 128 dot_S2000x128_S128x128_S2000x128_1_0_0_1_n_n_wf := rfl

/-- The body's value at (p, q): row p of the left block times column q of the right block, plus the row vector at q. -/
theorem pay6_apply (x0 : Vec Ideal S2000x128 .bf16) (x1 : Vec Ideal S128x128 .bf16) (x2 : Vec Ideal S1x128 .f32) (p : Fin 2000) (q : Fin 128) :
    k6_pay1 x0 x1 x2 (ix2 p q)
      = (∑ k : Fin 128, (x0 : S2000x128.Idx → EReal) (ix2 p k) * (x1 : S128x128.Idx → EReal) (ix2 k q)) + (x2 : S1x128.Idx → EReal) (ix2 (0 : Fin 1) q) := by
  unfold k6_pay1
  simp only [shapeCast_self]
  rw [addf_apply, dot6_eq, broadcastTo_1b_ab_apply]
  exact congrArg (· + (x2 : S1x128.Idx → EReal) (ix2 (0 : Fin 1) q)) (Cert.Lib.matmul_zero_apply _ none x0 x1 p q)

/-- The product of the two arrays plus the row vector down the rows, index by index. -/
def G6 (a0 : S50000x128.Idx → EReal) (a1 : S128x128.Idx → EReal) (a2 : S1x128.Idx → EReal) : S50000x128.Idx → EReal :=
  fun i => (∑ k : Fin 128, a0 (ix2 (⟨(i 0).val, (i 0).isLt⟩ : Fin 50000) k) * a1 (ix2 k (⟨(i 1).val, (i 1).isLt⟩ : Fin 128)))
    + a2 (ix2 (0 : Fin 1) (⟨(i 1).val, (i 1).isLt⟩ : Fin 128))

theorem G6_apply (a0 : S50000x128.Idx → EReal) (a1 : S128x128.Idx → EReal) (a2 : S1x128.Idx → EReal) (P : Fin 50000) (q : Fin 128) :
    G6 a0 a1 a2 (ix2 P q) = (∑ k : Fin 128, a0 (ix2 P k) * a1 (ix2 k q)) + a2 (ix2 (0 : Fin 1) q) := rfl

/-- The index maps over the grid: the output's and the left operand's blocks are the point's row block, the right operand's
    and the row vector's are the whole arrays. -/
theorem idx6 : ∀ t : Fin cfg6.N, win6_3.index t (0 : Fin 2) = t.val ∧ win6_3.index t (1 : Fin 2) = 0
    ∧ win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

/-- A point's stored value at an index of its block is the product plus the row vector at the array index the block's index
    sits at, when the left block holds the point's rows of the left array and the other two blocks their arrays. -/
theorem point6 (a0 : S50000x128.Idx → EReal) (a1 : S128x128.Idx → EReal) (a2 : S1x128.Idx → EReal)
    (x0 : Vec Ideal S2000x128 .bf16) (x1 : Vec Ideal S128x128 .bf16) (x2 : Vec Ideal S1x128 .f32) (n : Nat)
    (h0 : ∀ (y : S2000x128.Idx) (i : S50000x128.Idx), (i 0).val = n * 2000 + (y 0).val → (i 1).val = (y 1).val → x0 y = a0 i)
    (h1 : ∀ y : S128x128.Idx, x1 y = a1 y) (h2 : ∀ y : S1x128.Idx, x2 y = a2 y)
    (y : S2000x128.Idx) (i : S50000x128.Idx) (hi0 : (i 0).val = n * 2000 + (y 0).val) (hi1 : (i 1).val = (y 1).val) :
    k6_pay1 x0 x1 x2 y = G6 a0 a1 a2 i := by
  obtain ⟨p, q, rfl⟩ : ∃ (p : Fin 2000) (q : Fin 128), y = ix2 p q := ⟨y 0, y 1, eq_ix2 y⟩
  obtain ⟨P, Q, rfl⟩ : ∃ (P : Fin 50000) (Q : Fin 128), i = ix2 P Q := ⟨i 0, i 1, eq_ix2 i⟩
  obtain rfl : Q = q := Fin.ext hi1
  rw [pay6_apply, G6_apply, h2]
  refine congrArg (· + a2 (ix2 (0 : Fin 1) Q)) (Finset.sum_congr rfl fun k _ => ?_)
  rw [h0 (ix2 p k) (ix2 P k) hi0 rfl, h1]

/-- The left operand's block at a point is the point's 2000 rows of the left array. -/
theorem blk6_0 (c : Dev nD) (t : Fin cfg6.N) (y : S2000x128.Idx) (i : S50000x128.Idx)
    (hi0 : (i 0).val = t.val * 2000 + (y 0).val) (hi1 : (i 1).val = (y 1).val) :
    (iblk6 V c 0 t : S2000x128.Idx → EReal) y = (V c main_v88 : S50000x128.Idx → EReal) i := by
  obtain ⟨e0, e1, e2, e3, e4, e5, e6, e7⟩ := idx6 t
  unfold iblk6
  rw [View.read_apply]
  show V c main_v88 _ = V c main_v88 _
  refine congrArg _ (funext fun a => Fin.ext ?_)
  match a with
  | ⟨0, _⟩ => show win6_0.index t (0 : Fin 2) * 2000 + 1 * (y 0).val = (i 0).val; rw [e2, hi0]; omega
  | ⟨1, _⟩ => show win6_0.index t (1 : Fin 2) * 128 + 1 * (y 1).val = (i 1).val; rw [e3, hi1]; omega

/-- The right operand's block at every point is the whole right array. -/
theorem blk6_1 (c : Dev nD) (t : Fin cfg6.N) (y : S128x128.Idx) :
    (iblk6 V c 1 t : S128x128.Idx → EReal) y = (V c main_v89 : S128x128.Idx → EReal) y := by
  obtain ⟨e0, e1, e2, e3, e4, e5, e6, e7⟩ := idx6 t
  unfold iblk6
  rw [View.read_apply]
  show V c main_v89 _ = V c main_v89 _
  refine congrArg _ (funext fun a => Fin.ext ?_)
  match a with
  | ⟨0, _⟩ => show win6_1.index t (0 : Fin 2) * 128 + 1 * (y 0).val = (y 0).val; rw [e4]; omega
  | ⟨1, _⟩ => show win6_1.index t (1 : Fin 2) * 128 + 1 * (y 1).val = (y 1).val; rw [e5]; omega

/-- The row vector's block at every point is the whole row vector. -/
theorem blk6_2 (c : Dev nD) (t : Fin cfg6.N) (y : S1x128.Idx) :
    (iblk6 V c 2 t : S1x128.Idx → EReal) y = (V c main_v90 : S1x128.Idx → EReal) y := by
  obtain ⟨e0, e1, e2, e3, e4, e5, e6, e7⟩ := idx6 t
  unfold iblk6
  rw [View.read_apply]
  show V c main_v90 _ = V c main_v90 _
  refine congrArg _ (funext fun a => Fin.ext ?_)
  match a with
  | ⟨0, _⟩ => show win6_2.index t (0 : Fin 2) * 1 + 1 * (y 0).val = (y 0).val; rw [e6]; omega
  | ⟨1, _⟩ => show win6_2.index t (1 : Fin 2) * 128 + 1 * (y 1).val = (y 1).val; rw [e7]; omega

/-- What a point writes back is its block of the product plus the row vector, of the arrays as the region finds them. -/
theorem flushed6_eq (c : Dev nD) (t : Fin cfg6.N) :
    (dat6 V c).flushed 3 t = ((cfg6.win 3).blk t).view.read (Elt Ideal) (G6 (V c main_v88) (V c main_v89) (V c main_v90)) := by
  show (cfg6.win 3).cut (grid6.coords t) ((dat6 V c).after 3 t) = _
  rw [after6_3]
  unfold out6_3
  rw [View.canon_unit_zero hz6]
  simp only [View.ld_unit_zero (S := S2000x128) hz6, View.ld_unit_zero (S := S128x128) hz6, View.ld_unit_zero (S := S1x128) hz6]
  obtain ⟨e0, e1, e2, e3, e4, e5, e6, e7⟩ := idx6 t
  funext j
  show k6_pay1 (iblk6 V c 0 t) (iblk6 V c 1 t) (iblk6 V c 2 t) ((cfg6.win 3).xinj (grid6.coords t) j)
    = G6 (V c main_v88) (V c main_v89) (V c main_v90) (((cfg6.win 3).blk t).view.emb j)
  refine point6 (V c main_v88) (V c main_v89) (V c main_v90) (iblk6 V c 0 t) (iblk6 V c 1 t) (iblk6 V c 2 t) t.val
    (blk6_0 V c t) (blk6_1 V c t) (blk6_2 V c t) _ _ ?_ ?_
  · show win6_3.index t (0 : Fin 2) * 2000 + 1 * (j 0).val = t.val * 2000 + (j 0).val; rw [e0]; omega
  · show win6_3.index t (1 : Fin 2) * 128 + 1 * (j 1).val = (j 1).val; rw [e1]; omega

/-- An index of the array is in a point's block iff each coordinate is in the block's range on its axis. -/
theorem mem_blk6 (t : Fin cfg6.N) (i : S50000x128.Idx) :
    i ∈ ((cfg6.win 3).blk t).view.set ↔ ∀ a : Fin 2, win6_3.index t a * S2000x128.size a ≤ (i a).val ∧ (i a).val < win6_3.index t a * S2000x128.size a + S2000x128.size a := by
  show i ∈ ((View.whole main_v91).slice (win6_3.rect t)).set ↔ _
  rw [View.set_slice_whole, Rect.mem_set_unit]
  exact Iff.rfl

/-- Every index of the array is in the block of the point numbered by its row divided by 2000. -/
theorem cover6 (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have ht : (i 0).val / 2000 < cfg6.N := by show _ < grid6.N; rw [N_6]; omega
  obtain ⟨e0, e1, -⟩ := idx6 ⟨(i 0).val / 2000, ht⟩
  refine ⟨⟨(i 0).val / 2000, ht⟩, flush6_3 _, ?_⟩
  rw [mem_blk6]
  intro a
  match a with
  | ⟨0, _⟩ =>
    show win6_3.index ⟨(i 0).val / 2000, ht⟩ (0 : Fin 2) * 2000 ≤ (i 0).val ∧ (i 0).val < win6_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win6_3.index ⟨(i 0).val / 2000, ht⟩ (1 : Fin 2) * 128 ≤ (i 1).val ∧ (i 1).val < win6_3.index ⟨(i 0).val / 2000, ht⟩ (1 : Fin 2) * 128 + 128
    rw [e1]; omega

/-- The output array after the region is the product of the first two input arrays plus the row vector, as the region finds them. -/
theorem arr6 (c : Dev nD) : (dat6 V c).arrAt 3 cfg6.N = G6 (V c main_v88) (V c main_v89) (V c main_v90) :=
  (dat6 V c).arrAt_eq_of_cover 3 (G6 (V c main_v88) (V c main_v89) (V c main_v90)) (fun t _ => flushed6_eq V c t) cover6

/-- The output array after the region, at (p, q): row p of the first array times column q of the second, plus the row
    vector at q, the three arrays named as functions of their indices. -/
theorem final6 (c : Dev nD) (a0 : S50000x128.Idx → EReal) (a1 : S128x128.Idx → EReal) (a2 : S1x128.Idx → EReal)
    (h0 : V c main_v88 = a0) (h1 : V c main_v89 = a1) (h2 : V c main_v90 = a2) (p : Fin 50000) (q : Fin 128) :
    @Eq EReal ((dat6 (F := Ideal) V c).arrAt 3 cfg6.N (ix2 p q))
      ((∑ k : Fin 128, a0 (ix2 p k) * a1 (ix2 k q)) + a2 (ix2 (0 : Fin 1) q)) := by
  subst h0; subst h1; subst h2
  exact (congrFun (arr6 V c) (ix2 p q)).trans (G6_apply _ _ _ p q)

end Cert.KernelIdeal.Val

end
-- ==== Proof.KI.Heads.lean ====
/-
  The last link of the value chain: the three output heads. The program concatenates the three heads' weight matrices
  column-wise into one 128 x 9 matrix and their biases into one 9-vector, pads both with zeros to 128 columns, multiplies
  the third layer's output by the padded matrix, adds the padded bias row, and keeps columns 0 to 8. Column 3 h + r of
  the result is therefore head h's column r: the sum over k of X[p, k] * W_h[k, r], plus b_h[r], which is what the
  reference's three separate products, each with its bias row added, concatenated column-wise, hold there.
-/
import proofs.«130624_j18597208392405_1_alg».proof.Proof.KI.Run
import proofs.«130624_j18597208392405_1_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

namespace Heads

/-! ## The host stretches between the third layer and the result, each read at the buffers it writes -/

section Stretches
variable (w : Valuation τ sig (Elt Ideal))

set_option maxHeartbeats 8000000 in
set_option maxRecDepth 100000 in
/-- The two column-wise concatenations: the heads' weights, -/
theorem after6_v84 : StableHlo.after hostOps6 w (Proc.devRef .tc main_v84)
    = concatenate S128x9 1 [⟨S128x3, w (Proc.devRef .tc main_arg8)⟩, ⟨S128x3, w (Proc.devRef .tc main_arg10)⟩, ⟨S128x3, w (Proc.devRef .tc main_arg12)⟩] concatenates_S128x3_S128x3_S128x3_S128x9_d1 := by
  after_results_simp
  rfl

set_option maxHeartbeats 8000000 in
set_option maxRecDepth 100000 in
/-- and the heads' biases. -/
theorem after6_v85 : StableHlo.after hostOps6 w (Proc.devRef .tc main_v85)
    = concatenate S9 0 [⟨S3, w (Proc.devRef .tc main_arg9)⟩, ⟨S3, w (Proc.devRef .tc main_arg11)⟩, ⟨S3, w (Proc.devRef .tc main_arg13)⟩] concatenates_S3_S3_S3_S9_d0 := by
  after_results_simp
  rfl

set_option maxHeartbeats 8000000 in
set_option maxRecDepth 100000 in
/-- The padding value of the weights: the integer zero. -/
theorem after6_c14 : StableHlo.after hostOps6 w (Proc.devRef .tc main_c_14) = constantI S_ 32 0#32 := by
  after_results_simp

set_option maxHeartbeats 8000000 in
set_option maxRecDepth 100000 in
/-- The weights padded with the converted zero to 128 columns. -/
theorem after6_1_v86 : StableHlo.after hostOps6_1 w (Proc.devRef .tc main_v86)
    = pad S128x128 ![0, 0] ![0, 119] ![0, 0] (w (Proc.devRef .tc main_v84)) (sitofp (F := Ideal) .f32 (w (Proc.devRef .tc main_c_14))) pads_S128x9_S128x128_000_01190 h_S_ := by
  after_results_simp
  rfl

set_option maxHeartbeats 8000000 in
set_option maxRecDepth 100000 in
/-- The padding value of the biases: the integer zero. -/
theorem after6_2_c15 : StableHlo.after hostOps6_2 w (Proc.devRef .tc main_c_15) = constantI S_ 32 0#32 := by
  after_results_simp

set_option maxHeartbeats 8000000 in
set_option maxRecDepth 100000 in
/-- The biases padded with the converted zero to 128 entries. -/
theorem after6_3_v87 : StableHlo.after hostOps6_3 w (Proc.devRef .tc main_v87)
    = pad S128 ![0] ![119] ![0] (w (Proc.devRef .tc main_v85)) (sitofp (F := Ideal) .f32 (w (Proc.devRef .tc main_c_15))) pads_S9_S128_01190 h_S_ := by
  after_results_simp
  rfl

set_option maxHeartbeats 8000000 in
set_option maxRecDepth 100000 in
/-- The third layer's output cast to the narrower format: unchanged on extended reals. -/
theorem after6_4_v88 : StableHlo.after hostOps6_4 w (Proc.devRef .tc main_v88) = w (Proc.devRef .tc main_v83) := by
  after_results_simp
  rfl

set_option maxHeartbeats 8000000 in
set_option maxRecDepth 100000 in
/-- The padded weights cast to the narrower format: unchanged on extended reals. -/
theorem after6_4_v89 : StableHlo.after hostOps6_4 w (Proc.devRef .tc main_v89) = w (Proc.devRef .tc main_v86) := by
  after_results_simp
  rfl

set_option maxHeartbeats 8000000 in
set_option maxRecDepth 100000 in
/-- The padded biases as a row. -/
theorem after6_4_v90 : StableHlo.after hostOps6_4 w (Proc.devRef .tc main_v90)
    = shapeCast S1x128 (w (Proc.devRef .tc main_v87)) shapeCasts_S128_S1x128 := by
  after_results_simp
  rfl

set_option maxHeartbeats 8000000 in
set_option maxRecDepth 100000 in
/-- The result: columns 0 to 8 of the product. -/
theorem after7_v92 : StableHlo.after hostOps7 w (Proc.devRef .tc main_v92)
    = extractStridedSlice S50000x9 ![0, 0] (w (Proc.devRef .tc main_v91)) slices_S50000x128_S50000x9_0_0 := by
  after_results_simp

end Stretches

/-! ## The layout operations read at an index -/

section Layout
variable {α : Type}

/-- Three `[n, 3]` matrices laid side by side: columns 0 to 2 are the first matrix's, -/
theorem concat3_cols_0 {n : ℕ} (x0 x1 x2 : (⟨2, ![n, 3]⟩ : Shape).Idx → α)
    (h : Shape.Concatenates [(⟨2, ![n, 3]⟩ : Shape), ⟨2, ![n, 3]⟩, ⟨2, ![n, 3]⟩] ⟨2, ![n, 9]⟩ 1) (k : Fin n) (j : Fin 9) (r : Fin 3)
    (hj : j.val = 0 + r.val) :
    concatenate ⟨2, ![n, 9]⟩ 1 [⟨⟨2, ![n, 3]⟩, x0⟩, ⟨⟨2, ![n, 3]⟩, x1⟩, ⟨⟨2, ![n, 3]⟩, x2⟩] h (ix2 k j) = x0 (ix2 k r) :=
  concatenate_apply_piece (t := ⟨2, ![n, 9]⟩) (1 : Fin 2) [⟨⟨2, ![n, 3]⟩, x0⟩, ⟨⟨2, ![n, 3]⟩, x1⟩, ⟨⟨2, ![n, 3]⟩, x2⟩] h (ix2 k j)
    0 (show (0 : ℕ) < 3 by decide) ⟨2, ![n, 3]⟩ x0 rfl rfl 0 rfl (ix2 k r)
    (fun b => match b with | ⟨0, _⟩ => fun _ => rfl | ⟨1, _⟩ => fun hb => absurd rfl hb)
    (by show 0 + r.val = j.val; omega)

/-- columns 3 to 5 the second's, -/
theorem concat3_cols_1 {n : ℕ} (x0 x1 x2 : (⟨2, ![n, 3]⟩ : Shape).Idx → α)
    (h : Shape.Concatenates [(⟨2, ![n, 3]⟩ : Shape), ⟨2, ![n, 3]⟩, ⟨2, ![n, 3]⟩] ⟨2, ![n, 9]⟩ 1) (k : Fin n) (j : Fin 9) (r : Fin 3)
    (hj : j.val = 3 + r.val) :
    concatenate ⟨2, ![n, 9]⟩ 1 [⟨⟨2, ![n, 3]⟩, x0⟩, ⟨⟨2, ![n, 3]⟩, x1⟩, ⟨⟨2, ![n, 3]⟩, x2⟩] h (ix2 k j) = x1 (ix2 k r) :=
  concatenate_apply_piece (t := ⟨2, ![n, 9]⟩) (1 : Fin 2) [⟨⟨2, ![n, 3]⟩, x0⟩, ⟨⟨2, ![n, 3]⟩, x1⟩, ⟨⟨2, ![n, 3]⟩, x2⟩] h (ix2 k j)
    1 (show (1 : ℕ) < 3 by decide) ⟨2, ![n, 3]⟩ x1 rfl rfl 3 rfl (ix2 k r)
    (fun b => match b with | ⟨0, _⟩ => fun _ => rfl | ⟨1, _⟩ => fun hb => absurd rfl hb)
    (by show 3 + r.val = j.val; omega)

/-- columns 6 to 8 the third's. -/
theorem concat3_cols_2 {n : ℕ} (x0 x1 x2 : (⟨2, ![n, 3]⟩ : Shape).Idx → α)
    (h : Shape.Concatenates [(⟨2, ![n, 3]⟩ : Shape), ⟨2, ![n, 3]⟩, ⟨2, ![n, 3]⟩] ⟨2, ![n, 9]⟩ 1) (k : Fin n) (j : Fin 9) (r : Fin 3)
    (hj : j.val = 6 + r.val) :
    concatenate ⟨2, ![n, 9]⟩ 1 [⟨⟨2, ![n, 3]⟩, x0⟩, ⟨⟨2, ![n, 3]⟩, x1⟩, ⟨⟨2, ![n, 3]⟩, x2⟩] h (ix2 k j) = x2 (ix2 k r) :=
  concatenate_apply_piece (t := ⟨2, ![n, 9]⟩) (1 : Fin 2) [⟨⟨2, ![n, 3]⟩, x0⟩, ⟨⟨2, ![n, 3]⟩, x1⟩, ⟨⟨2, ![n, 3]⟩, x2⟩] h (ix2 k j)
    2 (show (2 : ℕ) < 3 by decide) ⟨2, ![n, 3]⟩ x2 rfl rfl 6 rfl (ix2 k r)
    (fun b => match b with | ⟨0, _⟩ => fun _ => rfl | ⟨1, _⟩ => fun hb => absurd rfl hb)
    (by show 6 + r.val = j.val; omega)

/-- Three 3-vectors laid end to end: entries 0 to 2 are the first's, -/
theorem concat3_vec_0 (x0 x1 x2 : (⟨1, ![3]⟩ : Shape).Idx → α)
    (h : Shape.Concatenates [(⟨1, ![3]⟩ : Shape), ⟨1, ![3]⟩, ⟨1, ![3]⟩] ⟨1, ![9]⟩ 0) (j : Fin 9) (r : Fin 3) (hj : j.val = 0 + r.val) :
    concatenate ⟨1, ![9]⟩ 0 [⟨⟨1, ![3]⟩, x0⟩, ⟨⟨1, ![3]⟩, x1⟩, ⟨⟨1, ![3]⟩, x2⟩] h (ix1 j) = x0 (ix1 r) :=
  concatenate_apply_piece (t := ⟨1, ![9]⟩) (0 : Fin 1) [⟨⟨1, ![3]⟩, x0⟩, ⟨⟨1, ![3]⟩, x1⟩, ⟨⟨1, ![3]⟩, x2⟩] h (ix1 j)
    0 (show (0 : ℕ) < 3 by decide) ⟨1, ![3]⟩ x0 rfl rfl 0 rfl (ix1 r)
    (fun b => match b with | ⟨0, _⟩ => fun hb => absurd rfl hb)
    (by show 0 + r.val = j.val; omega)

/-- entries 3 to 5 the second's, -/
theorem concat3_vec_1 (x0 x1 x2 : (⟨1, ![3]⟩ : Shape).Idx → α)
    (h : Shape.Concatenates [(⟨1, ![3]⟩ : Shape), ⟨1, ![3]⟩, ⟨1, ![3]⟩] ⟨1, ![9]⟩ 0) (j : Fin 9) (r : Fin 3) (hj : j.val = 3 + r.val) :
    concatenate ⟨1, ![9]⟩ 0 [⟨⟨1, ![3]⟩, x0⟩, ⟨⟨1, ![3]⟩, x1⟩, ⟨⟨1, ![3]⟩, x2⟩] h (ix1 j) = x1 (ix1 r) :=
  concatenate_apply_piece (t := ⟨1, ![9]⟩) (0 : Fin 1) [⟨⟨1, ![3]⟩, x0⟩, ⟨⟨1, ![3]⟩, x1⟩, ⟨⟨1, ![3]⟩, x2⟩] h (ix1 j)
    1 (show (1 : ℕ) < 3 by decide) ⟨1, ![3]⟩ x1 rfl rfl 3 rfl (ix1 r)
    (fun b => match b with | ⟨0, _⟩ => fun hb => absurd rfl hb)
    (by show 3 + r.val = j.val; omega)

/-- entries 6 to 8 the third's. -/
theorem concat3_vec_2 (x0 x1 x2 : (⟨1, ![3]⟩ : Shape).Idx → α)
    (h : Shape.Concatenates [(⟨1, ![3]⟩ : Shape), ⟨1, ![3]⟩, ⟨1, ![3]⟩] ⟨1, ![9]⟩ 0) (j : Fin 9) (r : Fin 3) (hj : j.val = 6 + r.val) :
    concatenate ⟨1, ![9]⟩ 0 [⟨⟨1, ![3]⟩, x0⟩, ⟨⟨1, ![3]⟩, x1⟩, ⟨⟨1, ![3]⟩, x2⟩] h (ix1 j) = x2 (ix1 r) :=
  concatenate_apply_piece (t := ⟨1, ![9]⟩) (0 : Fin 1) [⟨⟨1, ![3]⟩, x0⟩, ⟨⟨1, ![3]⟩, x1⟩, ⟨⟨1, ![3]⟩, x2⟩] h (ix1 j)
    2 (show (2 : ℕ) < 3 by decide) ⟨1, ![3]⟩ x2 rfl rfl 6 rfl (ix1 r)
    (fun b => match b with | ⟨0, _⟩ => fun hb => absurd rfl hb)
    (by show 6 + r.val = j.val; omega)

/-- A matrix padded on the right with more columns reads, at one of its own columns, its own entry. -/
theorem pad_cols_apply {n a b hi : ℕ} (x : (⟨2, ![n, a]⟩ : Shape).Idx → α) {u : Shape} (v : u.Idx → α)
    (h : (⟨2, ![n, a]⟩ : Shape).Pads ![0, 0] ![0, hi] ![0, 0] ⟨2, ![n, b]⟩) (hu : 0 < u.numel) (k : Fin n) (j : Fin a) (j' : Fin b)
    (hj : j'.val = j.val) :
    pad ⟨2, ![n, b]⟩ ![0, 0] ![0, hi] ![0, 0] x v h hu (ix2 k j') = x (ix2 k j) :=
  pad_apply_of_inside _ _ _ x v h hu (ix2 k j') (ix2 k j) fun ax => match ax with
    | ⟨0, _⟩ => by show k.val = 0 + k.val * (0 + 1); omega
    | ⟨1, _⟩ => by show j'.val = 0 + j.val * (0 + 1); omega

/-- A vector padded at its end with more entries reads, at one of its own entries, its own entry. -/
theorem pad_vec_apply {a b hi : ℕ} (x : (⟨1, ![a]⟩ : Shape).Idx → α) {u : Shape} (v : u.Idx → α)
    (h : (⟨1, ![a]⟩ : Shape).Pads ![0] ![hi] ![0] ⟨1, ![b]⟩) (hu : 0 < u.numel) (j : Fin a) (j' : Fin b) (hj : j'.val = j.val) :
    pad ⟨1, ![b]⟩ ![0] ![hi] ![0] x v h hu (ix1 j') = x (ix1 j) :=
  pad_apply_of_inside _ _ _ x v h hu (ix1 j') (ix1 j) fun ax => match ax with
    | ⟨0, _⟩ => by show j'.val = 0 + j.val * (0 + 1); omega

end Layout

/-! ## The kernel's side: the padded weights and biases, the product's left operand, the slice -/

/-- An argument that nothing writes holds its launch contents when the third layer ends. -/
theorem arg_at12 (r : Ref sig .tc) (h0 : r ∉ hostOps0_W) (h1 : ∀ w, Pipeline.arrRef spec0 w ≠ r) (h2 : r ∉ hostOps1_W)
    (h3 : ∀ w, Pipeline.arrRef spec1 w ≠ r) (h4 : r ∉ hostOps2_W) (h5 : ∀ w, Pipeline.arrRef spec2 w ≠ r) (h6 : r ∉ hostOps3_W)
    (h7 : ∀ w, Pipeline.arrRef spec3 w ≠ r) (h8 : r ∉ hostOps4_W) (h9 : ∀ w, Pipeline.arrRef spec4 w ≠ r) (h10 : r ∉ hostOps5_W)
    (h11 : ∀ w, Pipeline.arrRef spec5 w ≠ r) :
    W12 m ρ c (Proc.devRef .tc r) = m ((c : Thread nD τ).loc r) :=
  (W12_of_ne m ρ c r h11).trans <| (W11_keep m ρ c r h10).trans <| (W10_of_ne m ρ c r h9).trans <| (W9_keep m ρ c r h8).trans <| (W8_of_ne m ρ c r h7).trans <| (W7_keep m ρ c r h6).trans <| (W6_of_ne m ρ c r h5).trans <| (W5_keep m ρ c r h4).trans <| (W4_of_ne m ρ c r h3).trans <| (W3_keep m ρ c r h2).trans <| (W2_of_ne m ρ c r h1).trans <| (W1_keep m ρ c r h0).trans <| rfl

/-- The first head's weights, -/
theorem arg8_at12 : W12 m ρ c (Proc.devRef .tc main_arg8) = m ((c.tc : Thread nD τ).loc main_arg8) :=
  arg_at12 m ρ c main_arg8 (by decide) (by decide) (by decide) (by decide) (by decide) (by decide) (by decide) (by decide) (by decide) (by decide) (by decide) (by decide)

/-- its bias, -/
theorem arg9_at12 : W12 m ρ c (Proc.devRef .tc main_arg9) = m ((c.tc : Thread nD τ).loc main_arg9) :=
  arg_at12 m ρ c main_arg9 (by decide) (by decide) (by decide) (by decide) (by decide) (by decide) (by decide) (by decide) (by decide) (by decide) (by decide) (by decide)

/-- the second head's weights, -/
theorem arg10_at12 : W12 m ρ c (Proc.devRef .tc main_arg10) = m ((c.tc : Thread nD τ).loc main_arg10) :=
  arg_at12 m ρ c main_arg10 (by decide) (by decide) (by decide) (by decide) (by decide) (by decide) (by decide) (by decide) (by decide) (by decide) (by decide) (by decide)

/-- its bias, -/
theorem arg11_at12 : W12 m ρ c (Proc.devRef .tc main_arg11) = m ((c.tc : Thread nD τ).loc main_arg11) :=
  arg_at12 m ρ c main_arg11 (by decide) (by decide) (by decide) (by decide) (by decide) (by decide) (by decide) (by decide) (by decide) (by decide) (by decide) (by decide)

/-- the third head's weights, -/
theorem arg12_at12 : W12 m ρ c (Proc.devRef .tc main_arg12) = m ((c.tc : Thread nD τ).loc main_arg12) :=
  arg_at12 m ρ c main_arg12 (by decide) (by decide) (by decide) (by decide) (by decide) (by decide) (by decide) (by decide) (by decide) (by decide) (by decide) (by decide)

/-- its bias. -/
theorem arg13_at12 : W12 m ρ c (Proc.devRef .tc main_arg13) = m ((c.tc : Thread nD τ).loc main_arg13) :=
  arg_at12 m ρ c main_arg13 (by decide) (by decide) (by decide) (by decide) (by decide) (by decide) (by decide) (by decide) (by decide) (by decide) (by decide) (by decide)

/-- The three heads' weights side by side: a 128 x 9 matrix. -/
abbrev Wcat : S128x9.Idx → Ideal .f32 :=
  concatenate S128x9 1 [⟨S128x3, (m ((c.tc : Thread nD τ).loc main_arg8))⟩, ⟨S128x3, (m ((c.tc : Thread nD τ).loc main_arg10))⟩, ⟨S128x3, (m ((c.tc : Thread nD τ).loc main_arg12))⟩] concatenates_S128x3_S128x3_S128x3_S128x9_d1

/-- The three heads' biases end to end: a 9-vector. -/
abbrev bcat : S9.Idx → Ideal .f32 :=
  concatenate S9 0 [⟨S3, (m ((c.tc : Thread nD τ).loc main_arg9))⟩, ⟨S3, (m ((c.tc : Thread nD τ).loc main_arg11))⟩, ⟨S3, (m ((c.tc : Thread nD τ).loc main_arg13))⟩] concatenates_S3_S3_S3_S9_d0

theorem v84_eq : W13 m ρ c (Proc.devRef .tc main_v84) = Wcat m c := by
  refine (after6_v84 (W12 m ρ c)).trans ?_
  rw [arg8_at12, arg10_at12, arg12_at12]

theorem v85_eq : W13 m ρ c (Proc.devRef .tc main_v85) = bcat m c := by
  refine (after6_v85 (W12 m ρ c)).trans ?_
  rw [arg9_at12, arg11_at12, arg13_at12]

/-- The product's left operand is the third layer's output. -/
theorem v88_eq : W17 m ρ c (Proc.devRef .tc main_v88) = W12 m ρ c (Proc.devRef .tc main_v83) := by
  refine (after6_4_v88 (W16 m ρ c)).trans ?_
  refine (W16_keep m ρ c main_v83 (by decide)).trans ?_
  refine (W15_keep m ρ c main_v83 (by decide)).trans ?_
  refine (W14_keep m ρ c main_v83 (by decide)).trans ?_
  exact W13_keep m ρ c main_v83 (by decide)

/-- The product's right operand is the weights' matrix padded to 128 columns. -/
theorem v89_eq : W17 m ρ c (Proc.devRef .tc main_v89)
    = pad S128x128 ![0, 0] ![0, 119] ![0, 0] (Wcat m c) (sitofp (F := Ideal) .f32 (W13 m ρ c (Proc.devRef .tc main_c_14))) pads_S128x9_S128x128_000_01190 h_S_ := by
  refine (after6_4_v89 (W16 m ρ c)).trans ?_
  refine (W16_keep m ρ c main_v86 (by decide)).trans ?_
  refine (W15_keep m ρ c main_v86 (by decide)).trans ?_
  refine (after6_1_v86 (W13 m ρ c)).trans ?_
  rw [v84_eq]

/-- At one of its first nine columns it is the weights' matrix. -/
theorem v89_apply (k : Fin 128) (j : Fin 9) (j' : Fin 128) (hj : j'.val = j.val) :
    (W17 m ρ c (Proc.devRef .tc main_v89) : S128x128.Idx → Ideal .bf16) (ix2 k j') = Wcat m c (ix2 k j) := by
  rw [v89_eq]
  exact pad_cols_apply _ _ _ h_S_ k j j' hj

/-- The added row is the biases' vector padded to 128 entries, as a row. -/
theorem v90_eq : W17 m ρ c (Proc.devRef .tc main_v90)
    = shapeCast S1x128 (pad S128 ![0] ![119] ![0] (bcat m c) (sitofp (F := Ideal) .f32 (W15 m ρ c (Proc.devRef .tc main_c_15))) pads_S9_S128_01190 h_S_) shapeCasts_S128_S1x128 := by
  refine (after6_4_v90 (W16 m ρ c)).trans ?_
  rw [show W16 m ρ c (Proc.devRef .tc main_v87) = _ from after6_3_v87 (W15 m ρ c)]
  rw [show W15 m ρ c (Proc.devRef .tc main_v85) = bcat m c from
    (W15_keep m ρ c main_v85 (by decide)).trans <| (W14_keep m ρ c main_v85 (by decide)).trans <| v85_eq m ρ c]

/-- At one of its first nine columns it is the biases' vector. -/
theorem v90_apply (j : Fin 9) (j' : Fin 128) (hj : j'.val = j.val) :
    (W17 m ρ c (Proc.devRef .tc main_v90) : S1x128.Idx → Ideal .f32) (ix2 (0 : Fin 1) j') = bcat m c (ix1 j) := by
  rw [v90_eq]
  refine (shapeCast_a_1a_apply _ shapeCasts_S128_S1x128 (0 : Fin 1) j').trans ?_
  exact pad_vec_apply _ _ _ h_S_ j j' hj

/-- The result keeps the product's first nine columns. -/
theorem v92_apply (p : Fin 50000) (j : Fin 9) (j' : Fin 128) (hj : j'.val = j.val) :
    (W19 m ρ c (Proc.devRef .tc main_v92) : S50000x9.Idx → Ideal .f32) (ix2 p j)
      = (W18 m ρ c (Proc.devRef .tc main_v91) : S50000x128.Idx → Ideal .f32) (ix2 p j') := by
  rw [show W19 m ρ c (Proc.devRef .tc main_v92) = _ from after7_v92 (W18 m ρ c)]
  exact slice2_axis1_apply 0 _ slices_S50000x128_S50000x9_0_0 p j j' (by omega)

/-! ## The reference's side: each head's product with its bias row added, at an index -/

/-- The first head at row `p`, column `r`. -/
theorem ref_head0 (p : Fin 50000) (r : Fin 3) :
    Cert.ReferenceIdeal.Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 p r)
      = (∑ k : Fin 128, Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 p k) * (m ((c.tc : Thread nD τ).loc main_arg8)) (ix2 k r)) + (m ((c.tc : Thread nD τ).loc main_arg9)) (ix1 r) := by
  rw [Cert.ReferenceIdeal.Read.val_main_v96_apply, Cert.ReferenceIdeal.Read.val_main_v93_apply, Cert.ReferenceIdeal.Read.val_main_v95_apply, Cert.ReferenceIdeal.Read.val_main_v94_apply]
  have el : ∀ k : Fin 128, Cert.ReferenceIdeal.Read.lidx_main_v93 (ix2 p r) k = ix2 p k := fun k =>
    funext fun a => match a with | ⟨0, _⟩ => rfl | ⟨1, _⟩ => rfl
  have er : ∀ k : Fin 128, Cert.ReferenceIdeal.Read.ridx_main_v93 (ix2 p r) k = ix2 k r := fun k =>
    funext fun a => match a with | ⟨0, _⟩ => rfl | ⟨1, _⟩ => rfl
  have eb : Cert.ReferenceIdeal.Read.idx_main_v94 (Cert.ReferenceIdeal.Read.idx_main_v95 (ix2 p r)) = ix1 r :=
    funext fun a => match a with | ⟨0, _⟩ => rfl
  rw [eb]
  refine congrArg (· + (m ((c.tc : Thread nD τ).loc main_arg9)) (ix1 r)) (Finset.sum_congr rfl fun k _ => ?_)
  rw [el k, er k]

/-- The second head at row `p`, column `r`. -/
theorem ref_head1 (p : Fin 50000) (r : Fin 3) :
    Cert.ReferenceIdeal.Read.val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (ix2 p r)
      = (∑ k : Fin 128, Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 p k) * (m ((c.tc : Thread nD τ).loc main_arg10)) (ix2 k r)) + (m ((c.tc : Thread nD τ).loc main_arg11)) (ix1 r) := by
  rw [Cert.ReferenceIdeal.Read.val_main_v100_apply, Cert.ReferenceIdeal.Read.val_main_v97_apply, Cert.ReferenceIdeal.Read.val_main_v99_apply, Cert.ReferenceIdeal.Read.val_main_v98_apply]
  have el : ∀ k : Fin 128, Cert.ReferenceIdeal.Read.lidx_main_v97 (ix2 p r) k = ix2 p k := fun k =>
    funext fun a => match a with | ⟨0, _⟩ => rfl | ⟨1, _⟩ => rfl
  have er : ∀ k : Fin 128, Cert.ReferenceIdeal.Read.ridx_main_v97 (ix2 p r) k = ix2 k r := fun k =>
    funext fun a => match a with | ⟨0, _⟩ => rfl | ⟨1, _⟩ => rfl
  have eb : Cert.ReferenceIdeal.Read.idx_main_v98 (Cert.ReferenceIdeal.Read.idx_main_v99 (ix2 p r)) = ix1 r :=
    funext fun a => match a with | ⟨0, _⟩ => rfl
  rw [eb]
  refine congrArg (· + (m ((c.tc : Thread nD τ).loc main_arg11)) (ix1 r)) (Finset.sum_congr rfl fun k _ => ?_)
  rw [el k, er k]

/-- The third head at row `p`, column `r`. -/
theorem ref_head2 (p : Fin 50000) (r : Fin 3) :
    Cert.ReferenceIdeal.Read.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13)) (ix2 p r)
      = (∑ k : Fin 128, Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 p k) * (m ((c.tc : Thread nD τ).loc main_arg12)) (ix2 k r)) + (m ((c.tc : Thread nD τ).loc main_arg13)) (ix1 r) := by
  rw [Cert.ReferenceIdeal.Read.val_main_v104_apply, Cert.ReferenceIdeal.Read.val_main_v101_apply, Cert.ReferenceIdeal.Read.val_main_v103_apply, Cert.ReferenceIdeal.Read.val_main_v102_apply]
  have el : ∀ k : Fin 128, Cert.ReferenceIdeal.Read.lidx_main_v101 (ix2 p r) k = ix2 p k := fun k =>
    funext fun a => match a with | ⟨0, _⟩ => rfl | ⟨1, _⟩ => rfl
  have er : ∀ k : Fin 128, Cert.ReferenceIdeal.Read.ridx_main_v101 (ix2 p r) k = ix2 k r := fun k =>
    funext fun a => match a with | ⟨0, _⟩ => rfl | ⟨1, _⟩ => rfl
  have eb : Cert.ReferenceIdeal.Read.idx_main_v102 (Cert.ReferenceIdeal.Read.idx_main_v103 (ix2 p r)) = ix1 r :=
    funext fun a => match a with | ⟨0, _⟩ => rfl
  rw [eb]
  refine congrArg (· + (m ((c.tc : Thread nD τ).loc main_arg13)) (ix1 r)) (Finset.sum_congr rfl fun k _ => ?_)
  rw [el k, er k]

/-! ## The two sides meet, head by head -/

/-- Columns 0 to 2: the first head. -/
theorem head_case0 (p : Fin 50000) (j : Fin 9) (r : Fin 3) (hj : j.val = 0 + r.val) :
    (∑ k : Fin 128, Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 p k) * Wcat m c (ix2 k j)) + bcat m c (ix1 j)
      = Cert.ReferenceIdeal.Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (ix2 p j) := by
  have eb : bcat m c (ix1 j) = (m ((c.tc : Thread nD τ).loc main_arg9)) (ix1 r) := concat3_vec_0 _ _ _ _ j r hj
  have ew : ∀ k : Fin 128, Wcat m c (ix2 k j) = (m ((c.tc : Thread nD τ).loc main_arg8)) (ix2 k r) := fun k => concat3_cols_0 _ _ _ _ k j r hj
  unfold Cert.ReferenceIdeal.Read.val_main_v105
  rw [concat3_cols_0 _ _ _ _ p j r hj, ref_head0 m c p r, eb]
  refine congrArg (· + (m ((c.tc : Thread nD τ).loc main_arg9)) (ix1 r)) (Finset.sum_congr rfl fun k _ => ?_)
  rw [ew k]

/-- Columns 3 to 5: the second head. -/
theorem head_case1 (p : Fin 50000) (j : Fin 9) (r : Fin 3) (hj : j.val = 3 + r.val) :
    (∑ k : Fin 128, Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 p k) * Wcat m c (ix2 k j)) + bcat m c (ix1 j)
      = Cert.ReferenceIdeal.Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (ix2 p j) := by
  have eb : bcat m c (ix1 j) = (m ((c.tc : Thread nD τ).loc main_arg11)) (ix1 r) := concat3_vec_1 _ _ _ _ j r hj
  have ew : ∀ k : Fin 128, Wcat m c (ix2 k j) = (m ((c.tc : Thread nD τ).loc main_arg10)) (ix2 k r) := fun k => concat3_cols_1 _ _ _ _ k j r hj
  unfold Cert.ReferenceIdeal.Read.val_main_v105
  rw [concat3_cols_1 _ _ _ _ p j r hj, ref_head1 m c p r, eb]
  refine congrArg (· + (m ((c.tc : Thread nD τ).loc main_arg11)) (ix1 r)) (Finset.sum_congr rfl fun k _ => ?_)
  rw [ew k]

/-- Columns 6 to 8: the third head. -/
theorem head_case2 (p : Fin 50000) (j : Fin 9) (r : Fin 3) (hj : j.val = 6 + r.val) :
    (∑ k : Fin 128, Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 p k) * Wcat m c (ix2 k j)) + bcat m c (ix1 j)
      = Cert.ReferenceIdeal.Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (ix2 p j) := by
  have eb : bcat m c (ix1 j) = (m ((c.tc : Thread nD τ).loc main_arg13)) (ix1 r) := concat3_vec_2 _ _ _ _ j r hj
  have ew : ∀ k : Fin 128, Wcat m c (ix2 k j) = (m ((c.tc : Thread nD τ).loc main_arg12)) (ix2 k r) := fun k => concat3_cols_2 _ _ _ _ k j r hj
  unfold Cert.ReferenceIdeal.Read.val_main_v105
  rw [concat3_cols_2 _ _ _ _ p j r hj, ref_head2 m c p r, eb]
  refine congrArg (· + (m ((c.tc : Thread nD τ).loc main_arg13)) (ix1 r)) (Finset.sum_congr rfl fun k _ => ?_)
  rw [ew k]

/-! ## The last region's operands and output, as arrays of extended reals -/

/-- The product's left operand, -/
abbrev prodL : S50000x128.Idx → EReal := W17 m ρ c (Proc.devRef .tc main_v88)
/-- its right operand, -/
abbrev prodR : S128x128.Idx → EReal := W17 m ρ c (Proc.devRef .tc main_v89)
/-- the row added to it, -/
abbrev prodB : S1x128.Idx → EReal := W17 m ρ c (Proc.devRef .tc main_v90)
/-- and the last region's output. -/
abbrev prodOut : S50000x128.Idx → EReal := W18 m ρ c (Proc.devRef .tc main_v91)

end Heads

/-- The result array after the run is the reference's: given the last region's product in closed form and the third
    layer's output equal to the reference's, column `3 h + r` of both is head `h`'s column `r`. -/
theorem heads_eq
    (h6 : ∀ (p : Fin 50000) (q : Fin 128), Heads.prodOut m ρ c (ix2 p q)
        = (∑ k : Fin 128, Heads.prodL m ρ c (ix2 p k) * Heads.prodR m ρ c (ix2 k q)) + Heads.prodB m ρ c (ix2 (0 : Fin 1) q))
    (hX : (W12 m ρ c (Proc.devRef .tc main_v83) : S50000x128.Idx → EReal) = Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :
    W19 m ρ c (Proc.devRef .tc main_v92)
      = Cert.ReferenceIdeal.Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  funext i
  obtain ⟨p, j, rfl⟩ : ∃ (p : Fin 50000) (j : Fin 9), i = ix2 p j := ⟨i 0, i 1, eq_ix2 i⟩
  have hj : j.val < 9 := j.isLt
  refine (Heads.v92_apply m ρ c p j ⟨j.val, by omega⟩ rfl).trans ?_
  refine (h6 p ⟨j.val, by omega⟩).trans ?_
  have eL : ∀ k : Fin 128, Heads.prodL m ρ c (ix2 p k) = Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 p k) :=
    fun k => congrFun ((Heads.v88_eq m ρ c).trans hX) (ix2 p k)
  have eR : ∀ k : Fin 128, Heads.prodR m ρ c (ix2 k (⟨j.val, by omega⟩ : Fin 128)) = Heads.Wcat m c (ix2 k j) :=
    fun k => Heads.v89_apply m ρ c k j ⟨j.val, by omega⟩ rfl
  have eB : Heads.prodB m ρ c (ix2 (0 : Fin 1) (⟨j.val, by omega⟩ : Fin 128)) = Heads.bcat m c (ix1 j) :=
    Heads.v90_apply m ρ c j ⟨j.val, by omega⟩ rfl
  have eS : (∑ k : Fin 128, Heads.prodL m ρ c (ix2 p k) * Heads.prodR m ρ c (ix2 k (⟨j.val, by omega⟩ : Fin 128)))
      = ∑ k : Fin 128, Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 p k) * Heads.Wcat m c (ix2 k j) :=
    Finset.sum_congr rfl fun k _ => by rw [eL k, eR k]
  rw [eS, eB]
  by_cases h0 : j.val < 3
  · exact Heads.head_case0 m c p j ⟨j.val, h0⟩ (by show j.val = 0 + j.val; omega)
  · by_cases h1 : j.val < 6
    · exact Heads.head_case1 m c p j ⟨j.val - 3, by omega⟩ (by show j.val = 3 + (j.val - 3); omega)
    · exact Heads.head_case2 m c p j ⟨j.val - 6, by omega⟩ (by show j.val = 6 + (j.val - 6); omega)

end Cert.KernelIdeal.Val

end
-- ==== Proof.lean ====
/-
  The certificate's five claims.

  The program is three graph-convolution layers and a three-headed linear read-out. Each layer multiplies the node
  features by a weight matrix (a kernel region, row block by row block), gathers the product's rows at the edges'
  sources, scales them per edge and sums them into the edges' destinations (host operations, the same in both
  programs), and then takes max((agg + h · norm_self) + b, 0) (a second kernel region). The read-out multiplies by the
  three heads' weights set side by side and padded with zero columns, adds the padded biases, and keeps the first nine
  columns; the reference computes the three heads apart and joins them.

  At the ideal instance a cast to a narrower float format is the identity and a matrix product is the plain sum over the
  shared index, whatever the blocking; a zero column of the padded weights only feeds columns that are dropped. So every
  intermediate array of the kernel program is, index by index, the reference's: no law of arithmetic beyond equality of
  equal terms is used, and the precondition is never opened.

  The frames: each kernel program's run is carried through its seven regions and the host stretches between them, ending
  with every unscoped buffer at the last boundary's contents; the arguments are written by nothing.
-/
import proofs.«130624_j18597208392405_1_alg».proof.Defs
import proofs.«130624_j18597208392405_1_alg».proof.Proof.Gen.Kernel
import proofs.«130624_j18597208392405_1_alg».proof.Proof.Gen.KernelIdeal
import proofs.«130624_j18597208392405_1_alg».proof.Proof.Gen.ReferenceIdeal
import proofs.«130624_j18597208392405_1_alg».proof.Proof.Gen.ReferenceIdeal.Run
import proofs.«130624_j18597208392405_1_alg».proof.Proof.Gen.ReferenceIdeal.Read
import proofs.«130624_j18597208392405_1_alg».proof.Proof.Gen.Pre_finite_inputs
import proofs.«130624_j18597208392405_1_alg».proof.Proof.Frames
import proofs.«130624_j18597208392405_1_alg».proof.Proof.KI.Layer1
import proofs.«130624_j18597208392405_1_alg».proof.Proof.KI.Layer2
import proofs.«130624_j18597208392405_1_alg».proof.Proof.KI.Layer3
import proofs.«130624_j18597208392405_1_alg».proof.Proof.KI.Val6
import proofs.«130624_j18597208392405_1_alg».proof.Proof.KI.Heads
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

set_option maxHeartbeats 4000000 in
/-- The kernel program's result array after its run is the reference's result term of the same arguments. -/
theorem value_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Frm.W19 m ρ c (Proc.devRef .tc Cert.KernelIdeal.main_v92)
      = Cert.ReferenceIdeal.Read.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) :=
  Cert.KernelIdeal.Val.heads_eq m ρ c
    (fun p q => (congrFun (Cert.KernelIdeal.Frm.W18_arr m ρ c 3) (ix2 p q)).trans
      (Cert.KernelIdeal.Val.final6 (Cert.KernelIdeal.Frm.B17 m ρ) c _ _ _ rfl rfl rfl p q))
    (Cert.KernelIdeal.Val.layer3 m ρ c (Cert.KernelIdeal.Val.layer2 m ρ c (Cert.KernelIdeal.Val.out1_eq m ρ c)))

/-- The idealized kernel and the idealized reference, run from memories that agree on the arguments, end with equal results. -/
theorem algebraic : Cert.algebraic_KernelIdeal_ReferenceIdeal := by
  intro m ρ m' ρ' _ hagree
  refine ⟨fun c => Cert.KernelIdeal.Frm.W19 m ρ c (Proc.devRef .tc Cert.KernelIdeal.main_v92), ?_, ?_⟩
  · exact (θ_run Cert.KernelIdeal.defs _ _).mono
      (fun r h c => ⟨h c _ (Cert.KernelIdeal.Frm.mem_uc Cert.KernelIdeal.main_v92 (by decide)), Cert.Proof.Frames.args_KernelIdeal m ρ r h c⟩)
      (Cert.KernelIdeal.Frm.run_all (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v105_eq]
    obtain ⟨e0, e1, e2, e3, e4, e5, e6, e7, e8, e9, e10, e11, e12, e13⟩ := hagree c
    rw [e0, e1, e2, e3, e4, e5, e6, e7, e8, e9, e10, e11, e12, e13]
    exact (value_eq m ρ c).symm

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, trivial, algebraic⟩

end Cert.Proof

end
